-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x1000x128 : Shape := ⟨3, ![1024, 1000, 128]⟩
abbrev S1024x1 : Shape := ⟨2, ![1024, 1]⟩
abbrev S_ : Shape := ⟨0, ![]⟩

class Facts : Prop where
  bcast_S_S1024x1000x128 : S_.BroadcastsInDim S1024x1000x128 (![] : Fin 0 → Fin S1024x1000x128.rank)
  reducesTo_S1024x1000x128_S_d0_1_2 : S1024x1000x128.ReducesTo [0, 1, 2] S_
  h_S_ : 0 < S_.numel
  bcast_S_S1024x1 : S_.BroadcastsInDim S1024x1 (![] : Fin 0 → Fin S1024x1.rank)
  reducesTo_S1024x1_S_d0_1 : S1024x1.ReducesTo [0, 1] S_

variable [Facts]

def fn {F : FTy → Type} [FloatOps F] (main_arg0 : FVec F S1024x1000x128 .f32) (main_arg1 : IVec S1024x1 32) : IVec S_ 1 :=
  let main_v0 : FVec F S1024x1000x128 .f32 := Host.absf main_arg0
  let main_cst : FVec F S_ .f32 := constant S_ .f32 0x7F800000#32
  let main_v1 : FVec F S1024x1000x128 .f32 := broadcastInDim S1024x1000x128 ![] bcast_S_S1024x1000x128 main_cst
  let main_v2 : IVec S1024x1000x128 1 := cmpf .olt main_v0 main_v1
  let main_c : IVec S_ 1 := constantI S_ 1 1#1
  let main_v3 : IVec S_ 1 := (fun x v => Host.reduce IntOp.andi x v reducesTo_S1024x1000x128_S_d0_1_2 h_S_) main_v2 main_c
  let main_c_0 : IVec S_ 32 := constantI S_ 32 0#32
  let main_v4 : IVec S1024x1 32 := broadcastInDim S1024x1 ![] bcast_S_S1024x1 main_c_0
  let main_v5 : IVec S1024x1 1 := cmpi .sge main_arg1 main_v4
  let main_c_1 : IVec S_ 32 := constantI S_ 32 999#32
  let main_v6 : IVec S1024x1 32 := broadcastInDim S1024x1 ![] bcast_S_S1024x1 main_c_1
  let main_v7 : IVec S1024x1 1 := cmpi .sle main_arg1 main_v6
  let main_v8 : IVec S1024x1 1 := andi main_v5 main_v7
  let main_c_2 : IVec S_ 1 := constantI S_ 1 1#1
  let main_v9 : IVec S_ 1 := (fun x v => Host.reduce IntOp.andi x v reducesTo_S1024x1_S_d0_1 h_S_) main_v8 main_c_2
  let main_v10 : IVec S_ 1 := andi main_v3 main_v9
  main_v10
-- ==== Kernel.lean ====
abbrev S1024x1000x128 : Shape := ⟨3, ![1024, 1000, 128]⟩
abbrev S1024x1 : Shape := ⟨2, ![1024, 1]⟩
abbrev S1024000x128 : Shape := ⟨2, ![1024000, 128]⟩
abbrev S1024 : Shape := ⟨1, ![1024]⟩
abbrev S1024x128 : Shape := ⟨2, ![1024, 128]⟩
abbrev S64 : Shape := ⟨1, ![64]⟩
abbrev S64x128 : Shape := ⟨2, ![64, 128]⟩
abbrev S_ : Shape := ⟨0, ![]⟩
abbrev S16 : Shape := ⟨1, ![16]⟩
abbrev S32x128 : Shape := ⟨2, ![32, 128]⟩
abbrev S32 : Shape := ⟨1, ![32]⟩
abbrev S1024x1x128 : Shape := ⟨3, ![1024, 1, 128]⟩

abbrev nBuf : Table → Nat
  | .hbm => 6
  | .local .scVector .vmem => 2
  | _ => 0

abbrev bufTy : (tb : Table) → Fin (nBuf tb) → BufTy
  | .hbm, ⟨0, _⟩ => ⟨S1024x1000x128, .f32⟩
  | .hbm, ⟨1, _⟩ => ⟨S1024x1, .i32⟩
  | .hbm, ⟨2, _⟩ => ⟨S1024000x128, .f32⟩
  | .hbm, ⟨3, _⟩ => ⟨S1024, .i32⟩
  | .hbm, ⟨4, _⟩ => ⟨S1024x128, .f32⟩
  | .hbm, ⟨5, _⟩ => ⟨S1024x1x128, .f32⟩
  | .local .scVector .vmem, ⟨0, _⟩ => ⟨S64, .i32⟩
  | .local .scVector .vmem, ⟨1, _⟩ => ⟨S64x128, .f32⟩
  | _, _ => ⟨S1024x1000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_24 : BitVec 32 := 0#32
  ![v2.toNat, 0]
def k0_off3 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32_33 : BitVec 32 := 32#32
  let v67 : BitVec 32 := Scalar.addi v2 c32_i32_33
  let c0_i32_42_r1 : BitVec 32 := 0#32
  ![v67.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x1000x128_S1024000x128 : S1024x1000x128.ShapeCasts S1024000x128
  shapeCasts_S1024x1_S1024 : S1024x1.ShapeCasts S1024
  inb_S64_S16_0 : ∀ a, (![0] : Fin 1 → Nat) a + S16.size a ≤ S64.size a
  h_S16 : 0 < S16.numel
  shapeCasts_S16_S16 : S16.ShapeCasts S16
  iota_S16_d0_w32_scVector : S16.Iotas .scVector 32 [0]
  inb_S64_S16_16 : ∀ a, (![16] : Fin 1 → Nat) a + S16.size a ≤ S64.size a
  inb_S64_S16_32 : ∀ a, (![32] : Fin 1 → Nat) a + S16.size a ≤ S64.size a
  inb_S64_S16_48 : ∀ a, (![48] : Fin 1 → Nat) a + S16.size a ≤ S64.size a
  inb_S64x128_S32x128_0_0 : ∀ a, (![0, 0] : Fin 2 → Nat) a + S32x128.size a ≤ S64x128.size a
  inb_S64_S32_0 : ∀ a, (![0] : Fin 1 → Nat) a + S32.size a ≤ S64.size a
  inb_S1024000x128_S1024000x128_0_0 : ∀ a, (![0, 0] : Fin 2 → Nat) a + S1024000x128.size a ≤ S1024000x128.size a
  gathers_S1024000x128_S32x128 : S1024000x128.Gathers 0 S32x128
  inb_S64x128_S32x128_32_0 : ∀ a, (![32, 0] : Fin 2 → Nat) a + S32x128.size a ≤ S64x128.size a
  inb_S64_S32_32 : ∀ a, (![32] : Fin 1 → Nat) a + S32.size a ≤ S64.size a
  shapeCasts_S1024x128_S1024x1x128 : S1024x128.ShapeCasts S1024x1x128
  hcc0_scratch2 : 0 + S_.numel ≤ 5
  hcc0_scratch3 : 1 + S_.numel ≤ 5
  hcc0_scratch4 : 2 + S_.numel ≤ 5
  hcc0_scoped0 : 3 + S_.numel ≤ 5
  hcc0_scoped1 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S64.size a ≤ S1024.size a
  k0_off2_inb : ∀ i : grid0.Coords, ∀ a, (k0_off2 i) a + S32x128.size a ≤ S1024x128.size a
  k0_off3_inb : ∀ i : grid0.Coords, ∀ a, (k0_off3 i) a + S32x128.size a ≤ S1024x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scoped0 : DmaSems sig S_ := SemArray.consecutive 3 S_ hcc0_scoped0
abbrev cc0_scoped1 : DmaSems sig S_ := SemArray.consecutive 4 S_ hcc0_scoped1

class Facts : Prop extends Facts₀ where

variable [Facts]
-- ==== ReferenceIdeal.lean ====
abbrev S1024x1000x128 : Shape := ⟨3, ![1024, 1000, 128]⟩
abbrev S1024x1 : Shape := ⟨2, ![1024, 1]⟩
abbrev S1024x1x1 : Shape := ⟨3, ![1024, 1, 1]⟩
abbrev S1024x1x128 : Shape := ⟨3, ![1024, 1, 128]⟩
abbrev S_ : Shape := ⟨0, ![]⟩
abbrev S1024x1x128x1 : Shape := ⟨4, ![1024, 1, 128, 1]⟩
abbrev S1 : Shape := ⟨1, ![1]⟩
abbrev S1x1x1x1 : Shape := ⟨4, ![1, 1, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S1024x1000x128, .f32⟩
  | .hbm, ⟨1, _⟩ => ⟨S1024x1, .i32⟩
  | .hbm, ⟨2, _⟩ => ⟨S1024x1x1, .i32⟩
  | .hbm, ⟨3, _⟩ => ⟨S1024x1x128, .i32⟩
  | .hbm, ⟨4, _⟩ => ⟨S_, .i32⟩
  | .hbm, ⟨5, _⟩ => ⟨S1024x1x128, .i32⟩
  | .hbm, ⟨6, _⟩ => ⟨S1024x1x128, .i1⟩
  | .hbm, ⟨7, _⟩ => ⟨S_, .i32⟩
  | .hbm, ⟨8, _⟩ => ⟨S1024x1x128, .i32⟩
  | .hbm, ⟨9, _⟩ => ⟨S1024x1x128, .i32⟩
  | .hbm, ⟨10, _⟩ => ⟨S1024x1x128, .i32⟩
  | .hbm, ⟨11, _⟩ => ⟨S1024x1x128x1, .i32⟩
  | .hbm, ⟨12, _⟩ => ⟨S1, .i32⟩
  | .hbm, ⟨13, _⟩ => ⟨S_, .i32⟩
  | .hbm, ⟨14, _⟩ => ⟨S1024x1x128x1, .i32⟩
  | .hbm, ⟨15, _⟩ => ⟨S1024x1x128x1, .i1⟩
  | .hbm, ⟨16, _⟩ => ⟨S1x1x1x1, .i32⟩
  | .hbm, ⟨17, _⟩ => ⟨S1024x1x128x1, .i32⟩
  | .hbm, ⟨18, _⟩ => ⟨S1024x1x128x1, .i1⟩
  | .hbm, ⟨19, _⟩ => ⟨S1024x1x128x1, .i1⟩
  | .hbm, ⟨20, _⟩ => ⟨S_, .i1⟩
  | .hbm, ⟨21, _⟩ => ⟨S1024x1x128, .i1⟩
  | .hbm, ⟨22, _⟩ => ⟨S1024x1x128, .f32⟩
  | .hbm, ⟨23, _⟩ => ⟨S_, .f32⟩
  | .hbm, ⟨24, _⟩ => ⟨S1024x1x128, .f32⟩
  | .hbm, ⟨25, _⟩ => ⟨S1024x1x128, .f32⟩
  | _, _ => ⟨S1024x1000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v2 : Ref sig .tc := ⟨.hbm, 25, rfl⟩

abbrev nD : Nat := 1
abbrev τ : Topo := Topo.v7x

variable {F : FTy → Type} [FloatOps F]

class Facts₀ : Prop where
  bcast_S1024x1_S1024x1x1_0_1 : S1024x1.BroadcastsInDim S1024x1x1 (![0, 1] : Fin 2 → Fin S1024x1x1.rank)
  bcast_S1024x1x1_S1024x1x128_0_1_2 : S1024x1x1.BroadcastsInDim S1024x1x128 (![0, 1, 2] : Fin 3 → Fin S1024x1x128.rank)
  bcast_S_S1024x1x128 : S_.BroadcastsInDim S1024x1x128 (![] : Fin 0 → Fin S1024x1x128.rank)
  shapeCasts_S1024x1x128_S1024x1x128x1 : S1024x1x128.ShapeCasts S1024x1x128x1
  bcast_S_S1024x1x128x1 : S_.BroadcastsInDim S1024x1x128x1 (![] : Fin 0 → Fin S1024x1x128x1.rank)
  bcast_S1_S1x1x1x1_3 : S1.BroadcastsInDim S1x1x1x1 (![3] : Fin 1 → Fin S1x1x1x1.rank)
  bcast_S1x1x1x1_S1024x1x128x1_0_1_2_3 : S1x1x1x1.BroadcastsInDim S1024x1x128x1 (![0, 1, 2, 3] : Fin 4 → Fin S1024x1x128x1.rank)
  reducesTo_S1024x1x128x1_S1024x1x128_d3 : S1024x1x128x1.ReducesTo [3] S1024x1x128
  h_S_ : 0 < S_.numel
  gather_S1024x1000x128_S1024x1x128x1_S1024x1x128_n_1_02_02_1_3_111_wf : GatherDims.WF S1024x1000x128 S1024x1x128x1 S1024x1x128 [] [1] [0, 2] [1] [0, 2] 3 ![1, 1, 1]

variable [Facts₀]

def gather_S1024x1000x128_S1024x1x128x1_S1024x1x128_n_1_02_02_1_3_111 : GatherDims S1024x1000x128 S1024x1x128x1 S1024x1x128 where
  offsetDims := []
  collapsedSliceDims := [1]
  operandBatchingDims := [0, 2]
  startIndicesBatchingDims := [0, 2]
  startIndexMap := [1]
  indexVectorDim := 3
  sliceSizes := ![1, 1, 1]
  wf := gather_S1024x1000x128_S1024x1x128x1_S1024x1x128_n_1_02_02_1_3_111_wf

class Facts : Prop extends Facts₀ where

variable [Facts]
-- ==== Proof.Spec.lean ====
/-
  What the gather kernel computes, as one function of its two operands, index by index.

  The embedding table is a matrix of 1024000 rows of 128 numbers: the 1000 node rows of batch entry 0, then
  those of batch entry 1, and so on. Batch entry `b` asks for node `idx b`; its row in the matrix is
  `idx b + 1000 * b` (computed in 32-bit words, as the kernel does). Row `b` of the result is that row of
  the matrix. The row number must name a row of the matrix (`InRange`): it does whenever every requested
  node is one of the 1000.
-/
import proofs.«207040_g69088843924254_cont_9to1_m_295_12_alg».proof.KernelIdeal
import Idealize.ShloMosaic.Lib.ValueIdx

noncomputable section

namespace Cert.KernelIdeal.Spec

open Idealize.ShloMosaic Idealize.ShloMosaic.ValueIdx Cert.KernelIdeal

variable {F : FTy → Type}

/-- The matrix row batch entry `x` reads: its requested node plus 1000 rows per earlier batch entry. -/
def flat (idx : S1024.Idx → BitVec 32) : S1024.Idx → BitVec 32 :=
  fun x => idx x + BitVec.ofNat 32 (x 0).val * 1000#32

/-- Every batch entry's row is a row of the matrix. -/
def InRange (fl : S1024.Idx → BitVec 32) : Prop := ∀ x, (fl x).toNat < 1024000

/-- The result: row `b` is row `fl b` of the matrix. -/
def gathered (tbl : S1024000x128.Idx → Elt F .f32) (fl : S1024.Idx → BitVec 32) (h : InRange fl) :
    S1024x128.Idx → Elt F .f32 :=
  fun x => tbl (ix2 ⟨(fl (ix1 (x 0))).toNat, h _⟩ (x 1))

end Cert.KernelIdeal.Spec

end
-- ==== Proof.IdealDefs.lean ====
/-
  The gather kernel's run: the vocabulary shared by the tile's proof and the launch's.

  The program reshapes the embedding table to a matrix of 1024000 rows and the requested nodes to a vector of 1024,
  starts one SparseCore kernel on sixteen tiles — tile `j` serves batch entries `64 j … 64 j + 63` — and reshapes
  the 1024 gathered rows to the result. Here: the locations, the elements each tile is handed, the values the
  buffers hold, and what the call's handshakes carry.
-/
import proofs.«207040_g69088843924254_cont_9to1_m_295_12_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207040_g69088843924254_cont_9to1_m_295_12_alg».proof.Proof.Gen.KernelIdeal
import proofs.«207040_g69088843924254_cont_9to1_m_295_12_alg».proof.Proof.Gen.KernelIdeal.Skeleton
import proofs.«207040_g69088843924254_cont_9to1_m_295_12_alg».proof.Proof.Spec

noncomputable section

namespace Cert.Proof.IdealK

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Locations, as the TensorCore names them -/

abbrev a0Loc (d : Dev nD) : Loc nD τ sig := (SparseCore.T d).loc main_arg0
abbrev a1Loc (d : Dev nD) : Loc nD τ sig := (SparseCore.T d).loc main_arg1
abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

/-! ## Which elements each of the sixteen tiles is handed

Tile `j` fetches the 64 requested nodes of batch entries `64 j … 64 j + 63` and writes the 64 result rows of the same
batch entries. -/

theorem chunk_inb (j : Fin 16) : ∀ a, (![64 * j.val] : Fin 1 → Nat) a + S64.size a ≤ S1024.size a := by
  intro a; obtain rfl : a = 0 := Subsingleton.elim _ _
  show 64 * j.val + 64 ≤ 1024; omega
theorem rows_inb (j : Fin 16) : ∀ a, (![64 * j.val, 0] : Fin 2 → Nat) a + S64x128.size a ≤ S1024x128.size a := by
  intro a
  match a with
  | ⟨0, _⟩ => show 64 * j.val + 64 ≤ 1024; omega
  | ⟨1, _⟩ => show 0 + 128 ≤ 128; omega

/-- The batch entries of tile `j`. -/
def chunkSet (j : Fin 16) : Finset S1024.Idx := (Rect.unit (s := S1024) ![64 * j.val] S64.size (chunk_inb j)).set
/-- The result rows of tile `j`. -/
def rowsSet (j : Fin 16) : Finset S1024x128.Idx := (Rect.unit (s := S1024x128) ![64 * j.val, 0] S64x128.size (rows_inb j)).set

theorem mem_chunkSet {j : Fin 16} {x : S1024.Idx} : x ∈ chunkSet j ↔ 64 * j.val ≤ (x 0).val ∧ (x 0).val < 64 * j.val + 64 := by
  unfold chunkSet; rw [Rect.mem_set_unit]
  constructor
  · intro h; exact h 0
  · intro h a; obtain rfl : a = 0 := Subsingleton.elim _ _; exact h
theorem mem_rowsSet {j : Fin 16} {x : S1024x128.Idx} : x ∈ rowsSet j ↔ 64 * j.val ≤ (x 0).val ∧ (x 0).val < 64 * j.val + 64 := by
  unfold rowsSet; rw [Rect.mem_set_unit]
  constructor
  · intro h; exact h 0
  · intro h a
    match a with
    | ⟨0, _⟩ => exact h
    | ⟨1, _⟩ => exact ⟨Nat.zero_le _, by have := ValueIdx.idx2_lt1 x; show (x 1).val < 0 + 128; omega⟩

/-! ## The values -/

variable (m : (ℓ : Loc nD τ sig) → Buf (Elt F) ℓ)

/-- The embedding table as the matrix the kernel gathers from: the first argument, its first two axes merged. -/
def TBL (d : Dev nD) : Buf (Elt F) (tLoc d) := shapeCast S1024000x128 (m (a0Loc d)) shapeCasts_S1024x1000x128_S1024000x128
/-- The requested nodes as a vector: the second argument without its unit axis. -/
def IDX (d : Dev nD) : Buf (Elt F) (iLoc d) := shapeCast S1024 (m (a1Loc d)) shapeCasts_S1024x1_S1024

/-- What the proof asks of the launch memory: every batch entry's row of the matrix exists. -/
def OK : Prop := ∀ d : Dev nD, Spec.InRange (Spec.flat (IDX m d))

/-- The matrix of gathered rows. -/
def GOUT (h : OK m) (d : Dev nD) : Buf (Elt F) (oLoc d) := Spec.gathered (TBL m d) (Spec.flat (IDX m d)) (h d)

/-- The result: the gathered rows with a unit axis inserted. -/
def ROUT (h : OK m) (d : Dev nD) : Buf (Elt F) (rLoc d) := shapeCast S1024x1x128 (GOUT m h d) shapeCasts_S1024x128_S1024x1x128

/-! ## What the call hands each SparseCore and each tile -/

/-- Tile `j`'s read share of the matrix: one sixteenth. -/
def tileShare (j : Fin 16) : PosShare TreeShare := pieceOf fullShare 16 (by decide) j

/-- To tile `j`: a read share of the whole matrix, its batch entries' requested nodes, and its result rows at whatever
    they hold. -/
def tileGo (d : Dev nD) (j : Fin 16) : sProp 𝕄 :=
  iprop((tLoc d ↦{tileShare j} TBL m d) ∗ (iLoc d ↦[chunkSet j]{fullShare} IDX m d) ∗ ∃ fo, oLoc d ↦[rowsSet j]{fullShare} fo)
/-- From tile `j`: the same, its result rows at the gathered rows. -/
def tileTd (h : OK m) (d : Dev nD) (j : Fin 16) : sProp 𝕄 :=
  iprop((tLoc d ↦{tileShare j} TBL m d) ∗ (iLoc d ↦[chunkSet j]{fullShare} IDX m d) ∗ (oLoc d ↦[rowsSet j]{fullShare} GOUT m h d))

/-- The one call takes the matrix, the requested nodes and the result whole, and brings them back, the result at the
    gathered rows. -/
def P (h : OK m) : (K (F := F)).Pay (nD := nD) (Val := Elt F) (Name := ℕ) (U := UU) where
  st := fun q d _ => match q with | 0 => iprop((tLoc d ↦{fullShare} TBL m d) ∗ (iLoc d ↦{fullShare} IDX m d) ∗ ∃ fo, oLoc d ↦{fullShare} fo)
  dn := fun q d _ => match q with | 0 => iprop((tLoc d ↦{fullShare} TBL m d) ∗ (iLoc d ↦{fullShare} IDX m d) ∗ (oLoc d ↦{fullShare} GOUT m h d))
  go := fun q d _ i => match q with | 0 => tileGo m d (Fin.cast nSub_zero i)
  td := fun q d _ i => match q with | 0 => tileTd m h d (Fin.cast nSub_zero i)
  x := fun _ _ => iprop(emp)

instance P_storable (h : OK m) : (P (F := F) m h).IsStorable where
  st q d _ := match q with
    | 0 => (inferInstance : BI.Storable (upEmb : UEmb _ 𝕄) iprop((tLoc d ↦{fullShare} TBL m d) ∗ (iLoc d ↦{fullShare} IDX m d) ∗ ∃ fo, oLoc d ↦{fullShare} fo))
  dn q d _ := match q with
    | 0 => (inferInstance : BI.Storable (upEmb : UEmb _ 𝕄) iprop((tLoc d ↦{fullShare} TBL m d) ∗ (iLoc d ↦{fullShare} IDX m d) ∗ (oLoc d ↦{fullShare} GOUT m h d)))
  go q d _ i := match q with
    | 0 => (by unfold tileGo; infer_instance : BI.Storable (upEmb : UEmb _ 𝕄) (tileGo m d (Fin.cast nSub_zero i)))
  td q d _ i := match q with
    | 0 => (by unfold tileTd; infer_instance : BI.Storable (upEmb : UEmb _ 𝕄) (tileTd m h d (Fin.cast nSub_zero i)))

/-- The claim's post, with the result named: the result buffer at `ROUT`, the two arguments unchanged. -/
def QC (h : OK m) : PUnit × MemSt nD τ sig (Elt F) → Prop := fun r => ∀ c : Dev nD,
  r.2.mem (rLoc c) = ROUT m h c ∧ r.2.mem (a0Loc c) = m (a0Loc c) ∧ r.2.mem (a1Loc c) = m (a1Loc c)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Proof.IdealK

end
-- ==== Proof.IdealRows.lean ====
/-
  What a tile's buffers hold, index by index.

  The tile at grid position `L` serves the 64 batch entries from `base L` on. It fetches their requested nodes
  into its list and then, sixteen lanes at a time, replaces entry `y` by `node + 1000 * (base L + y)`: the row of
  the embedding matrix to gather. Here: each of the four stores' payloads at a lane, in closed form; the list after
  the four stores is that row at every entry, whatever it held before; every such row is a row of the matrix when
  the requested nodes are in range; and a gathered row read back is the matrix's row the list names.
-/
import proofs.«207040_g69088843924254_cont_9to1_m_295_12_alg».proof.Proof.Gen.KernelIdeal
import proofs.«207040_g69088843924254_cont_9to1_m_295_12_alg».proof.Proof.Gen.KernelIdeal.Skeleton
import proofs.«207040_g69088843924254_cont_9to1_m_295_12_alg».proof.Proof.Spec
import Idealize.ShloMosaic.Lib.SparseCore.Stream
import Idealize.ShloMosaic.Lib.Writes
import Idealize.ShloMosaic.Lib.Pipeline.Value
import Idealize.ShloMosaic.Lib.ValueIdx

noncomputable section

namespace Cert.Proof.IdealK

open Cert.KernelIdeal Cert.KernelIdeal.Gen
open Idealize.ShloMosaic Idealize.ShloMosaic.ValueIdx

variable {F : FTy → Type} [FloatOps F]

local notation "tW" => (Memref.whole Cert.KernelIdeal.main_v0_scv : Memref Cert.KernelIdeal.sig Kind.scVector Space.hbm Cert.KernelIdeal.S1024000x128 EltTy.f32)
local notation "iW" => (Memref.whole Cert.KernelIdeal.main_v1_scv : Memref Cert.KernelIdeal.sig Kind.scVector Space.hbm Cert.KernelIdeal.S1024 EltTy.i32)
local notation "oW" => (Memref.whole Cert.KernelIdeal.main_v2_scv : Memref Cert.KernelIdeal.sig Kind.scVector Space.hbm Cert.KernelIdeal.S1024x128 EltTy.f32)
local notation "s0W" => (Memref.whole Cert.KernelIdeal.cc0_scratch0 : Memref Cert.KernelIdeal.sig Kind.scVector Space.vmem Cert.KernelIdeal.S64 EltTy.i32)
local notation "s1W" => (Memref.whole Cert.KernelIdeal.cc0_scratch1 : Memref Cert.KernelIdeal.sig Kind.scVector Space.vmem Cert.KernelIdeal.S64x128 EltTy.f32)

/-! ## The memrefs the body slices -/

/-- The tile's batch entries' requested nodes, in the vector of all of them. -/
abbrev iChunk (L : grid0.Coords) : Memref sig .scVector .hbm S64 .i32 := (iW).slice (Rect.unit (s := S1024) (k0_off1 L) S64.size (k0_off1_inb L)) (fun _ => rfl)
/-- The tile's first and second 32 result rows. -/
abbrev oA (L : grid0.Coords) : Memref sig .scVector .hbm S32x128 .f32 := (oW).slice (Rect.unit (s := S1024x128) (k0_off2 L) S32x128.size (k0_off2_inb L)) (fun _ => rfl)
abbrev oB (L : grid0.Coords) : Memref sig .scVector .hbm S32x128 .f32 := (oW).slice (Rect.unit (s := S1024x128) (k0_off3 L) S32x128.size (k0_off3_inb L)) (fun _ => rfl)
/-- The two halves of the list and of the gathered rows. -/
abbrev l0 : Memref sig .scVector .vmem S32 .i32 := (s0W).slice (Rect.unit (s := S64) ![0] S32.size inb_S64_S32_0) (fun _ => rfl)
abbrev l1 : Memref sig .scVector .vmem S32 .i32 := (s0W).slice (Rect.unit (s := S64) ![32] S32.size inb_S64_S32_32) (fun _ => rfl)
abbrev r0 : Memref sig .scVector .vmem S32x128 .f32 := (s1W).slice (Rect.unit (s := S64x128) ![0, 0] S32x128.size inb_S64x128_S32x128_0_0) (fun _ => rfl)
abbrev r1 : Memref sig .scVector .vmem S32x128 .f32 := (s1W).slice (Rect.unit (s := S64x128) ![32, 0] S32x128.size inb_S64x128_S32x128_32_0) (fun _ => rfl)
/-- The whole matrix, as the gathers name it. -/
abbrev tAll : Memref sig .scVector .hbm S1024000x128 .f32 := (tW).slice (Rect.unit (s := S1024000x128) ![0, 0] S1024000x128.size inb_S1024000x128_S1024000x128_0_0) (fun _ => rfl)

/-! ## The tile's first batch entry -/

/-- The first batch entry of the tile at grid position `L`. -/
def base (L : grid0.Coords) : Nat := 64 * (L 1).val + 64 * (L 0).val

theorem base_le (L : grid0.Coords) : base L + 64 ≤ 1024 := by
  have h1 : (L 1).val < 16 := (L 1).isLt
  have h0 : (L 0).val < 1 := (L 0).isLt
  unfold base; omega

/-- The same as the kernel computes it, in 32-bit words. -/
def baseWord (L : grid0.Coords) : BitVec 32 :=
  Scalar.muli (Scalar.addi (Scalar.muli (BitVec.ofNat 32 (L 1).val) 1#32) (BitVec.ofNat 32 (L 0).val)) 64#32

theorem baseWord_eq (L : grid0.Coords) : baseWord L = BitVec.ofNat 32 (base L) := by
  unfold baseWord base Scalar.muli Scalar.addi IntOp.muli IntOp.addi
  rw [BitVec.ofNat_add, BitVec.ofNat_mul, BitVec.ofNat_mul, BitVec.mul_one, BitVec.mul_comm, BitVec.mul_add]

/-- What a lane adds to its requested node: 1000 times its batch entry. -/
theorem lane_word (L : grid0.Coords) (c n : Nat) :
    (BitVec.ofNat 32 n + (baseWord L + BitVec.ofNat 32 c)) * 1000#32 = BitVec.ofNat 32 (base L + c + n) * 1000#32 := by
  rw [baseWord_eq, BitVec.ofNat_add, BitVec.ofNat_add]
  congr 1; ac_rfl

/-! ## The four stores' payloads at a lane -/

theorem pay1_apply (L : grid0.Coords) (v : Vec F S16 .i32) (z : S16.Idx) :
    k0_pay1 L v z = v z + BitVec.ofNat 32 (base L + 0 + (z 0).val) * 1000#32 := by
  rw [← lane_word]
  unfold k0_pay1 baseWord
  simp only [shapeCast_self, addi, muli, broadcast_apply, IntOp.addi, IntOp.muli, Scalar.addi, Scalar.muli]
  rw [iota_single_apply]
theorem pay2_apply (L : grid0.Coords) (v : Vec F S16 .i32) (z : S16.Idx) :
    k0_pay2 L v z = v z + BitVec.ofNat 32 (base L + 16 + (z 0).val) * 1000#32 := by
  rw [← lane_word]
  unfold k0_pay2 baseWord
  simp only [shapeCast_self, addi, muli, broadcast_apply, IntOp.addi, IntOp.muli, Scalar.addi, Scalar.muli]
  rw [iota_single_apply]
theorem pay43_apply (L : grid0.Coords) (v : Vec F S16 .i32) (z : S16.Idx) :
    k0_pay4 (k0_pay3 L v) z = v z + BitVec.ofNat 32 (base L + 32 + (z 0).val) * 1000#32 := by
  rw [← lane_word]
  unfold k0_pay4 k0_pay3 baseWord
  simp only [shapeCast_self, addi, muli, broadcast_apply, IntOp.addi, IntOp.muli, Scalar.addi, Scalar.muli]
  rw [iota_single_apply]
theorem pay5_apply (L : grid0.Coords) (v : Vec F S16 .i32) (z : S16.Idx) :
    k0_pay5 (baseWord L) v z = v z + BitVec.ofNat 32 (base L + 48 + (z 0).val) * 1000#32 := by
  rw [← lane_word]
  unfold k0_pay5
  simp only [shapeCast_self, addi, muli, broadcast_apply, IntOp.addi, IntOp.muli, Scalar.addi, Scalar.muli]
  rw [iota_single_apply]

/-! ## The list after the four stores -/

/-- Lane `z` of the sixteen lanes from `c` on is entry `c + z`. -/
theorem lane_emb (c : Nat) (h : ∀ a, (![c] : Fin 1 → Nat) a + S16.size a ≤ S64.size a) (z : S16.Idx) :
    (((Rect.unit (s := S64) ![c] S16.size h).emb z) 0).val = c + (z 0).val := by
  rw [Rect.emb_apply]; simp

/-- The row entry `y` of the tile's list is to hold. -/
def rowAt (L : grid0.Coords) (raw : S64.Idx → BitVec 32) (y : S64.Idx) : BitVec 32 :=
  raw y + BitVec.ofNat 32 (base L + (y 0).val) * 1000#32

/-- After the four stores — each of sixteen lanes' requested nodes, as fetched, plus their rows' offsets — every entry
    of the list is its row, whatever the list held before. -/
theorem list_rows (L : grid0.Coords) (raw : S64.Idx → BitVec 32) (v3 v15 v27 v39 : Vec F S16 .i32)
    (h3 : ∀ z, v3 z = raw ((Rect.unit (s := S64) ![0] S16.size inb_S64_S16_0).emb z))
    (h15 : ∀ z, v15 z = raw ((Rect.unit (s := S64) ![16] S16.size inb_S64_S16_16).emb z))
    (h27 : ∀ z, v27 z = raw ((Rect.unit (s := S64) ![32] S16.size inb_S64_S16_32).emb z))
    (h39 : ∀ z, v39 z = raw ((Rect.unit (s := S64) ![48] S16.size inb_S64_S16_48).emb z))
    (g : (s0W).view.ty.Contents (Elt F)) (y : S64.Idx) :
    (s0W).view.read (Elt F) ((s0W).view.writes (Elt F) g
      [⟨Rect.unit (s := S64) ![48] S16.size inb_S64_S16_48, k0_pay5 (baseWord L) v39⟩,
       ⟨Rect.unit (s := S64) ![32] S16.size inb_S64_S16_32, k0_pay4 (k0_pay3 L v27)⟩,
       ⟨Rect.unit (s := S64) ![16] S16.size inb_S64_S16_16, k0_pay2 L v15⟩,
       ⟨Rect.unit (s := S64) ![0] S16.size inb_S64_S16_0, k0_pay1 L v3⟩]) y
    = rowAt L raw y := by
  refine View.read_writes_apply_of_pieces (Val := Elt F) (s0W).view g (rowAt L raw : S64.Idx → Elt F .i32) _ ?_ y ?_
  · intro p hp x
    simp only [List.mem_cons, List.not_mem_nil, or_false] at hp
    rcases hp with rfl | rfl | rfl | rfl
    · show k0_pay5 (baseWord L) v39 x = _
      rw [pay5_apply, h39]; unfold rowAt; rw [lane_emb, Nat.add_assoc]
    · show k0_pay4 (k0_pay3 L v27) x = _
      rw [pay43_apply, h27]; unfold rowAt; rw [lane_emb, Nat.add_assoc]
    · show k0_pay2 L v15 x = _
      rw [pay2_apply, h15]; unfold rowAt; rw [lane_emb, Nat.add_assoc]
    · show k0_pay1 L v3 x = _
      rw [pay1_apply, h3]; unfold rowAt; rw [lane_emb, Nat.add_assoc]
  · have hy : (y 0).val < 64 := (y 0).isLt
    have hm : ∀ c (h : ∀ a, (![c] : Fin 1 → Nat) a + S16.size a ≤ S64.size a), c ≤ (y 0).val → (y 0).val < c + 16 →
        y ∈ (Rect.unit (s := S64) ![c] S16.size h).set := by
      intro c h h1 h2
      rw [Rect.mem_set_unit]; intro a; obtain rfl : a = 0 := Subsingleton.elim _ _; exact ⟨h1, h2⟩
    by_cases c1 : (y 0).val < 16
    · exact ⟨⟨Rect.unit (s := S64) ![0] S16.size inb_S64_S16_0, k0_pay1 L v3⟩,
        List.mem_cons_of_mem _ (List.mem_cons_of_mem _ (List.mem_cons_of_mem _ List.mem_cons_self)),
        hm 0 inb_S64_S16_0 (Nat.zero_le _) (by omega)⟩
    by_cases c2 : (y 0).val < 32
    · exact ⟨⟨Rect.unit (s := S64) ![16] S16.size inb_S64_S16_16, k0_pay2 L v15⟩,
        List.mem_cons_of_mem _ (List.mem_cons_of_mem _ List.mem_cons_self),
        hm 16 inb_S64_S16_16 (by omega) (by omega)⟩
    by_cases c3 : (y 0).val < 48
    · exact ⟨⟨Rect.unit (s := S64) ![32] S16.size inb_S64_S16_32, k0_pay4 (k0_pay3 L v27)⟩,
        List.mem_cons_of_mem _ List.mem_cons_self,
        hm 32 inb_S64_S16_32 (by omega) (by omega)⟩
    · exact ⟨⟨Rect.unit (s := S64) ![48] S16.size inb_S64_S16_48, k0_pay5 (baseWord L) v39⟩,
        List.mem_cons_self,
        hm 48 inb_S64_S16_48 (by omega) (by omega)⟩

/-- A load of sixteen lanes from `c` on, from a list just fetched whole, reads the fetched entries `c + z`. -/
theorem readAt_raw (c : Nat) (hc : ∀ a, (![c] : Fin 1 → Nat) a + S16.size a ≤ S64.size a)
    (f0 : (s0W).view.ty.Contents (Elt F)) (raw : S64.Idx → BitVec 32) (z : S16.Idx) :
    View.readAt (Elt F) (s0W).view (Rect.unit (s := S64) ![c] S16.size hc).toLoadRect
        (View.write (Elt F) (s0W).view f0 raw Finset.univ) z
      = raw ((Rect.unit (s := S64) ![c] S16.size hc).emb z) := by
  rw [View.readAt_rect]
  simp only [Memref.view_whole, View.write_whole_univ]
  exact (View.read_apply _ _).trans (cast_eq _ _)

/-! ## What the fetch lands -/

/-- Entry `y` of the tile's fetched chunk is the requested node of batch entry `base L + y`. -/
theorem chunk_read (L : grid0.Coords) (idx : S1024.Idx → BitVec 32) (y : S64.Idx) :
    (iChunk L).view.read (Elt F) idx y
      = idx (ix1 ⟨base L + (y 0).val, by have := base_le L; have hy : (y 0).val < 64 := (y 0).isLt; omega⟩) := by
  refine ((View.read_apply _ _).trans (cast_eq _ _)).trans (congrArg idx ?_)
  funext a
  match a with
  | ⟨0, _⟩ =>
    refine Fin.ext ?_
    show k0_off1 L 0 + 1 * (y 0).val = base L + (y 0).val
    rw [k0_off1_eq]; simp [base]

/-- Entry `y` of a list that holds the tile's rows is the matrix row of batch entry `base L + y`. -/
theorem list_flat (L : grid0.Coords) (idx : S1024.Idx → BitVec 32) (y : S64.Idx) :
    rowAt L ((iChunk L).view.read (Elt F) idx) y
      = Spec.flat idx (ix1 ⟨base L + (y 0).val, by have := base_le L; have hy : (y 0).val < 64 := (y 0).isLt; omega⟩) := by
  unfold rowAt; rw [chunk_read]; rfl

/-- So it names a row of the matrix, when every batch entry's row is one. -/
theorem list_inRange (L : grid0.Coords) (idx : S1024.Idx → BitVec 32) (h : Spec.InRange (Spec.flat idx))
    (lst : (s0W).view.ty.Contents (Elt F))
    (hl : ∀ y : S64.Idx, (s0W).view.read (Elt F) lst y = rowAt L ((iChunk L).view.read (Elt F) idx) y) (y : S64.Idx) :
    ((s0W).view.read (Elt F) lst y).toNat < 1024000 := by
  rw [hl, list_flat]; exact h _

/-- The first half of the list read as a list of 32 is the list's entries 0 … 31, -/
theorem half0_read (lst : (s0W).view.ty.Contents (Elt F)) (x : S32.Idx) :
    (l0).view.read (Elt F) lst x = (s0W).view.read (Elt F) lst (ix1 ⟨(x 0).val, by have : (x 0).val < 32 := (x 0).isLt; omega⟩) := by
  refine ((View.read_apply _ _).trans (cast_eq _ _)).trans (congrArg lst ?_)
  funext a
  match a with
  | ⟨0, _⟩ => refine Fin.ext ?_; show 0 + 1 * (x 0).val = (x 0).val; omega
/-- the second half its entries 32 … 63. -/
theorem half1_read (lst : (s0W).view.ty.Contents (Elt F)) (x : S32.Idx) :
    (l1).view.read (Elt F) lst x = (s0W).view.read (Elt F) lst (ix1 ⟨32 + (x 0).val, by have : (x 0).val < 32 := (x 0).isLt; omega⟩) := by
  refine ((View.read_apply _ _).trans (cast_eq _ _)).trans (congrArg lst ?_)
  funext a
  match a with
  | ⟨0, _⟩ => refine Fin.ext ?_; show 32 + 1 * (x 0).val = 32 + (x 0).val; omega

/-! ## A gathered row -/

/-- The matrix read through the slice that is all of it is the matrix. -/
theorem tAll_read (tbl : S1024000x128.Idx → Elt F .f32) : (tAll).view.read (Elt F) tbl = tbl := by
  funext j
  refine ((View.read_apply _ _).trans (cast_eq _ _)).trans (congrArg tbl ?_)
  funext a
  match a with
  | ⟨0, _⟩ => refine Fin.ext ?_; show 0 + 1 * (j 0).val = (j 0).val; omega
  | ⟨1, _⟩ => refine Fin.ext ?_; show 0 + 1 * (j 1).val = (j 1).val; omega

/-- Row `k` of what a gather of 32 rows lands is the matrix's row named by entry `k` of its list. -/
theorem gather_apply (tbl : S1024000x128.Idx → Elt F .f32) (lst : S32.Idx → BitVec 32)
    (hn : S32.numel = S32x128.size (gathers_S1024000x128_S32x128).axis')
    (hin : ∀ x, (lst x).toNat < S1024000x128.size (gathers_S1024000x128_S32x128).axis) (y : S32x128.Idx) :
    SparseCore.gatherPayload gathers_S1024000x128_S32x128 ((tAll).view.read (Elt F) tbl) (SparseCore.rows (F := F) lst hn hin) y
      = tbl (ix2 ⟨(lst (ix1 (y 0))).toNat, hin _⟩ (y 1)) := by
  unfold SparseCore.gatherPayload
  rw [tAll_read]
  refine congrArg tbl ?_
  funext b
  match b with
  | ⟨0, _⟩ =>
    refine Fin.ext ?_
    unfold Shape.Gathers.idx
    rw [dif_pos rfl]
    show (lst (S32.rowMajor.symm _)).toNat = _
    congr 2
    exact (Equiv.symm_apply_eq _).mpr (Fin.ext (by rw [Shape.rowMajor_val_one]; rfl))
  | ⟨1, _⟩ =>
    refine Fin.ext ?_
    unfold Shape.Gathers.idx
    rw [dif_neg (show ¬ (1 : Nat) = 0 by omega)]
    rfl

/-! ## The tile's result rows -/

/-- The gathered rows read back out of the scratch matrix: its rows 0 … 31 are the first gather's, -/
theorem scratch_A (f1 : (s1W).view.ty.Contents (Elt F)) (wA wB : S32x128.Idx → Elt F .f32) (y : S32x128.Idx) :
    (r0).view.read (Elt F) ((s1W).view.writes (Elt F) f1
      [⟨Rect.unit (s := S64x128) ![32, 0] S32x128.size inb_S64x128_S32x128_32_0, wB⟩,
       ⟨Rect.unit (s := S64x128) ![0, 0] S32x128.size inb_S64x128_S32x128_0_0, wA⟩]) y = wA y := by
  show (s1W).view.read (Elt F) _ ((Rect.unit (s := S64x128) ![0, 0] S32x128.size inb_S64x128_S32x128_0_0).emb y) = _
  rw [View.writes_cons, View.read_slice_write_of_not_mem]
  · exact View.read_writes_cons_emb _ _ _ _ _ _
  · rw [Rect.map_emb_univ, Rect.mem_set_unit]
    intro hh
    have h0 := hh 0
    have hy : (y 0).val < 32 := (y 0).isLt
    have e : (((Rect.unit (s := S64x128) ![0, 0] S32x128.size inb_S64x128_S32x128_0_0).emb y) 0).val = 0 + 1 * (y 0).val := rfl
    have h1 : (32 : Nat) ≤ (((Rect.unit (s := S64x128) ![0, 0] S32x128.size inb_S64x128_S32x128_0_0).emb y) 0).val := h0.1
    omega
/-- its rows 32 … 63 the second's. -/
theorem scratch_B (f1 : (s1W).view.ty.Contents (Elt F)) (wA wB : S32x128.Idx → Elt F .f32) (y : S32x128.Idx) :
    (r1).view.read (Elt F) ((s1W).view.writes (Elt F) f1
      [⟨Rect.unit (s := S64x128) ![32, 0] S32x128.size inb_S64x128_S32x128_32_0, wB⟩,
       ⟨Rect.unit (s := S64x128) ![0, 0] S32x128.size inb_S64x128_S32x128_0_0, wA⟩]) y = wB y := by
  show (s1W).view.read (Elt F) _ ((Rect.unit (s := S64x128) ![32, 0] S32x128.size inb_S64x128_S32x128_32_0).emb y) = _
  exact View.read_writes_cons_emb _ _ _ _ _ _

/-- A window of the result written whole holds, at its element `y`, the payload's entry `y`. -/
theorem window_read_A (L : grid0.Coords) (fo : (oA L).view.ty.Contents (Elt F)) (w : S32x128.Idx → Elt F .f32) (y : S32x128.Idx) :
    (oA L).view.writes (Elt F) fo [⟨Rect.whole S32x128, w⟩] ((oA L).view.emb y) = w y := by
  have e := View.read_writes_cons_emb (oA L).view fo (Rect.whole S32x128) w [] y
  rw [Rect.emb_whole_apply] at e
  exact ((View.read_apply _ _).trans (cast_eq _ _)).symm.trans e
theorem window_read_B (L : grid0.Coords) (fo : (oB L).view.ty.Contents (Elt F)) (w : S32x128.Idx → Elt F .f32) (y : S32x128.Idx) :
    (oB L).view.writes (Elt F) fo [⟨Rect.whole S32x128, w⟩] ((oB L).view.emb y) = w y := by
  have e := View.read_writes_cons_emb (oB L).view fo (Rect.whole S32x128) w [] y
  rw [Rect.emb_whole_apply] at e
  exact ((View.read_apply _ _).trans (cast_eq _ _)).symm.trans e

/-- Where the tile's two windows of 32 result rows lie: from its first batch entry on, -/
theorem emb_A (L : grid0.Coords) (y : S32x128.Idx) :
    ((oA L).view.emb y : S1024x128.Idx)
      = ix2 ⟨base L + (y 0).val, by have := base_le L; have hy : (y 0).val < 32 := (y 0).isLt; omega⟩ ⟨(y 1).val, (y 1).isLt⟩ := by
  funext b
  match b with
  | ⟨0, _⟩ => refine Fin.ext ?_; show k0_off2 L 0 + 1 * (y 0).val = base L + (y 0).val; rw [k0_off2_eq]; simp [base]
  | ⟨1, _⟩ => refine Fin.ext ?_; show k0_off2 L 1 + 1 * (y 1).val = (y 1).val; rw [k0_off2_eq]; simp
/-- and 32 rows further. -/
theorem emb_B (L : grid0.Coords) (y : S32x128.Idx) :
    ((oB L).view.emb y : S1024x128.Idx)
      = ix2 ⟨base L + 32 + (y 0).val, by have := base_le L; have hy : (y 0).val < 32 := (y 0).isLt; omega⟩ ⟨(y 1).val, (y 1).isLt⟩ := by
  funext b
  match b with
  | ⟨0, _⟩ => refine Fin.ext ?_; show k0_off3 L 0 + 1 * (y 0).val = base L + 32 + (y 0).val; rw [k0_off3_eq]; simp [base]
  | ⟨1, _⟩ => refine Fin.ext ?_; show k0_off3 L 1 + 1 * (y 1).val = (y 1).val; rw [k0_off3_eq]; simp

/-- The first gather's row `k` is the result's row of batch entry `base L + k`: the matrix row that entry asks for. -/
theorem out_A (L : grid0.Coords) (tbl : S1024000x128.Idx → Elt F .f32) (idx : S1024.Idx → BitVec 32)
    (h : Spec.InRange (Spec.flat idx)) (lst : (s0W).view.ty.Contents (Elt F))
    (hl : ∀ y : S64.Idx, (s0W).view.read (Elt F) lst y = rowAt L ((iChunk L).view.read (Elt F) idx) y)
    (hn : S32.numel = S32x128.size (gathers_S1024000x128_S32x128).axis')
    (hin : ∀ x, ((l0).view.read (Elt F) lst x).toNat < S1024000x128.size (gathers_S1024000x128_S32x128).axis) (y : S32x128.Idx) :
    SparseCore.gatherPayload gathers_S1024000x128_S32x128 ((tAll).view.read (Elt F) tbl)
        (SparseCore.rows (F := F) ((l0).view.read (Elt F) lst) hn hin) y
      = Spec.gathered tbl (Spec.flat idx) h ((oA L).view.emb y) := by
  rw [gather_apply, emb_A]
  unfold Spec.gathered
  have e : (l0).view.read (Elt F) lst (ix1 (y 0))
      = Spec.flat idx (ix1 ⟨base L + (y 0).val, by have := base_le L; have hy : (y 0).val < 32 := (y 0).isLt; omega⟩) := by
    rw [half0_read, hl, list_flat]
  refine congrArg tbl ?_
  funext b
  match b with
  | ⟨0, _⟩ => exact Fin.ext (congrArg BitVec.toNat e)
  | ⟨1, _⟩ => rfl
/-- The second gather's row `k` is the result's row of batch entry `base L + 32 + k`. -/
theorem out_B (L : grid0.Coords) (tbl : S1024000x128.Idx → Elt F .f32) (idx : S1024.Idx → BitVec 32)
    (h : Spec.InRange (Spec.flat idx)) (lst : (s0W).view.ty.Contents (Elt F))
    (hl : ∀ y : S64.Idx, (s0W).view.read (Elt F) lst y = rowAt L ((iChunk L).view.read (Elt F) idx) y)
    (hn : S32.numel = S32x128.size (gathers_S1024000x128_S32x128).axis')
    (hin : ∀ x, ((l1).view.read (Elt F) lst x).toNat < S1024000x128.size (gathers_S1024000x128_S32x128).axis) (y : S32x128.Idx) :
    SparseCore.gatherPayload gathers_S1024000x128_S32x128 ((tAll).view.read (Elt F) tbl)
        (SparseCore.rows (F := F) ((l1).view.read (Elt F) lst) hn hin) y
      = Spec.gathered tbl (Spec.flat idx) h ((oB L).view.emb y) := by
  rw [gather_apply, emb_B]
  unfold Spec.gathered
  have e : (l1).view.read (Elt F) lst (ix1 (y 0))
      = Spec.flat idx (ix1 ⟨base L + 32 + (y 0).val, by have := base_le L; have hy : (y 0).val < 32 := (y 0).isLt; omega⟩) := by
    rw [half1_read, hl, list_flat]
    refine congrArg (Spec.flat idx) (congrArg ix1 (Fin.ext ?_))
    show base L + (32 + (y 0).val) = base L + 32 + (y 0).val
    omega
  refine congrArg tbl ?_
  funext b
  match b with
  | ⟨0, _⟩ => exact Fin.ext (congrArg BitVec.toNat e)
  | ⟨1, _⟩ => rfl

/-- So, after the whole task, each element of the tile's first window of result rows holds the gathered matrix's
    entry there, -/
theorem window_A (L : grid0.Coords) (tbl : S1024000x128.Idx → Elt F .f32) (idx : S1024.Idx → BitVec 32)
    (h : Spec.InRange (Spec.flat idx)) (lst : (s0W).view.ty.Contents (Elt F))
    (hl : ∀ y : S64.Idx, (s0W).view.read (Elt F) lst y = rowAt L ((iChunk L).view.read (Elt F) idx) y)
    (hn : S32.numel = S32x128.size (gathers_S1024000x128_S32x128).axis')
    (hin0 : ∀ x, ((l0).view.read (Elt F) lst x).toNat < S1024000x128.size (gathers_S1024000x128_S32x128).axis)
    (hin1 : ∀ x, ((l1).view.read (Elt F) lst x).toNat < S1024000x128.size (gathers_S1024000x128_S32x128).axis)
    (f1 : (s1W).view.ty.Contents (Elt F)) (fo : (oA L).view.ty.Contents (Elt F)) :
    ∀ i ∈ (oA L).view.set,
      (oA L).view.writes (Elt F) fo [⟨Rect.whole S32x128, ReadAs.same.apply ((r0).view.read (Elt F) ((s1W).view.writes (Elt F) f1
        [⟨Rect.unit (s := S64x128) ![32, 0] S32x128.size inb_S64x128_S32x128_32_0,
            SparseCore.gatherPayload gathers_S1024000x128_S32x128 ((tAll).view.read (Elt F) tbl)
              (SparseCore.rows (F := F) ((l1).view.read (Elt F) lst) hn hin1)⟩,
         ⟨Rect.unit (s := S64x128) ![0, 0] S32x128.size inb_S64x128_S32x128_0_0,
            SparseCore.gatherPayload gathers_S1024000x128_S32x128 ((tAll).view.read (Elt F) tbl)
              (SparseCore.rows (F := F) ((l0).view.read (Elt F) lst) hn hin0)⟩]))⟩] i
        = Spec.gathered tbl (Spec.flat idx) h i := by
  intro i hi
  obtain ⟨y, -, rfl⟩ := Finset.mem_map.mp hi
  rw [window_read_A]
  show (r0).view.read (Elt F) _ y = _
  rw [scratch_A]
  exact out_A L tbl idx h lst hl hn hin0 y
/-- and each element of its second window likewise. -/
theorem window_B (L : grid0.Coords) (tbl : S1024000x128.Idx → Elt F .f32) (idx : S1024.Idx → BitVec 32)
    (h : Spec.InRange (Spec.flat idx)) (lst : (s0W).view.ty.Contents (Elt F))
    (hl : ∀ y : S64.Idx, (s0W).view.read (Elt F) lst y = rowAt L ((iChunk L).view.read (Elt F) idx) y)
    (hn : S32.numel = S32x128.size (gathers_S1024000x128_S32x128).axis')
    (hin0 : ∀ x, ((l0).view.read (Elt F) lst x).toNat < S1024000x128.size (gathers_S1024000x128_S32x128).axis)
    (hin1 : ∀ x, ((l1).view.read (Elt F) lst x).toNat < S1024000x128.size (gathers_S1024000x128_S32x128).axis)
    (f1 : (s1W).view.ty.Contents (Elt F)) (fo : (oB L).view.ty.Contents (Elt F)) :
    ∀ i ∈ (oB L).view.set,
      (oB L).view.writes (Elt F) fo [⟨Rect.whole S32x128, ReadAs.same.apply ((r1).view.read (Elt F) ((s1W).view.writes (Elt F) f1
        [⟨Rect.unit (s := S64x128) ![32, 0] S32x128.size inb_S64x128_S32x128_32_0,
            SparseCore.gatherPayload gathers_S1024000x128_S32x128 ((tAll).view.read (Elt F) tbl)
              (SparseCore.rows (F := F) ((l1).view.read (Elt F) lst) hn hin1)⟩,
         ⟨Rect.unit (s := S64x128) ![0, 0] S32x128.size inb_S64x128_S32x128_0_0,
            SparseCore.gatherPayload gathers_S1024000x128_S32x128 ((tAll).view.read (Elt F) tbl)
              (SparseCore.rows (F := F) ((l0).view.read (Elt F) lst) hn hin0)⟩]))⟩] i
        = Spec.gathered tbl (Spec.flat idx) h i := by
  intro i hi
  obtain ⟨y, -, rfl⟩ := Finset.mem_map.mp hi
  rw [window_read_B]
  show (r1).view.read (Elt F) _ y = _
  rw [scratch_B]
  exact out_B L tbl idx h lst hl hn hin1 y

end Cert.Proof.IdealK

end
-- ==== Proof.IdealBody.lean ====
/-
  One tile's task of the gather kernel.

  The tile at grid position `L` is handed a read share of the whole embedding matrix, the requested nodes of its 64
  batch entries and its 64 result rows. It fetches the nodes into its list, turns each into the matrix row to read
  (`node + 1000 * batch entry`), gathers the 64 rows in two halves of 32 — each on a semaphore of its own, from a
  read share of its own — and copies each half out to its result rows as soon as it has landed. Every wait is on a
  semaphore the tile alone uses, so no wait can block; no buffer is touched while a copy that reads or writes it is
  outstanding. At the end the result rows hold, row by row, the matrix rows the batch entries ask for.
-/
import proofs.«207040_g69088843924254_cont_9to1_m_295_12_alg».proof.Proof.IdealDefs
import proofs.«207040_g69088843924254_cont_9to1_m_295_12_alg».proof.Proof.IdealRows

noncomputable section

namespace Cert.Proof.IdealK

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.KernelIdeal.main_v0_scv : Memref Cert.KernelIdeal.sig Kind.scVector Space.hbm Cert.KernelIdeal.S1024000x128 EltTy.f32)
local notation "iW" => (Memref.whole Cert.KernelIdeal.main_v1_scv : Memref Cert.KernelIdeal.sig Kind.scVector Space.hbm Cert.KernelIdeal.S1024 EltTy.i32)
local notation "oW" => (Memref.whole Cert.KernelIdeal.main_v2_scv : Memref Cert.KernelIdeal.sig Kind.scVector Space.hbm Cert.KernelIdeal.S1024x128 EltTy.f32)
local notation "s0W" => (Memref.whole Cert.KernelIdeal.cc0_scratch0 : Memref Cert.KernelIdeal.sig Kind.scVector Space.vmem Cert.KernelIdeal.S64 EltTy.i32)
local notation "s1W" => (Memref.whole Cert.KernelIdeal.cc0_scratch1 : Memref Cert.KernelIdeal.sig Kind.scVector Space.vmem Cert.KernelIdeal.S64x128 EltTy.f32)

variable (m : (ℓ : Loc nD τ sig) → Buf (Elt F) ℓ)

/-! ## The tile's thread and its share of the arrays -/

abbrev cV (L : grid0.Coords) : Fin τ.nSC := (L 0).castLE hcore0
abbrev jV (L : grid0.Coords) : Fin τ.nSub := (L 1).castLE hsub0
theorem bound_one : grid0.bound 1 = 16 := rfl
/-- Which of the sixteen tiles. -/
abbrev jL (L : grid0.Coords) : Fin 16 := Fin.cast bound_one (L 1)

/-- The tile's chunk of the requested nodes is the sixty-four batch entries the launch hands tile `jL L`, -/
theorem chunk_set0 (L : grid0.Coords) :
    (Rect.unit (s := S1024) (k0_off1 L) S64.size (k0_off1_inb L)).set = chunkSet (jL L) := by
  ext x
  rw [Rect.mem_set_unit, mem_chunkSet]
  have h0 : (L 0).val < 1 := (L 0).isLt
  have e : k0_off1 L 0 = 64 * (jL L).val := by
    rw [k0_off1_eq]; show 64 * (L 1).val + 64 * (L 0).val = 64 * (L 1).val; omega
  constructor
  · intro hh; have h1 := hh 0; rw [e] at h1; exact h1
  · intro hh a; obtain rfl : a = 0 := Subsingleton.elim _ _; rw [e]; exact hh
theorem set_iChunk (L : grid0.Coords) : (iChunk L).view.set = chunkSet (jL L) := by
  simp only [Memref.view_slice, Memref.view_whole, View.set_slice_whole]; exact chunk_set0 L

/-- and its two windows of result rows are the sixty-four rows the launch hands it, in two disjoint halves. -/
theorem mem_A (L : grid0.Coords) (x : S1024x128.Idx) :
    x ∈ (Rect.unit (s := S1024x128) (k0_off2 L) S32x128.size (k0_off2_inb L)).set
      ↔ 64 * (jL L).val ≤ (x 0).val ∧ (x 0).val < 64 * (jL L).val + 32 := by
  rw [Rect.mem_set_unit]
  have h0 : (L 0).val < 1 := (L 0).isLt
  have e0 : k0_off2 L 0 = 64 * (jL L).val := by
    rw [k0_off2_eq]; show 64 * (L 1).val + 64 * (L 0).val = 64 * (L 1).val; omega
  have e1 : k0_off2 L 1 = 0 := by rw [k0_off2_eq]; rfl
  constructor
  · intro hh; have h1 := hh 0; rw [e0] at h1; exact h1
  · intro hh a
    match a with
    | ⟨0, _⟩ => show k0_off2 L 0 ≤ (x 0).val ∧ (x 0).val < k0_off2 L 0 + 32; rw [e0]; exact hh
    | ⟨1, _⟩ =>
      show k0_off2 L 1 ≤ (x 1).val ∧ (x 1).val < k0_off2 L 1 + 128
      rw [e1]; exact ⟨Nat.zero_le _, by have := ValueIdx.idx2_lt1 x; omega⟩
theorem mem_B (L : grid0.Coords) (x : S1024x128.Idx) :
    x ∈ (Rect.unit (s := S1024x128) (k0_off3 L) S32x128.size (k0_off3_inb L)).set
      ↔ 64 * (jL L).val + 32 ≤ (x 0).val ∧ (x 0).val < 64 * (jL L).val + 64 := by
  rw [Rect.mem_set_unit]
  have h0 : (L 0).val < 1 := (L 0).isLt
  have e0 : k0_off3 L 0 = 64 * (jL L).val + 32 := by
    rw [k0_off3_eq]; show 64 * (L 1).val + 64 * (L 0).val + 32 = 64 * (L 1).val + 32; omega
  have e1 : k0_off3 L 1 = 0 := by rw [k0_off3_eq]; rfl
  constructor
  · intro hh; have h1 := hh 0; rw [e0] at h1
    have h2 : (x 0).val < 64 * (jL L).val + 32 + 32 := h1.2
    exact ⟨h1.1, by omega⟩
  · intro hh a
    match a with
    | ⟨0, _⟩ => show k0_off3 L 0 ≤ (x 0).val ∧ (x 0).val < k0_off3 L 0 + 32; rw [e0]; exact ⟨hh.1, by have h3 := hh.2; omega⟩
    | ⟨1, _⟩ =>
      show k0_off3 L 1 ≤ (x 1).val ∧ (x 1).val < k0_off3 L 1 + 128
      rw [e1]; exact ⟨Nat.zero_le _, by have := ValueIdx.idx2_lt1 x; omega⟩
theorem rows_set0 (L : grid0.Coords) :
    (Rect.unit (s := S1024x128) (k0_off2 L) S32x128.size (k0_off2_inb L)).set
        ∪ (Rect.unit (s := S1024x128) (k0_off3 L) S32x128.size (k0_off3_inb L)).set = rowsSet (jL L) := by
  ext x; rw [Finset.mem_union, mem_A, mem_B, mem_rowsSet]; omega
theorem rows_disj0 (L : grid0.Coords) :
    Disjoint (Rect.unit (s := S1024x128) (k0_off2 L) S32x128.size (k0_off2_inb L)).set
      (Rect.unit (s := S1024x128) (k0_off3 L) S32x128.size (k0_off3_inb L)).set :=
  Finset.disjoint_left.mpr fun x hA hB => by rw [mem_A] at hA; rw [mem_B] at hB; omega
theorem set_oAB (L : grid0.Coords) : (oA L).view.set ∪ (oB L).view.set = rowsSet (jL L) := by
  simp only [Memref.view_slice, Memref.view_whole, View.set_slice_whole]; exact rows_set0 L
theorem disj_oAB (L : grid0.Coords) : Disjoint (oA L).view.set (oB L).view.set := by
  simp only [Memref.view_slice, Memref.view_whole, View.set_slice_whole]; exact rows_disj0 L

section Tile

variable (d : Dev nD) (L : grid0.Coords)

/-! ## The same assertions, as the launch spells them and as the tile's memrefs do -/

theorem pts_t (q : PosShare TreeShare) (f : Buf (Elt F) (tLoc d)) :
    ((tW).view.loc (V d (cV L) (jV L)) ↦{q} f : sProp 𝕄) = tLoc d ↦{q} f := by
  simp only [Memref.view_whole, View.set_whole]
theorem pts_i (f : Buf (Elt F) (iLoc d)) :
    ((iChunk L).view.loc (V d (cV L) (jV L)) ↦[(iChunk L).view.set]{fullShare} f : sProp 𝕄) = iLoc d ↦[chunkSet (jL L)]{fullShare} f := by
  rw [set_iChunk]
theorem pts_o (f : Buf (Elt F) (oLoc d)) :
    ((oW).view.loc (V d (cV L) (jV L)) ↦[(oA L).view.set ∪ (oB L).view.set]{fullShare} f : sProp 𝕄) = oLoc d ↦[rowsSet (jL L)]{fullShare} f := by
  rw [set_oAB]
theorem pts_oA (f : Buf (Elt F) (oLoc d)) :
    ((oW).view.loc (V d (cV L) (jV L)) ↦[(oA L).view.set]{fullShare} f : sProp 𝕄)
      = ((oA L).view.loc (V d (cV L) (jV L)) ↦[(oA L).view.set]{fullShare} f) := rfl
theorem pts_oB (f : Buf (Elt F) (oLoc d)) :
    ((oW).view.loc (V d (cV L) (jV L)) ↦[(oB L).view.set]{fullShare} f : sProp 𝕄)
      = ((oB L).view.loc (V d (cV L) (jV L)) ↦[(oB L).view.set]{fullShare} f) := rfl
theorem pts_s0 (f : Buf (Elt F) ((V d (cV L) (jV L)).loc cc0_scratch0)) :
    ((s0W).view.loc (V d (cV L) (jV L)) ↦{fullShare} f : sProp 𝕄) = (V d (cV L) (jV L)).loc cc0_scratch0 ↦{fullShare} f := by
  simp only [Memref.view_whole, View.set_whole]
theorem pts_s1 (f : Buf (Elt F) ((V d (cV L) (jV L)).loc cc0_scratch1)) :
    ((s1W).view.loc (V d (cV L) (jV L)) ↦{fullShare} f : sProp 𝕄) = (V d (cV L) (jV L)).loc cc0_scratch1 ↦{fullShare} f := by
  simp only [Memref.view_whole, View.set_whole]

/-! ## The tile's own semaphores and buffers -/

abbrev cell (k : DmaSem sig) : GSem nD τ sig := (V d (cV L) (jV L), SemLoc.dma k)
theorem mem_cell (k : DmaSem sig) (hk : (SemLoc.dma k : SemLoc sig).isScoped .scVector = true) :
    cell d L k ∈ ownCells (V d (cV L) (jV L)) := (mem_ownCells (g := cell d L k)).mpr ⟨rfl, hk⟩
theorem cell_ne {k k' : DmaSem sig} (h : k ≠ k') : cell d L k ≠ cell d L k' :=
  fun e => h (SemLoc.dma.inj (Prod.mk.inj e).2)

theorem ownSems0_V :
    (ownSems0 (V d (cV L) (jV L)) : sProp 𝕄)
      = iprop(semVal (cell d L cc0_scratch2.sem) 0 ∗ semVal (cell d L cc0_scratch3.sem) 0 ∗ semVal (cell d L cc0_scratch4.sem) 0 ∗ semVal (cell d L cc0_scoped0.sem) 0 ∗ semVal (cell d L cc0_scoped1.sem) 0
        ∗ bigSep ((((((ownCells (V d (cV L) (jV L))).erase (cell d L cc0_scratch2.sem)).erase (cell d L cc0_scratch3.sem)).erase (cell d L cc0_scratch4.sem)).erase (cell d L cc0_scoped0.sem)).erase (cell d L cc0_scoped1.sem)) fun g => semVal g 0) := by
  unfold SparseCore.Cfg.ownSems0
  rw [SparseCore.bigSep_erase' (mem_cell d L cc0_scratch2.sem (by decide)),
    SparseCore.bigSep_erase' (Finset.mem_erase.mpr ⟨cell_ne d L (show (cc0_scratch3.sem : DmaSem sig) ≠ cc0_scratch2.sem by decide), mem_cell d L cc0_scratch3.sem (by decide)⟩),
    SparseCore.bigSep_erase' (Finset.mem_erase.mpr ⟨cell_ne d L (show (cc0_scratch4.sem : DmaSem sig) ≠ cc0_scratch3.sem by decide), Finset.mem_erase.mpr ⟨cell_ne d L (show (cc0_scratch4.sem : DmaSem sig) ≠ cc0_scratch2.sem by decide), mem_cell d L cc0_scratch4.sem (by decide)⟩⟩),
    SparseCore.bigSep_erase' (Finset.mem_erase.mpr ⟨cell_ne d L (show (cc0_scoped0.sem : DmaSem sig) ≠ cc0_scratch4.sem by decide), Finset.mem_erase.mpr ⟨cell_ne d L (show (cc0_scoped0.sem : DmaSem sig) ≠ cc0_scratch3.sem by decide), Finset.mem_erase.mpr ⟨cell_ne d L (show (cc0_scoped0.sem : DmaSem sig) ≠ cc0_scratch2.sem by decide), mem_cell d L cc0_scoped0.sem (by decide)⟩⟩⟩),
    SparseCore.bigSep_erase' (Finset.mem_erase.mpr ⟨cell_ne d L (show (cc0_scoped1.sem : DmaSem sig) ≠ cc0_scoped0.sem by decide), Finset.mem_erase.mpr ⟨cell_ne d L (show (cc0_scoped1.sem : DmaSem sig) ≠ cc0_scratch4.sem by decide), Finset.mem_erase.mpr ⟨cell_ne d L (show (cc0_scoped1.sem : DmaSem sig) ≠ cc0_scratch3.sem by decide), Finset.mem_erase.mpr ⟨cell_ne d L (show (cc0_scoped1.sem : DmaSem sig) ≠ cc0_scratch2.sem by decide), mem_cell d L cc0_scoped1.sem (by decide)⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-! ## The task -/

theorem tile_body (hF : (K (F := F)).Facts) (h : OK m) (O : CellTallies nD τ sig (HIx 1)) (W : Waits sig (HIx 1)) (hO : ∀ g, O g none = 0) :
    iprop(levAts (K (F := F)).L (K (F := F)).lev ∗ emp ∗ tileGo m d (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tW (Memref.isWhole_whole _) iW (Memref.isWhole_whole _) oW (Memref.isWhole_whole _)
            s0W (Memref.isWhole_whole _) s1W (Memref.isWhole_whole _) cc0_scratch2 cc0_scratch3 cc0_scratch4 cc0_scoped0 cc0_scoped1)
          fun _ => iprop(tileTd m h d (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_gather_kernel_eq_skeleton]; unfold cc0_gather_kernel_skel
  rw [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  unfold tileGo tileTd
  iintro ⟨#Hlv, -, ⟨Ht, Hi, %fo, Ho⟩, ⟨⟨%f0, Hs0⟩, ⟨%f1, Hs1⟩, Hbufs⟩, ⟨Hg0, Hg1, Hst, Hc0, Hc1, Hsems⟩, HO⟩
  ihave Hmw := ((K (F := F)).mayWaits_none (thr := V d (cV L) (jV L)) hO) $$ Hlv
  -- the handed arrays, as the tile's memrefs address them; the matrix's share in two, one per gather
  ihave Ht := (Entails.of_eq (pts_t (F := F) d L _ _).symm) $$ Ht
  ihave Htt := ((pointsTo_share (PosShare.mem_left_op_right (tileShare (jL L)))).1) $$ Ht
  icases Htt with ⟨Ht, Ht'⟩
  ihave Hi := (Entails.of_eq (pts_i (F := F) d L _).symm) $$ Hi
  ihave Ho := (Entails.of_eq (pts_o (F := F) d L _).symm) $$ Ho
  ihave Hoo := ((pointsTo_union (ℓ := (oW).view.loc (V d (cV L) (jV L))) (disj_oAB L)).1) $$ Ho
  icases Hoo with ⟨HoA, HoB⟩
  ihave HoA := (Entails.of_eq (pts_oA (F := F) d L _)) $$ HoA
  ihave HoB := (Entails.of_eq (pts_oB (F := F) d L _)) $$ HoB
  ihave Hs0 := (Entails.of_eq (pts_s0 (F := F) d L _).symm) $$ Hs0
  ihave Hs1 := (Entails.of_eq (pts_s1 (F := F) d L _).symm) $$ Hs1
  -- the fetch of the requested nodes, and the four stores that turn them into rows of the matrix
  sl_exec
  -- what the list now holds: at every entry the matrix row of its batch entry, so a row of the matrix
  have hl : ∀ y : S64.Idx, (s0W).view.read (Elt F) ((s0W).view.writes (Elt F) (s0W).view.junk (tile_body.sl.Hs0_4 m d L f0)) y
      = rowAt L ((iChunk L).view.read (Elt F) (IDX m d)) y := fun y =>
    list_rows (F := F) L ((iChunk L).view.read (Elt F) (IDX m d)) _ _ _ _
      (readAt_raw 0 inb_S64_S16_0 f0 _) (readAt_raw 16 inb_S64_S16_16 f0 _) (readAt_raw 32 inb_S64_S16_32 f0 _)
      (readAt_raw 48 inb_S64_S16_48 f0 _) (s0W).view.junk y
  have hin0 : ∀ x, ((l0).view.read (Elt F) ((s0W).view.writes (Elt F) (s0W).view.junk (tile_body.sl.Hs0_4 m d L f0)) x).toNat
      < S1024000x128.size gathers_S1024000x128_S32x128.axis := fun x => by
    rw [half0_read]; exact list_inRange L (IDX m d) (h d) _ hl _
  have hin1 : ∀ x, ((l1).view.read (Elt F) ((s0W).view.writes (Elt F) (s0W).view.junk (tile_body.sl.Hs0_4 m d L f0)) x).toNat
      < S1024000x128.size gathers_S1024000x128_S32x128.axis := fun x => by
    rw [half1_read]; exact list_inRange L (IDX m d) (h d) _ hl _
  -- the two gathers, their waits, the two copies out and their waits
  sl_exec
  sl_step
  -- the result rows hold the gathered matrix's rows
  have hA : ∀ i ∈ (oA L).view.set, _ = GOUT m h d i :=
    window_A L (TBL m d) (IDX m d) (h d) _ hl rfl hin0 hin1 f1 fo
  have hB : ∀ i ∈ (oB L).view.set, _ = GOUT m h d i :=
    window_B L (TBL m d) (IDX m d) (h d) _ hl rfl hin0 hin1 f1 fo
  ihave HoA := (Entails.of_eq (pointsTo_congr hA)) $$ HoA
  ihave HoB := (Entails.of_eq (pointsTo_congr hB)) $$ HoB
  ihave HoA := (Entails.of_eq (pts_oA (F := F) d L _).symm) $$ HoA
  ihave HoB := (Entails.of_eq (pts_oB (F := F) d L _).symm) $$ HoB
  ihave Ho := ((pointsTo_union (ℓ := (oW).view.loc (V d (cV L) (jV L))) (disj_oAB L)).2) $$ [HoA HoB]
  · isplitl [HoA] <;> iassumption
  ihave Ho := (Entails.of_eq (pts_o (F := F) d L _)) $$ Ho
  ihave Ht := ((pointsTo_share (PosShare.mem_left_op_right (tileShare (jL L)))).2) $$ [Ht Ht']
  · isplitl [Ht] <;> iassumption
  ihave Ht := (Entails.of_eq (pts_t (F := F) d L _ _)) $$ Ht
  ihave Hi := (Entails.of_eq (pts_i (F := F) d L _)) $$ Hi
  ihave Hs0 := (Entails.of_eq (pts_s0 (F := F) d L _)) $$ Hs0
  ihave Hs1 := (Entails.of_eq (pts_s1 (F := F) d L _)) $$ Hs1
  isplitl [Ht Hi Ho]
  · isplitl [Ht]; · iexact Ht
    isplitl [Hi]; · iexact Hi
    iexact Ho
  isplitl [Hs0 Hs1 Hbufs]
  · isplitl [Hs0]; · iexists _; iexact Hs0
    isplitl [Hs1]; · iexists _; iexact Hs1
    iexact Hbufs
  isplitl [Hg0 Hg1 Hst Hc0 Hc1 Hsems]
  · isplitl [Hg0]; · iexact Hg0
    isplitl [Hg1]; · iexact Hg1
    isplitl [Hst]; · iexact Hst
    isplitl [Hc0]; · iexact Hc0
    isplitl [Hc1]; · iexact Hc1
    iexact Hsems
  iexists _; isplitr
  rotate_left
  · iexact HO
  · ipureintro; intro p hp
    simp only [Finset.mem_insert] at hp
    rcases hp with rfl | rfl | rfl | rfl | rfl | hp
    · exact .inr rfl
    · exact .inr rfl
    · exact .inr rfl
    · exact .inr rfl
    · exact .inr rfl
    · exact .inl hp

end Tile

/-! ## The launch theorem's obligation -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tW (Memref.isWhole_whole _) iW (Memref.isWhole_whole _) oW (Memref.isWhole_whole _)
          s0W (Memref.isWhole_whole _) s1W (Memref.isWhole_whole _) cc0_scratch2 cc0_scratch3 cc0_scratch4 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the call's grid runs the task at its own grid position. -/
theorem tileObl (hF : (K (F := F)).Facts) (h : OK m) : (K (F := F)).TileObl (D (F := F)) 𝒱 (P m h) v₀ 0 := by
  intro d c i O W hO _ _
  simp only [show (P m h).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF h O W hO).trans (wp_mono frame _ _ fun _ => obl_post)

end Cert.Proof.IdealK

end
-- ==== Proof.IdealLaunch.lean ====
/-
  The gather kernel's run: the launch.

  The one SparseCore call hands SparseCore 0 the matrix, the vector of requested nodes and the result buffer whole. The
  matrix goes to the sixteen tiles as sixteen read shares; the vector and the result go by elements, tile `j` getting
  batch entries `64 j … 64 j + 63` of each. Coming back, every tile holds its result rows at the one matrix of gathered
  rows, so the rows join to the whole result at that matrix. On the TensorCore, @main reshapes the two arguments, makes
  the call, and reshapes the gathered rows; the arguments are never written.
-/
import proofs.«207040_g69088843924254_cont_9to1_m_295_12_alg».proof.Proof.IdealDefs
import proofs.«207040_g69088843924254_cont_9to1_m_295_12_alg».proof.Proof.IdealBody

noncomputable section

namespace Cert.Proof.IdealK

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The sixteen tiles' elements: pairwise disjoint, together everything

The tile of batch entry `b` is `b / 64`. -/

theorem chunks_disjoint : ∀ i ∈ (Finset.univ : Finset (Fin 16)), ∀ j ∈ (Finset.univ : Finset (Fin 16)), i ≠ j → Disjoint (chunkSet i) (chunkSet j) := by
  intro i _ j _ hij
  rw [Finset.disjoint_left]
  intro x hi hj
  rw [mem_chunkSet] at hi hj
  exact hij (Fin.ext (by omega))

theorem chunks_cover : (Finset.univ : Finset (Fin 16)).biUnion chunkSet = Finset.univ := by
  refine Finset.eq_univ_of_forall fun x => ?_
  have hx : (x 0).val < 1024 := (x 0).isLt
  rw [Finset.mem_biUnion]
  refine ⟨⟨(x 0).val / 64, by omega⟩, Finset.mem_univ _, ?_⟩
  rw [mem_chunkSet]
  show 64 * ((x 0).val / 64) ≤ (x 0).val ∧ (x 0).val < 64 * ((x 0).val / 64) + 64
  omega

theorem rows_disjoint : ∀ i ∈ (Finset.univ : Finset (Fin 16)), ∀ j ∈ (Finset.univ : Finset (Fin 16)), i ≠ j → Disjoint (rowsSet i) (rowsSet j) := by
  intro i _ j _ hij
  rw [Finset.disjoint_left]
  intro x hi hj
  rw [mem_rowsSet] at hi hj
  exact hij (Fin.ext (by omega))

theorem rows_cover : (Finset.univ : Finset (Fin 16)).biUnion rowsSet = Finset.univ := by
  refine Finset.eq_univ_of_forall fun x => ?_
  have hx : (x 0).val < 1024 := (x 0).isLt
  rw [Finset.mem_biUnion]
  refine ⟨⟨(x 0).val / 64, by omega⟩, Finset.mem_univ _, ?_⟩
  rw [mem_rowsSet]
  show 64 * ((x 0).val / 64) ≤ (x 0).val ∧ (x 0).val < 64 * ((x 0).val / 64) + 64
  omega

/-! ## The three operands among the tiles -/

/-- The matrix whole is its sixteen read shares. -/
theorem tPts_shares (d : Dev nD) (f : Buf (Elt F) (tLoc d)) :
    (tLoc d ↦{fullShare} f : sProp 𝕄) = bigSep Finset.univ fun j : Fin 16 => tLoc d ↦{tileShare j} f :=
  pointsTo_piecesOf Finset.univ f (by decide) fullShare

/-- The vector whole is the sixteen tiles' batch entries. -/
theorem iPts_chunks (d : Dev nD) (f : Buf (Elt F) (iLoc d)) :
    (iLoc d ↦{fullShare} f : sProp 𝕄) = bigSep Finset.univ fun j : Fin 16 => iLoc d ↦[chunkSet j]{fullShare} f := by
  rw [← pointsTo_biUnion Finset.univ (ℓ := iLoc d) chunkSet chunks_disjoint, chunks_cover]; try rfl

/-- The result whole is the sixteen tiles' rows. -/
theorem oPts_rows (d : Dev nD) (f : Buf (Elt F) (oLoc d)) :
    (oLoc d ↦{fullShare} f : sProp 𝕄) = bigSep Finset.univ fun j : Fin 16 => oLoc d ↦[rowsSet j]{fullShare} f := by
  rw [← pointsTo_biUnion Finset.univ (ℓ := oLoc d) rowsSet rows_disjoint, rows_cover]; try rfl

/-- Rows held at some contents are rows held at whatever they hold. -/
theorem row_wrap (d : Dev nD) (j : Fin 16) (fo : Buf (Elt F) (oLoc d)) :
    (oLoc d ↦[rowsSet j]{fullShare} fo : sProp 𝕄) ⊢ iprop(∃ fo, oLoc d ↦[rowsSet j]{fullShare} fo) := by
  iintro H; iexists fo; iexact H

theorem rows_wrap (d : Dev nD) (fo : Buf (Elt F) (oLoc d)) :
    (bigSep Finset.univ fun j : Fin 16 => (oLoc d ↦[rowsSet j]{fullShare} fo : sProp 𝕄))
      ⊢ bigSep Finset.univ fun j : Fin 16 => iprop(∃ fo, oLoc d ↦[rowsSet j]{fullShare} fo) :=
  bigSep_mono fun j _ => row_wrap d j fo

/-- A family over the call's sixteen tasks is the family over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable (m : (ℓ : Loc nD τ sig) → Buf (Elt F) ℓ) (ρ : Dev nD → PrngReg)

theorem tileGo_family (d : Dev nD) :
    (bigSep Finset.univ (tileGo m d) : sProp 𝕄)
      = iprop((bigSep Finset.univ fun j : Fin 16 => tLoc d ↦{tileShare j} TBL m d)
          ∗ (bigSep Finset.univ fun j : Fin 16 => iLoc d ↦[chunkSet j]{fullShare} IDX m d)
          ∗ bigSep Finset.univ fun j : Fin 16 => iprop(∃ fo, oLoc d ↦[rowsSet j]{fullShare} fo)) := by
  unfold tileGo
  rw [bigSep_sep', bigSep_sep']

theorem tileTd_family (h : OK m) (d : Dev nD) :
    (bigSep Finset.univ (tileTd m h d) : sProp 𝕄)
      = iprop((bigSep Finset.univ fun j : Fin 16 => tLoc d ↦{tileShare j} TBL m d)
          ∗ (bigSep Finset.univ fun j : Fin 16 => iLoc d ↦[chunkSet j]{fullShare} IDX m d)
          ∗ bigSep Finset.univ fun j : Fin 16 => oLoc d ↦[rowsSet j]{fullShare} GOUT m h d) := by
  unfold tileTd
  rw [bigSep_sep', bigSep_sep']

/-- Going out: the matrix by shares, the vector and the result (at whatever it holds) by elements. -/
theorem go_split (d : Dev nD) :
    iprop((tLoc d ↦{fullShare} TBL m d) ∗ (iLoc d ↦{fullShare} IDX m d) ∗ ∃ fo, oLoc d ↦{fullShare} fo)
      ⊢ (bigSep Finset.univ (tileGo m d) : sProp 𝕄) := by
  rw [tileGo_family]
  iintro ⟨Ht, Hi, %fo, Ho⟩
  isplitl [Ht]
  · iapply (Entails.of_eq (tPts_shares (F := F) d (TBL m d))); iexact Ht
  isplitl [Hi]
  · iapply (Entails.of_eq (iPts_chunks (F := F) d (IDX m d))); iexact Hi
  · ihave Ho' := (Entails.of_eq (oPts_rows (F := F) d fo)) $$ Ho
    iapply (rows_wrap (F := F) d fo); iexact Ho'

/-- Coming back: every tile's rows are held at the one matrix of gathered rows, so they join to the result whole there. -/
theorem td_join (h : OK m) (d : Dev nD) :
    (bigSep Finset.univ (tileTd m h d) : sProp 𝕄)
      ⊢ iprop((tLoc d ↦{fullShare} TBL m d) ∗ (iLoc d ↦{fullShare} IDX m d) ∗ (oLoc d ↦{fullShare} GOUT m h d)) := by
  rw [tileTd_family]
  iintro ⟨Ht, Hi, Ho⟩
  isplitl [Ht]
  · iapply (Entails.of_eq (tPts_shares (F := F) d (TBL m d)).symm); iexact Ht
  isplitl [Hi]
  · iapply (Entails.of_eq (iPts_chunks (F := F) d (IDX m d)).symm); iexact Hi
  · iapply (Entails.of_eq (oPts_rows (F := F) d (GOUT m h d)).symm); iexact Ho

theorem vecSplit (h : OK m) : (K (F := F)).VecSplit' (P m h) 0 := by
  intro d c
  show iprop((tLoc d ↦{fullShare} TBL m d) ∗ (iLoc d ↦{fullShare} IDX m d) ∗ ∃ fo, oLoc d ↦{fullShare} fo) ⊢ |={Set.univ}=> iprop(
      (bigSep Finset.univ fun i : Fin ((K (F := F)).nSub 0) => tileGo m d (Fin.cast nSub_zero i))
      ∗ ((bigSep Finset.univ fun i : Fin ((K (F := F)).nSub 0) => tileTd m h d (Fin.cast nSub_zero i))
          -∗ iprop((tLoc d ↦{fullShare} TBL m d) ∗ (iLoc d ↦{fullShare} IDX m d) ∗ (oLoc d ↦{fullShare} GOUT m h d))))
  rw [bigSep_tasks (F := F) (tileGo m d), bigSep_tasks (F := F) (tileTd m h d)]
  iintro H; imodintro
  isplitl [H]
  · iapply (go_split m d); iexact H
  iintro Htd
  iapply (td_join m h d); iexact Htd

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ (h : OK m) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m h).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

variable [FloatOps F]

/-! ## @main on the TensorCore

The six arrays of @main, all unscoped. Their contents along @main: at the launch `V0`; after the first reshape `V1`
(the matrix written), after the second `V2` (the vector written); after the call `V3` (the gathered rows in the call's
result); after the last reshape `V4` (the result written). The arguments are never written. -/

abbrev a0' : DevRef τ sig := Proc.devRef .tc (main_arg0 : Ref sig .tc)
abbrev a1' : DevRef τ sig := Proc.devRef .tc (main_arg1 : Ref sig .tc)
abbrev t' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev op1 : HloOp τ sig (Elt F) := StableHlo.reshape main_arg0 main_v0 rfl shapeCasts_S1024x1000x128_S1024000x128
abbrev op2 : HloOp τ sig (Elt F) := StableHlo.reshape main_arg1 main_v1 rfl shapeCasts_S1024x1_S1024
abbrev op3 : HloOp τ sig (Elt F) := StableHlo.reshape main_v2 main_v3 rfl shapeCasts_S1024x128_S1024x1x128

abbrev S6 : Finset (DevRef τ sig) := {a0', a1', t', i', o', r'}

theorem hop1 : (op1 (F := F)).bufs ⊆ S6 := show ({a0', t'} : Finset (DevRef τ sig)) ⊆ S6 by decide
theorem hop2 : (op2 (F := F)).bufs ⊆ S6 := show ({a1', i'} : Finset (DevRef τ sig)) ⊆ S6 by decide
theorem hop3 : (op3 (F := F)).bufs ⊆ S6 := show ({o', r'} : Finset (DevRef τ sig)) ⊆ S6 by decide

theorem held_S6 (d : Dev nD) (W : Valuation τ sig (Elt F)) :
    (held (T d) S6 W : sProp 𝕄) = iprop((a0Loc d ↦{fullShare} W a0') ∗ (a1Loc d ↦{fullShare} W a1') ∗ (tLoc d ↦{fullShare} W t')
      ∗ (iLoc d ↦{fullShare} W i') ∗ (oLoc d ↦{fullShare} W o') ∗ (rLoc d ↦{fullShare} W r')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (tLoc d ↦{fullShare} W main_v0)
      ∗ (iLoc d ↦{fullShare} W main_v1) ∗ (oLoc d ↦{fullShare} W main_v2) ∗ (rLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch contents. -/
def V0 (d : Dev nD) : Valuation τ sig (Elt F) := fun b => m (d, b)
/-- After the first reshape. -/
def V1 (d : Dev nD) : Valuation τ sig (Elt F) := (op1 (F := F)).result (V0 m d)
/-- After the second reshape. -/
def V2 (d : Dev nD) : Valuation τ sig (Elt F) := (op2 (F := F)).result (V1 m d)
/-- After the call: the gathered rows in its result. -/
def V3 (h : OK m) (d : Dev nD) : Valuation τ sig (Elt F) := Function.update (V2 m d) o' (GOUT m h d)
/-- After the last reshape. -/
def V4 (h : OK m) (d : Dev nD) : Valuation τ sig (Elt F) := (op3 (F := F)).result (V3 m h d)

theorem unscoped_held (d : Dev nD) : (unscopedBufs d (fun b => m ((SparseCore.T d).loc b)) : sProp 𝕄) = held (T d) S6 (V0 m d) := by
  rw [unscopedBufs_eq, held_S6]; rfl

theorem V1_a0 (d : Dev nD) : V1 m d a0' = m (a0Loc d) :=
  ((op1 (F := F)).result_of_not_mem (V0 m d) (b := a0') (show a0' ∉ ({t'} : Finset (DevRef τ sig)) by decide)).trans rfl
theorem V1_a1 (d : Dev nD) : V1 m d a1' = m (a1Loc d) :=
  ((op1 (F := F)).result_of_not_mem (V0 m d) (b := a1') (show a1' ∉ ({t'} : Finset (DevRef τ sig)) by decide)).trans rfl
theorem V1_t (d : Dev nD) : V1 m d t' = TBL m d :=
  (StableHlo.reshape_result main_arg0 main_v0 rfl shapeCasts_S1024x1000x128_S1024000x128 ⟨by decide, rfl⟩ ⟨by decide, rfl⟩ (V0 m d)).trans rfl

theorem V2_a0 (d : Dev nD) : V2 m d a0' = m (a0Loc d) :=
  ((op2 (F := F)).result_of_not_mem (V1 m d) (b := a0') (show a0' ∉ ({i'} : Finset (DevRef τ sig)) by decide)).trans (V1_a0 m d)
theorem V2_a1 (d : Dev nD) : V2 m d a1' = m (a1Loc d) :=
  ((op2 (F := F)).result_of_not_mem (V1 m d) (b := a1') (show a1' ∉ ({i'} : Finset (DevRef τ sig)) by decide)).trans (V1_a1 m d)
theorem V2_t (d : Dev nD) : V2 m d t' = TBL m d :=
  ((op2 (F := F)).result_of_not_mem (V1 m d) (b := t') (show t' ∉ ({i'} : Finset (DevRef τ sig)) by decide)).trans (V1_t m d)
theorem V2_i (d : Dev nD) : V2 m d i' = IDX m d := by
  refine (StableHlo.reshape_result main_arg1 main_v1 rfl shapeCasts_S1024x1_S1024 ⟨by decide, rfl⟩ ⟨by decide, rfl⟩ (V1 m d)).trans ?_
  show (fun i => shapeCast S1024 (V1 m d a1') shapeCasts_S1024x1_S1024 i) = IDX m d
  rw [V1_a1]; rfl

theorem V3_a0 (h : OK m) (d : Dev nD) : V3 m h d a0' = m (a0Loc d) :=
  (Function.update_of_ne (show a0' ≠ o' by decide) _ _).trans (V2_a0 m d)
theorem V3_a1 (h : OK m) (d : Dev nD) : V3 m h d a1' = m (a1Loc d) :=
  (Function.update_of_ne (show a1' ≠ o' by decide) _ _).trans (V2_a1 m d)
theorem V3_t (h : OK m) (d : Dev nD) : V3 m h d t' = TBL m d :=
  (Function.update_of_ne (show t' ≠ o' by decide) _ _).trans (V2_t m d)
theorem V3_i (h : OK m) (d : Dev nD) : V3 m h d i' = IDX m d :=
  (Function.update_of_ne (show i' ≠ o' by decide) _ _).trans (V2_i m d)
theorem V3_o (h : OK m) (d : Dev nD) : V3 m h d o' = GOUT m h d := Function.update_self _ _ _
theorem V3_r (h : OK m) (d : Dev nD) : V3 m h d r' = V2 m d r' := Function.update_of_ne (show r' ≠ o' by decide) _ _

theorem V4_a0 (h : OK m) (d : Dev nD) : V4 m h d a0' = m (a0Loc d) :=
  ((op3 (F := F)).result_of_not_mem (V3 m h d) (b := a0') (show a0' ∉ ({r'} : Finset (DevRef τ sig)) by decide)).trans (V3_a0 m h d)
theorem V4_a1 (h : OK m) (d : Dev nD) : V4 m h d a1' = m (a1Loc d) :=
  ((op3 (F := F)).result_of_not_mem (V3 m h d) (b := a1') (show a1' ∉ ({r'} : Finset (DevRef τ sig)) by decide)).trans (V3_a1 m h d)
theorem V4_r (h : OK m) (d : Dev nD) : V4 m h d r' = ROUT m h d := by
  refine (StableHlo.reshape_result main_v2 main_v3 rfl shapeCasts_S1024x128_S1024x1x128 ⟨by decide, rfl⟩ ⟨by decide, rfl⟩ (V3 m h d)).trans ?_
  show (fun i => shapeCast S1024x1x128 (V3 m h d o') shapeCasts_S1024x128_S1024x1x128 i) = ROUT m h d
  rw [V3_o]; rfl

/-- Before the call: the arguments at their launch contents, the matrix and the vector written. -/
theorem held_V2 (d : Dev nD) :
    (held (T d) S6 (V2 m d) : sProp 𝕄) = iprop((a0Loc d ↦{fullShare} m (a0Loc d)) ∗ (a1Loc d ↦{fullShare} m (a1Loc d)) ∗ (tLoc d ↦{fullShare} TBL m d)
      ∗ (iLoc d ↦{fullShare} IDX m d) ∗ (oLoc d ↦{fullShare} V2 m d o') ∗ (rLoc d ↦{fullShare} V2 m d r')) := by
  rw [held_S6, V2_a0, V2_a1, V2_t, V2_i]

/-- After the call: the same, the call's result at the gathered rows. -/
theorem held_V3 (h : OK m) (d : Dev nD) :
    (held (T d) S6 (V3 m h d) : sProp 𝕄) = iprop((a0Loc d ↦{fullShare} m (a0Loc d)) ∗ (a1Loc d ↦{fullShare} m (a1Loc d)) ∗ (tLoc d ↦{fullShare} TBL m d)
      ∗ (iLoc d ↦{fullShare} IDX m d) ∗ (oLoc d ↦{fullShare} GOUT m h d) ∗ (rLoc d ↦{fullShare} V2 m d r')) := by
  rw [held_S6, V3_a0, V3_a1, V3_t, V3_i, V3_o, V3_r]

/-- At the end: the arguments at their launch contents, the result written. -/
theorem held_V4 (h : OK m) (d : Dev nD) :
    (held (T d) S6 (V4 m h d) : sProp 𝕄) = iprop((a0Loc d ↦{fullShare} m (a0Loc d)) ∗ (a1Loc d ↦{fullShare} m (a1Loc d)) ∗ (tLoc d ↦{fullShare} V4 m h d t')
      ∗ (iLoc d ↦{fullShare} V4 m h d i') ∗ (oLoc d ↦{fullShare} V4 m h d o') ∗ (rLoc d ↦{fullShare} ROUT m h d)) := by
  rw [held_S6, V4_a0, V4_a1, V4_r]

/-- What the call takes for its one SparseCore, and what it hands back. -/
theorem st0_eq (h : OK m) (d : Dev nD) : (bigSep Finset.univ fun c : Fin ((K (F := F)).nCore 0) => (P m h).st 0 d c)
    = iprop((tLoc d ↦{fullShare} TBL m d) ∗ (iLoc d ↦{fullShare} IDX m d) ∗ ∃ fo, oLoc d ↦{fullShare} fo) :=
  bigSep_univ_of_subsingleton (0 : Fin 1)
theorem dn0_eq (h : OK m) (d : Dev nD) : (bigSep Finset.univ fun c : Fin ((K (F := F)).nCore 0) => (P m h).dn 0 d c)
    = iprop((tLoc d ↦{fullShare} TBL m d) ∗ (iLoc d ↦{fullShare} IDX m d) ∗ (oLoc d ↦{fullShare} GOUT m h d)) :=
  bigSep_univ_of_subsingleton (0 : Fin 1)

/-- What @main leaves the claim: the two arguments at their launch contents, the result buffer at the result. -/
abbrev FIN (h : OK m) (d : Dev nD) : sProp 𝕄 :=
  iprop((a0Loc d ↦{fullShare} m (a0Loc d)) ∗ (a1Loc d ↦{fullShare} m (a1Loc d)) ∗ (rLoc d ↦{fullShare} ROUT m h d))

/-- @main on device `d`'s TensorCore: the two reshapes of the arguments, the call (from the matrix, the vector and the
    result buffer, back with the gathered rows), the reshape of the gathered rows; the arguments kept. -/
theorem hmain (h : OK m) (κ : GSem nD τ sig → ℕ) (d : Dev nD) :
    iprop((K (F := F)).ctx EH (P m h) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m h d) := by
  unfold SparseCore.Cfg.tcRes
  rw [unscoped_held]
  simp only [main, wp_bind, wp_pure]
  iintro ⟨#Hctx, Hst, ⟨Hb, Hheld, -, -⟩, -⟩
  -- the matrix
  iapply (wp_hlo_within 𝒱 (SparseCore.T d) none Set.univ (op := op1) (S := S6) hop1 (V := V0 m d)) $$ [Hb Hheld]
  · isplitl [Hb]; · iexact Hb
    iexact Hheld
  iintro ⟨Hb, Hheld⟩
  rw [wp_ret]; imodintro
  -- the vector
  iapply (wp_hlo_within 𝒱 (SparseCore.T d) none Set.univ (op := op2) (S := S6) hop2 (V := V1 m d)) $$ [Hb Hheld]
  · isplitl [Hb]; · iexact Hb
    iexact Hheld
  iintro ⟨Hb, Hheld⟩
  rw [wp_ret]; imodintro
  ihave Hh := (Entails.of_eq (show (held (T d) S6 ((op2 (F := F)).result (V1 m d)) : sProp 𝕄) = _ from held_V2 (F := F) m d)) $$ Hheld
  icases Hh with ⟨Ha0, Ha1, Ht, Hi, Ho, Hr⟩
  -- the call
  iapply ((K (F := F)).wp_run (D (F := F)) 𝒱 (EH := EH) (P := P m h) κ d 0) $$ [Hst Ht Hi Ho Hb Ha0 Ha1 Hr]
  isplitr; · iexact Hctx
  isplitl [Hst]; · iexact Hst
  isplitl [Ht Hi Ho]
  · rw [st0_eq]
    isplitl [Ht]; · iexact Ht
    isplitl [Hi]; · iexact Hi
    iexists _; iexact Ho
  iintro ⟨Hst, Hdn⟩
  ihave Hdn' := (Entails.of_eq (dn0_eq m h d)) $$ Hdn
  icases Hdn' with ⟨Ht, Hi, Ho⟩
  -- the result
  iapply (wp_hlo_within 𝒱 (SparseCore.T d) none Set.univ (op := op3) (S := S6) hop3 (V := V3 m h d)) $$ [Hb Ha0 Ha1 Ht Hi Ho Hr]
  · isplitl [Hb]; · iexact Hb
    rw [held_V3]
    isplitl [Ha0]; · iexact Ha0
    isplitl [Ha1]; · iexact Ha1
    isplitl [Ht]; · iexact Ht
    isplitl [Hi]; · iexact Hi
    isplitl [Ho]; · iexact Ho
    iexact Hr
  iintro ⟨Hb, Hheld⟩
  ihave Hh := (Entails.of_eq (show (held (T d) S6 ((op3 (F := F)).result (V3 m h d)) : sProp 𝕄) = _ from held_V4 (F := F) m h d)) $$ Hheld
  icases Hh with ⟨Ha0, Ha1, -, -, -, Hr⟩
  rw [wp_ret]; imodintro; imodintro
  isplitl [Hst]; · iexact Hst
  isplitl [Ha0]; · iexact Ha0
  isplitl [Ha1]; · iexact Ha1
  iexact Hr

/-! ## How the final memory reads what @main leaves -/

def fq (h : OK m) (d : Dev nD) (s' : Phys nD τ sig (Elt F)) : Prop :=
  s'.mem.mem (rLoc d) = ROUT m h d ∧ s'.mem.mem (a0Loc d) = m (a0Loc d) ∧ s'.mem.mem (a1Loc d) = m (a1Loc d)

theorem hfin (h : OK m) (d : Dev nD) (s' : Phys nD τ sig (Elt F)) : iprop(FIN m h d ∗ SI s') ⊢ (⌜fq m h d s'⌝ : sProp 𝕄) := by
  iintro ⟨⟨Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := rLoc d) (I := Finset.univ) (q := fullShare) (f := ROUT m h d)) $$ [HSI Hr]
  · isplitl [HSI] <;> iassumption
  icases H with %h2
  ipureintro
  exact ⟨funext fun i => h2 i (Finset.mem_univ i), funext fun i => h0 i (Finset.mem_univ i), funext fun i => h1 i (Finset.mem_univ i)⟩

/-! ## The program's run -/

theorem run_main [∀ e, Nonempty (Elt F e)] (h : OK m) :
    θ_run (Cert.KernelIdeal.defs (F := F)) (Cert.KernelIdeal.threads (F := F)) ⟨m, fun _ => 0, ρ⟩ (QC m h) :=
  SparseCore.Cfg.θ_run_sc (K := K (F := F)) (D := D (F := F)) (𝒱 := 𝒱) (EH := EH) (P := P m h) facts v₀
    (fun q hq => match q with | 0 => nomatch hq)
    (fun q _ => match q with | 0 => tileObl m facts h)
    (fun q _ => match q with | 0 => SparseCore.Cfg.VecSplit.of_plain (vecSplit m h))
    m ρ main (fun _ => iprop(emp)) (FIN m h) (u₀ (F := F)) (sep_elim_left.trans (hu₀ m h)) (hmain m ρ h) (fq m h) (hfin m h) (QC m h) (fun _ hh => hh)

end Cert.Proof.IdealK

end
-- ==== Proof.BitsSpec.lean ====
/-
  What the gather kernel computes, as one function of its two operands, index by index.

  The embedding table is a matrix of 1024000 rows of 128 numbers: the 1000 node rows of batch entry 0, then
  those of batch entry 1, and so on. Batch entry `b` asks for node `idx b`; its row in the matrix is
  `idx b + 1000 * b` (computed in 32-bit words, as the kernel does). Row `b` of the result is that row of
  the matrix. The row number must name a row of the matrix (`InRange`): it does whenever every requested
  node is one of the 1000.
-/
import proofs.«207040_g69088843924254_cont_9to1_m_295_12_alg».proof.Kernel
import Idealize.ShloMosaic.Lib.ValueIdx

noncomputable section

namespace Cert.Kernel.Spec

open Idealize.ShloMosaic Idealize.ShloMosaic.ValueIdx Cert.Kernel

variable {F : FTy → Type}

/-- The matrix row batch entry `x` reads: its requested node plus 1000 rows per earlier batch entry. -/
def flat (idx : S1024.Idx → BitVec 32) : S1024.Idx → BitVec 32 :=
  fun x => idx x + BitVec.ofNat 32 (x 0).val * 1000#32

/-- Every batch entry's row is a row of the matrix. -/
def InRange (fl : S1024.Idx → BitVec 32) : Prop := ∀ x, (fl x).toNat < 1024000

/-- The result: row `b` is row `fl b` of the matrix. -/
def gathered (tbl : S1024000x128.Idx → Elt F .f32) (fl : S1024.Idx → BitVec 32) (h : InRange fl) :
    S1024x128.Idx → Elt F .f32 :=
  fun x => tbl (ix2 ⟨(fl (ix1 (x 0))).toNat, h _⟩ (x 1))

end Cert.Kernel.Spec

end
-- ==== Proof.BitsDefs.lean ====
/-
  The gather kernel's run: the vocabulary shared by the tile's proof and the launch's.

  The program reshapes the embedding table to a matrix of 1024000 rows and the requested nodes to a vector of 1024,
  starts one SparseCore kernel on sixteen tiles — tile `j` serves batch entries `64 j … 64 j + 63` — and reshapes
  the 1024 gathered rows to the result. Here: the locations, the elements each tile is handed, the values the
  buffers hold, and what the call's handshakes carry.
-/
import proofs.«207040_g69088843924254_cont_9to1_m_295_12_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207040_g69088843924254_cont_9to1_m_295_12_alg».proof.Proof.Gen.Kernel
import proofs.«207040_g69088843924254_cont_9to1_m_295_12_alg».proof.Proof.Gen.Kernel.Skeleton
import proofs.«207040_g69088843924254_cont_9to1_m_295_12_alg».proof.Proof.BitsSpec

noncomputable section

namespace Cert.Proof.BitsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Locations, as the TensorCore names them -/

abbrev a0Loc (d : Dev nD) : Loc nD τ sig := (SparseCore.T d).loc main_arg0
abbrev a1Loc (d : Dev nD) : Loc nD τ sig := (SparseCore.T d).loc main_arg1
abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

/-! ## Which elements each of the sixteen tiles is handed

Tile `j` fetches the 64 requested nodes of batch entries `64 j … 64 j + 63` and writes the 64 result rows of the same
batch entries. -/

theorem chunk_inb (j : Fin 16) : ∀ a, (![64 * j.val] : Fin 1 → Nat) a + S64.size a ≤ S1024.size a := by
  intro a; obtain rfl : a = 0 := Subsingleton.elim _ _
  show 64 * j.val + 64 ≤ 1024; omega
theorem rows_inb (j : Fin 16) : ∀ a, (![64 * j.val, 0] : Fin 2 → Nat) a + S64x128.size a ≤ S1024x128.size a := by
  intro a
  match a with
  | ⟨0, _⟩ => show 64 * j.val + 64 ≤ 1024; omega
  | ⟨1, _⟩ => show 0 + 128 ≤ 128; omega

/-- The batch entries of tile `j`. -/
def chunkSet (j : Fin 16) : Finset S1024.Idx := (Rect.unit (s := S1024) ![64 * j.val] S64.size (chunk_inb j)).set
/-- The result rows of tile `j`. -/
def rowsSet (j : Fin 16) : Finset S1024x128.Idx := (Rect.unit (s := S1024x128) ![64 * j.val, 0] S64x128.size (rows_inb j)).set

theorem mem_chunkSet {j : Fin 16} {x : S1024.Idx} : x ∈ chunkSet j ↔ 64 * j.val ≤ (x 0).val ∧ (x 0).val < 64 * j.val + 64 := by
  unfold chunkSet; rw [Rect.mem_set_unit]
  constructor
  · intro h; exact h 0
  · intro h a; obtain rfl : a = 0 := Subsingleton.elim _ _; exact h
theorem mem_rowsSet {j : Fin 16} {x : S1024x128.Idx} : x ∈ rowsSet j ↔ 64 * j.val ≤ (x 0).val ∧ (x 0).val < 64 * j.val + 64 := by
  unfold rowsSet; rw [Rect.mem_set_unit]
  constructor
  · intro h; exact h 0
  · intro h a
    match a with
    | ⟨0, _⟩ => exact h
    | ⟨1, _⟩ => exact ⟨Nat.zero_le _, by have := ValueIdx.idx2_lt1 x; show (x 1).val < 0 + 128; omega⟩

/-! ## The values -/

variable (m : (ℓ : Loc nD τ sig) → Buf (Elt F) ℓ)

/-- The embedding table as the matrix the kernel gathers from: the first argument, its first two axes merged. -/
def TBL (d : Dev nD) : Buf (Elt F) (tLoc d) := shapeCast S1024000x128 (m (a0Loc d)) shapeCasts_S1024x1000x128_S1024000x128
/-- The requested nodes as a vector: the second argument without its unit axis. -/
def IDX (d : Dev nD) : Buf (Elt F) (iLoc d) := shapeCast S1024 (m (a1Loc d)) shapeCasts_S1024x1_S1024

/-- What the proof asks of the launch memory: every batch entry's row of the matrix exists. -/
def OK : Prop := ∀ d : Dev nD, Spec.InRange (Spec.flat (IDX m d))

/-- The matrix of gathered rows. -/
def GOUT (h : OK m) (d : Dev nD) : Buf (Elt F) (oLoc d) := Spec.gathered (TBL m d) (Spec.flat (IDX m d)) (h d)

/-- The result: the gathered rows with a unit axis inserted. -/
def ROUT (h : OK m) (d : Dev nD) : Buf (Elt F) (rLoc d) := shapeCast S1024x1x128 (GOUT m h d) shapeCasts_S1024x128_S1024x1x128

/-! ## What the call hands each SparseCore and each tile -/

/-- Tile `j`'s read share of the matrix: one sixteenth. -/
def tileShare (j : Fin 16) : PosShare TreeShare := pieceOf fullShare 16 (by decide) j

/-- To tile `j`: a read share of the whole matrix, its batch entries' requested nodes, and its result rows at whatever
    they hold. -/
def tileGo (d : Dev nD) (j : Fin 16) : sProp 𝕄 :=
  iprop((tLoc d ↦{tileShare j} TBL m d) ∗ (iLoc d ↦[chunkSet j]{fullShare} IDX m d) ∗ ∃ fo, oLoc d ↦[rowsSet j]{fullShare} fo)
/-- From tile `j`: the same, its result rows at the gathered rows. -/
def tileTd (h : OK m) (d : Dev nD) (j : Fin 16) : sProp 𝕄 :=
  iprop((tLoc d ↦{tileShare j} TBL m d) ∗ (iLoc d ↦[chunkSet j]{fullShare} IDX m d) ∗ (oLoc d ↦[rowsSet j]{fullShare} GOUT m h d))

/-- The one call takes the matrix, the requested nodes and the result whole, and brings them back, the result at the
    gathered rows. -/
def P (h : OK m) : (K (F := F)).Pay (nD := nD) (Val := Elt F) (Name := ℕ) (U := UU) where
  st := fun q d _ => match q with | 0 => iprop((tLoc d ↦{fullShare} TBL m d) ∗ (iLoc d ↦{fullShare} IDX m d) ∗ ∃ fo, oLoc d ↦{fullShare} fo)
  dn := fun q d _ => match q with | 0 => iprop((tLoc d ↦{fullShare} TBL m d) ∗ (iLoc d ↦{fullShare} IDX m d) ∗ (oLoc d ↦{fullShare} GOUT m h d))
  go := fun q d _ i => match q with | 0 => tileGo m d (Fin.cast nSub_zero i)
  td := fun q d _ i => match q with | 0 => tileTd m h d (Fin.cast nSub_zero i)
  x := fun _ _ => iprop(emp)

instance P_storable (h : OK m) : (P (F := F) m h).IsStorable where
  st q d _ := match q with
    | 0 => (inferInstance : BI.Storable (upEmb : UEmb _ 𝕄) iprop((tLoc d ↦{fullShare} TBL m d) ∗ (iLoc d ↦{fullShare} IDX m d) ∗ ∃ fo, oLoc d ↦{fullShare} fo))
  dn q d _ := match q with
    | 0 => (inferInstance : BI.Storable (upEmb : UEmb _ 𝕄) iprop((tLoc d ↦{fullShare} TBL m d) ∗ (iLoc d ↦{fullShare} IDX m d) ∗ (oLoc d ↦{fullShare} GOUT m h d)))
  go q d _ i := match q with
    | 0 => (by unfold tileGo; infer_instance : BI.Storable (upEmb : UEmb _ 𝕄) (tileGo m d (Fin.cast nSub_zero i)))
  td q d _ i := match q with
    | 0 => (by unfold tileTd; infer_instance : BI.Storable (upEmb : UEmb _ 𝕄) (tileTd m h d (Fin.cast nSub_zero i)))

/-- The claim's post, with the result named: the result buffer at `ROUT`, the two arguments unchanged. -/
def QC (h : OK m) : PUnit × MemSt nD τ sig (Elt F) → Prop := fun r => ∀ c : Dev nD,
  r.2.mem (rLoc c) = ROUT m h c ∧ r.2.mem (a0Loc c) = m (a0Loc c) ∧ r.2.mem (a1Loc c) = m (a1Loc c)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Proof.BitsK

end
-- ==== Proof.BitsRows.lean ====
/-
  What a tile's buffers hold, index by index.

  The tile at grid position `L` serves the 64 batch entries from `base L` on. It fetches their requested nodes
  into its list and then, sixteen lanes at a time, replaces entry `y` by `node + 1000 * (base L + y)`: the row of
  the embedding matrix to gather. Here: each of the four stores' payloads at a lane, in closed form; the list after
  the four stores is that row at every entry, whatever it held before; every such row is a row of the matrix when
  the requested nodes are in range; and a gathered row read back is the matrix's row the list names.
-/
import proofs.«207040_g69088843924254_cont_9to1_m_295_12_alg».proof.Proof.Gen.Kernel
import proofs.«207040_g69088843924254_cont_9to1_m_295_12_alg».proof.Proof.Gen.Kernel.Skeleton
import proofs.«207040_g69088843924254_cont_9to1_m_295_12_alg».proof.Proof.BitsSpec
import Idealize.ShloMosaic.Lib.SparseCore.Stream
import Idealize.ShloMosaic.Lib.Writes
import Idealize.ShloMosaic.Lib.Pipeline.Value
import Idealize.ShloMosaic.Lib.ValueIdx

noncomputable section

namespace Cert.Proof.BitsK

open Cert.Kernel Cert.Kernel.Gen
open Idealize.ShloMosaic Idealize.ShloMosaic.ValueIdx

variable {F : FTy → Type} [FloatOps F]

local notation "tW" => (Memref.whole Cert.Kernel.main_v0_scv : Memref Cert.Kernel.sig Kind.scVector Space.hbm Cert.Kernel.S1024000x128 EltTy.f32)
local notation "iW" => (Memref.whole Cert.Kernel.main_v1_scv : Memref Cert.Kernel.sig Kind.scVector Space.hbm Cert.Kernel.S1024 EltTy.i32)
local notation "oW" => (Memref.whole Cert.Kernel.main_v2_scv : Memref Cert.Kernel.sig Kind.scVector Space.hbm Cert.Kernel.S1024x128 EltTy.f32)
local notation "s0W" => (Memref.whole Cert.Kernel.cc0_scratch0 : Memref Cert.Kernel.sig Kind.scVector Space.vmem Cert.Kernel.S64 EltTy.i32)
local notation "s1W" => (Memref.whole Cert.Kernel.cc0_scratch1 : Memref Cert.Kernel.sig Kind.scVector Space.vmem Cert.Kernel.S64x128 EltTy.f32)

/-! ## The memrefs the body slices -/

/-- The tile's batch entries' requested nodes, in the vector of all of them. -/
abbrev iChunk (L : grid0.Coords) : Memref sig .scVector .hbm S64 .i32 := (iW).slice (Rect.unit (s := S1024) (k0_off1 L) S64.size (k0_off1_inb L)) (fun _ => rfl)
/-- The tile's first and second 32 result rows. -/
abbrev oA (L : grid0.Coords) : Memref sig .scVector .hbm S32x128 .f32 := (oW).slice (Rect.unit (s := S1024x128) (k0_off2 L) S32x128.size (k0_off2_inb L)) (fun _ => rfl)
abbrev oB (L : grid0.Coords) : Memref sig .scVector .hbm S32x128 .f32 := (oW).slice (Rect.unit (s := S1024x128) (k0_off3 L) S32x128.size (k0_off3_inb L)) (fun _ => rfl)
/-- The two halves of the list and of the gathered rows. -/
abbrev l0 : Memref sig .scVector .vmem S32 .i32 := (s0W).slice (Rect.unit (s := S64) ![0] S32.size inb_S64_S32_0) (fun _ => rfl)
abbrev l1 : Memref sig .scVector .vmem S32 .i32 := (s0W).slice (Rect.unit (s := S64) ![32] S32.size inb_S64_S32_32) (fun _ => rfl)
abbrev r0 : Memref sig .scVector .vmem S32x128 .f32 := (s1W).slice (Rect.unit (s := S64x128) ![0, 0] S32x128.size inb_S64x128_S32x128_0_0) (fun _ => rfl)
abbrev r1 : Memref sig .scVector .vmem S32x128 .f32 := (s1W).slice (Rect.unit (s := S64x128) ![32, 0] S32x128.size inb_S64x128_S32x128_32_0) (fun _ => rfl)
/-- The whole matrix, as the gathers name it. -/
abbrev tAll : Memref sig .scVector .hbm S1024000x128 .f32 := (tW).slice (Rect.unit (s := S1024000x128) ![0, 0] S1024000x128.size inb_S1024000x128_S1024000x128_0_0) (fun _ => rfl)

/-! ## The tile's first batch entry -/

/-- The first batch entry of the tile at grid position `L`. -/
def base (L : grid0.Coords) : Nat := 64 * (L 1).val + 64 * (L 0).val

theorem base_le (L : grid0.Coords) : base L + 64 ≤ 1024 := by
  have h1 : (L 1).val < 16 := (L 1).isLt
  have h0 : (L 0).val < 1 := (L 0).isLt
  unfold base; omega

/-- The same as the kernel computes it, in 32-bit words. -/
def baseWord (L : grid0.Coords) : BitVec 32 :=
  Scalar.muli (Scalar.addi (Scalar.muli (BitVec.ofNat 32 (L 1).val) 1#32) (BitVec.ofNat 32 (L 0).val)) 64#32

theorem baseWord_eq (L : grid0.Coords) : baseWord L = BitVec.ofNat 32 (base L) := by
  unfold baseWord base Scalar.muli Scalar.addi IntOp.muli IntOp.addi
  rw [BitVec.ofNat_add, BitVec.ofNat_mul, BitVec.ofNat_mul, BitVec.mul_one, BitVec.mul_comm, BitVec.mul_add]

/-- What a lane adds to its requested node: 1000 times its batch entry. -/
theorem lane_word (L : grid0.Coords) (c n : Nat) :
    (BitVec.ofNat 32 n + (baseWord L + BitVec.ofNat 32 c)) * 1000#32 = BitVec.ofNat 32 (base L + c + n) * 1000#32 := by
  rw [baseWord_eq, BitVec.ofNat_add, BitVec.ofNat_add]
  congr 1; ac_rfl

/-! ## The four stores' payloads at a lane -/

theorem pay1_apply (L : grid0.Coords) (v : Vec F S16 .i32) (z : S16.Idx) :
    k0_pay1 L v z = v z + BitVec.ofNat 32 (base L + 0 + (z 0).val) * 1000#32 := by
  rw [← lane_word]
  unfold k0_pay1 baseWord
  simp only [shapeCast_self, addi, muli, broadcast_apply, IntOp.addi, IntOp.muli, Scalar.addi, Scalar.muli]
  rw [iota_single_apply]
theorem pay2_apply (L : grid0.Coords) (v : Vec F S16 .i32) (z : S16.Idx) :
    k0_pay2 L v z = v z + BitVec.ofNat 32 (base L + 16 + (z 0).val) * 1000#32 := by
  rw [← lane_word]
  unfold k0_pay2 baseWord
  simp only [shapeCast_self, addi, muli, broadcast_apply, IntOp.addi, IntOp.muli, Scalar.addi, Scalar.muli]
  rw [iota_single_apply]
theorem pay43_apply (L : grid0.Coords) (v : Vec F S16 .i32) (z : S16.Idx) :
    k0_pay4 (k0_pay3 L v) z = v z + BitVec.ofNat 32 (base L + 32 + (z 0).val) * 1000#32 := by
  rw [← lane_word]
  unfold k0_pay4 k0_pay3 baseWord
  simp only [shapeCast_self, addi, muli, broadcast_apply, IntOp.addi, IntOp.muli, Scalar.addi, Scalar.muli]
  rw [iota_single_apply]
theorem pay5_apply (L : grid0.Coords) (v : Vec F S16 .i32) (z : S16.Idx) :
    k0_pay5 (baseWord L) v z = v z + BitVec.ofNat 32 (base L + 48 + (z 0).val) * 1000#32 := by
  rw [← lane_word]
  unfold k0_pay5
  simp only [shapeCast_self, addi, muli, broadcast_apply, IntOp.addi, IntOp.muli, Scalar.addi, Scalar.muli]
  rw [iota_single_apply]

/-! ## The list after the four stores -/

/-- Lane `z` of the sixteen lanes from `c` on is entry `c + z`. -/
theorem lane_emb (c : Nat) (h : ∀ a, (![c] : Fin 1 → Nat) a + S16.size a ≤ S64.size a) (z : S16.Idx) :
    (((Rect.unit (s := S64) ![c] S16.size h).emb z) 0).val = c + (z 0).val := by
  rw [Rect.emb_apply]; simp

/-- The row entry `y` of the tile's list is to hold. -/
def rowAt (L : grid0.Coords) (raw : S64.Idx → BitVec 32) (y : S64.Idx) : BitVec 32 :=
  raw y + BitVec.ofNat 32 (base L + (y 0).val) * 1000#32

/-- After the four stores — each of sixteen lanes' requested nodes, as fetched, plus their rows' offsets — every entry
    of the list is its row, whatever the list held before. -/
theorem list_rows (L : grid0.Coords) (raw : S64.Idx → BitVec 32) (v3 v15 v27 v39 : Vec F S16 .i32)
    (h3 : ∀ z, v3 z = raw ((Rect.unit (s := S64) ![0] S16.size inb_S64_S16_0).emb z))
    (h15 : ∀ z, v15 z = raw ((Rect.unit (s := S64) ![16] S16.size inb_S64_S16_16).emb z))
    (h27 : ∀ z, v27 z = raw ((Rect.unit (s := S64) ![32] S16.size inb_S64_S16_32).emb z))
    (h39 : ∀ z, v39 z = raw ((Rect.unit (s := S64) ![48] S16.size inb_S64_S16_48).emb z))
    (g : (s0W).view.ty.Contents (Elt F)) (y : S64.Idx) :
    (s0W).view.read (Elt F) ((s0W).view.writes (Elt F) g
      [⟨Rect.unit (s := S64) ![48] S16.size inb_S64_S16_48, k0_pay5 (baseWord L) v39⟩,
       ⟨Rect.unit (s := S64) ![32] S16.size inb_S64_S16_32, k0_pay4 (k0_pay3 L v27)⟩,
       ⟨Rect.unit (s := S64) ![16] S16.size inb_S64_S16_16, k0_pay2 L v15⟩,
       ⟨Rect.unit (s := S64) ![0] S16.size inb_S64_S16_0, k0_pay1 L v3⟩]) y
    = rowAt L raw y := by
  refine View.read_writes_apply_of_pieces (Val := Elt F) (s0W).view g (rowAt L raw : S64.Idx → Elt F .i32) _ ?_ y ?_
  · intro p hp x
    simp only [List.mem_cons, List.not_mem_nil, or_false] at hp
    rcases hp with rfl | rfl | rfl | rfl
    · show k0_pay5 (baseWord L) v39 x = _
      rw [pay5_apply, h39]; unfold rowAt; rw [lane_emb, Nat.add_assoc]
    · show k0_pay4 (k0_pay3 L v27) x = _
      rw [pay43_apply, h27]; unfold rowAt; rw [lane_emb, Nat.add_assoc]
    · show k0_pay2 L v15 x = _
      rw [pay2_apply, h15]; unfold rowAt; rw [lane_emb, Nat.add_assoc]
    · show k0_pay1 L v3 x = _
      rw [pay1_apply, h3]; unfold rowAt; rw [lane_emb, Nat.add_assoc]
  · have hy : (y 0).val < 64 := (y 0).isLt
    have hm : ∀ c (h : ∀ a, (![c] : Fin 1 → Nat) a + S16.size a ≤ S64.size a), c ≤ (y 0).val → (y 0).val < c + 16 →
        y ∈ (Rect.unit (s := S64) ![c] S16.size h).set := by
      intro c h h1 h2
      rw [Rect.mem_set_unit]; intro a; obtain rfl : a = 0 := Subsingleton.elim _ _; exact ⟨h1, h2⟩
    by_cases c1 : (y 0).val < 16
    · exact ⟨⟨Rect.unit (s := S64) ![0] S16.size inb_S64_S16_0, k0_pay1 L v3⟩,
        List.mem_cons_of_mem _ (List.mem_cons_of_mem _ (List.mem_cons_of_mem _ List.mem_cons_self)),
        hm 0 inb_S64_S16_0 (Nat.zero_le _) (by omega)⟩
    by_cases c2 : (y 0).val < 32
    · exact ⟨⟨Rect.unit (s := S64) ![16] S16.size inb_S64_S16_16, k0_pay2 L v15⟩,
        List.mem_cons_of_mem _ (List.mem_cons_of_mem _ List.mem_cons_self),
        hm 16 inb_S64_S16_16 (by omega) (by omega)⟩
    by_cases c3 : (y 0).val < 48
    · exact ⟨⟨Rect.unit (s := S64) ![32] S16.size inb_S64_S16_32, k0_pay4 (k0_pay3 L v27)⟩,
        List.mem_cons_of_mem _ List.mem_cons_self,
        hm 32 inb_S64_S16_32 (by omega) (by omega)⟩
    · exact ⟨⟨Rect.unit (s := S64) ![48] S16.size inb_S64_S16_48, k0_pay5 (baseWord L) v39⟩,
        List.mem_cons_self,
        hm 48 inb_S64_S16_48 (by omega) (by omega)⟩

/-- A load of sixteen lanes from `c` on, from a list just fetched whole, reads the fetched entries `c + z`. -/
theorem readAt_raw (c : Nat) (hc : ∀ a, (![c] : Fin 1 → Nat) a + S16.size a ≤ S64.size a)
    (f0 : (s0W).view.ty.Contents (Elt F)) (raw : S64.Idx → BitVec 32) (z : S16.Idx) :
    View.readAt (Elt F) (s0W).view (Rect.unit (s := S64) ![c] S16.size hc).toLoadRect
        (View.write (Elt F) (s0W).view f0 raw Finset.univ) z
      = raw ((Rect.unit (s := S64) ![c] S16.size hc).emb z) := by
  rw [View.readAt_rect]
  simp only [Memref.view_whole, View.write_whole_univ]
  exact (View.read_apply _ _).trans (cast_eq _ _)

/-! ## What the fetch lands -/

/-- Entry `y` of the tile's fetched chunk is the requested node of batch entry `base L + y`. -/
theorem chunk_read (L : grid0.Coords) (idx : S1024.Idx → BitVec 32) (y : S64.Idx) :
    (iChunk L).view.read (Elt F) idx y
      = idx (ix1 ⟨base L + (y 0).val, by have := base_le L; have hy : (y 0).val < 64 := (y 0).isLt; omega⟩) := by
  refine ((View.read_apply _ _).trans (cast_eq _ _)).trans (congrArg idx ?_)
  funext a
  match a with
  | ⟨0, _⟩ =>
    refine Fin.ext ?_
    show k0_off1 L 0 + 1 * (y 0).val = base L + (y 0).val
    rw [k0_off1_eq]; simp [base]

/-- Entry `y` of a list that holds the tile's rows is the matrix row of batch entry `base L + y`. -/
theorem list_flat (L : grid0.Coords) (idx : S1024.Idx → BitVec 32) (y : S64.Idx) :
    rowAt L ((iChunk L).view.read (Elt F) idx) y
      = Spec.flat idx (ix1 ⟨base L + (y 0).val, by have := base_le L; have hy : (y 0).val < 64 := (y 0).isLt; omega⟩) := by
  unfold rowAt; rw [chunk_read]; rfl

/-- So it names a row of the matrix, when every batch entry's row is one. -/
theorem list_inRange (L : grid0.Coords) (idx : S1024.Idx → BitVec 32) (h : Spec.InRange (Spec.flat idx))
    (lst : (s0W).view.ty.Contents (Elt F))
    (hl : ∀ y : S64.Idx, (s0W).view.read (Elt F) lst y = rowAt L ((iChunk L).view.read (Elt F) idx) y) (y : S64.Idx) :
    ((s0W).view.read (Elt F) lst y).toNat < 1024000 := by
  rw [hl, list_flat]; exact h _

/-- The first half of the list read as a list of 32 is the list's entries 0 … 31, -/
theorem half0_read (lst : (s0W).view.ty.Contents (Elt F)) (x : S32.Idx) :
    (l0).view.read (Elt F) lst x = (s0W).view.read (Elt F) lst (ix1 ⟨(x 0).val, by have : (x 0).val < 32 := (x 0).isLt; omega⟩) := by
  refine ((View.read_apply _ _).trans (cast_eq _ _)).trans (congrArg lst ?_)
  funext a
  match a with
  | ⟨0, _⟩ => refine Fin.ext ?_; show 0 + 1 * (x 0).val = (x 0).val; omega
/-- the second half its entries 32 … 63. -/
theorem half1_read (lst : (s0W).view.ty.Contents (Elt F)) (x : S32.Idx) :
    (l1).view.read (Elt F) lst x = (s0W).view.read (Elt F) lst (ix1 ⟨32 + (x 0).val, by have : (x 0).val < 32 := (x 0).isLt; omega⟩) := by
  refine ((View.read_apply _ _).trans (cast_eq _ _)).trans (congrArg lst ?_)
  funext a
  match a with
  | ⟨0, _⟩ => refine Fin.ext ?_; show 32 + 1 * (x 0).val = 32 + (x 0).val; omega

/-! ## A gathered row -/

/-- The matrix read through the slice that is all of it is the matrix. -/
theorem tAll_read (tbl : S1024000x128.Idx → Elt F .f32) : (tAll).view.read (Elt F) tbl = tbl := by
  funext j
  refine ((View.read_apply _ _).trans (cast_eq _ _)).trans (congrArg tbl ?_)
  funext a
  match a with
  | ⟨0, _⟩ => refine Fin.ext ?_; show 0 + 1 * (j 0).val = (j 0).val; omega
  | ⟨1, _⟩ => refine Fin.ext ?_; show 0 + 1 * (j 1).val = (j 1).val; omega

/-- Row `k` of what a gather of 32 rows lands is the matrix's row named by entry `k` of its list. -/
theorem gather_apply (tbl : S1024000x128.Idx → Elt F .f32) (lst : S32.Idx → BitVec 32)
    (hn : S32.numel = S32x128.size (gathers_S1024000x128_S32x128).axis')
    (hin : ∀ x, (lst x).toNat < S1024000x128.size (gathers_S1024000x128_S32x128).axis) (y : S32x128.Idx) :
    SparseCore.gatherPayload gathers_S1024000x128_S32x128 ((tAll).view.read (Elt F) tbl) (SparseCore.rows (F := F) lst hn hin) y
      = tbl (ix2 ⟨(lst (ix1 (y 0))).toNat, hin _⟩ (y 1)) := by
  unfold SparseCore.gatherPayload
  rw [tAll_read]
  refine congrArg tbl ?_
  funext b
  match b with
  | ⟨0, _⟩ =>
    refine Fin.ext ?_
    unfold Shape.Gathers.idx
    rw [dif_pos rfl]
    show (lst (S32.rowMajor.symm _)).toNat = _
    congr 2
    exact (Equiv.symm_apply_eq _).mpr (Fin.ext (by rw [Shape.rowMajor_val_one]; rfl))
  | ⟨1, _⟩ =>
    refine Fin.ext ?_
    unfold Shape.Gathers.idx
    rw [dif_neg (show ¬ (1 : Nat) = 0 by omega)]
    rfl

/-! ## The tile's result rows -/

/-- The gathered rows read back out of the scratch matrix: its rows 0 … 31 are the first gather's, -/
theorem scratch_A (f1 : (s1W).view.ty.Contents (Elt F)) (wA wB : S32x128.Idx → Elt F .f32) (y : S32x128.Idx) :
    (r0).view.read (Elt F) ((s1W).view.writes (Elt F) f1
      [⟨Rect.unit (s := S64x128) ![32, 0] S32x128.size inb_S64x128_S32x128_32_0, wB⟩,
       ⟨Rect.unit (s := S64x128) ![0, 0] S32x128.size inb_S64x128_S32x128_0_0, wA⟩]) y = wA y := by
  show (s1W).view.read (Elt F) _ ((Rect.unit (s := S64x128) ![0, 0] S32x128.size inb_S64x128_S32x128_0_0).emb y) = _
  rw [View.writes_cons, View.read_slice_write_of_not_mem]
  · exact View.read_writes_cons_emb _ _ _ _ _ _
  · rw [Rect.map_emb_univ, Rect.mem_set_unit]
    intro hh
    have h0 := hh 0
    have hy : (y 0).val < 32 := (y 0).isLt
    have e : (((Rect.unit (s := S64x128) ![0, 0] S32x128.size inb_S64x128_S32x128_0_0).emb y) 0).val = 0 + 1 * (y 0).val := rfl
    have h1 : (32 : Nat) ≤ (((Rect.unit (s := S64x128) ![0, 0] S32x128.size inb_S64x128_S32x128_0_0).emb y) 0).val := h0.1
    omega
/-- its rows 32 … 63 the second's. -/
theorem scratch_B (f1 : (s1W).view.ty.Contents (Elt F)) (wA wB : S32x128.Idx → Elt F .f32) (y : S32x128.Idx) :
    (r1).view.read (Elt F) ((s1W).view.writes (Elt F) f1
      [⟨Rect.unit (s := S64x128) ![32, 0] S32x128.size inb_S64x128_S32x128_32_0, wB⟩,
       ⟨Rect.unit (s := S64x128) ![0, 0] S32x128.size inb_S64x128_S32x128_0_0, wA⟩]) y = wB y := by
  show (s1W).view.read (Elt F) _ ((Rect.unit (s := S64x128) ![32, 0] S32x128.size inb_S64x128_S32x128_32_0).emb y) = _
  exact View.read_writes_cons_emb _ _ _ _ _ _

/-- A window of the result written whole holds, at its element `y`, the payload's entry `y`. -/
theorem window_read_A (L : grid0.Coords) (fo : (oA L).view.ty.Contents (Elt F)) (w : S32x128.Idx → Elt F .f32) (y : S32x128.Idx) :
    (oA L).view.writes (Elt F) fo [⟨Rect.whole S32x128, w⟩] ((oA L).view.emb y) = w y := by
  have e := View.read_writes_cons_emb (oA L).view fo (Rect.whole S32x128) w [] y
  rw [Rect.emb_whole_apply] at e
  exact ((View.read_apply _ _).trans (cast_eq _ _)).symm.trans e
theorem window_read_B (L : grid0.Coords) (fo : (oB L).view.ty.Contents (Elt F)) (w : S32x128.Idx → Elt F .f32) (y : S32x128.Idx) :
    (oB L).view.writes (Elt F) fo [⟨Rect.whole S32x128, w⟩] ((oB L).view.emb y) = w y := by
  have e := View.read_writes_cons_emb (oB L).view fo (Rect.whole S32x128) w [] y
  rw [Rect.emb_whole_apply] at e
  exact ((View.read_apply _ _).trans (cast_eq _ _)).symm.trans e

/-- Where the tile's two windows of 32 result rows lie: from its first batch entry on, -/
theorem emb_A (L : grid0.Coords) (y : S32x128.Idx) :
    ((oA L).view.emb y : S1024x128.Idx)
      = ix2 ⟨base L + (y 0).val, by have := base_le L; have hy : (y 0).val < 32 := (y 0).isLt; omega⟩ ⟨(y 1).val, (y 1).isLt⟩ := by
  funext b
  match b with
  | ⟨0, _⟩ => refine Fin.ext ?_; show k0_off2 L 0 + 1 * (y 0).val = base L + (y 0).val; rw [k0_off2_eq]; simp [base]
  | ⟨1, _⟩ => refine Fin.ext ?_; show k0_off2 L 1 + 1 * (y 1).val = (y 1).val; rw [k0_off2_eq]; simp
/-- and 32 rows further. -/
theorem emb_B (L : grid0.Coords) (y : S32x128.Idx) :
    ((oB L).view.emb y : S1024x128.Idx)
      = ix2 ⟨base L + 32 + (y 0).val, by have := base_le L; have hy : (y 0).val < 32 := (y 0).isLt; omega⟩ ⟨(y 1).val, (y 1).isLt⟩ := by
  funext b
  match b with
  | ⟨0, _⟩ => refine Fin.ext ?_; show k0_off3 L 0 + 1 * (y 0).val = base L + 32 + (y 0).val; rw [k0_off3_eq]; simp [base]
  | ⟨1, _⟩ => refine Fin.ext ?_; show k0_off3 L 1 + 1 * (y 1).val = (y 1).val; rw [k0_off3_eq]; simp

/-- The first gather's row `k` is the result's row of batch entry `base L + k`: the matrix row that entry asks for. -/
theorem out_A (L : grid0.Coords) (tbl : S1024000x128.Idx → Elt F .f32) (idx : S1024.Idx → BitVec 32)
    (h : Spec.InRange (Spec.flat idx)) (lst : (s0W).view.ty.Contents (Elt F))
    (hl : ∀ y : S64.Idx, (s0W).view.read (Elt F) lst y = rowAt L ((iChunk L).view.read (Elt F) idx) y)
    (hn : S32.numel = S32x128.size (gathers_S1024000x128_S32x128).axis')
    (hin : ∀ x, ((l0).view.read (Elt F) lst x).toNat < S1024000x128.size (gathers_S1024000x128_S32x128).axis) (y : S32x128.Idx) :
    SparseCore.gatherPayload gathers_S1024000x128_S32x128 ((tAll).view.read (Elt F) tbl)
        (SparseCore.rows (F := F) ((l0).view.read (Elt F) lst) hn hin) y
      = Spec.gathered tbl (Spec.flat idx) h ((oA L).view.emb y) := by
  rw [gather_apply, emb_A]
  unfold Spec.gathered
  have e : (l0).view.read (Elt F) lst (ix1 (y 0))
      = Spec.flat idx (ix1 ⟨base L + (y 0).val, by have := base_le L; have hy : (y 0).val < 32 := (y 0).isLt; omega⟩) := by
    rw [half0_read, hl, list_flat]
  refine congrArg tbl ?_
  funext b
  match b with
  | ⟨0, _⟩ => exact Fin.ext (congrArg BitVec.toNat e)
  | ⟨1, _⟩ => rfl
/-- The second gather's row `k` is the result's row of batch entry `base L + 32 + k`. -/
theorem out_B (L : grid0.Coords) (tbl : S1024000x128.Idx → Elt F .f32) (idx : S1024.Idx → BitVec 32)
    (h : Spec.InRange (Spec.flat idx)) (lst : (s0W).view.ty.Contents (Elt F))
    (hl : ∀ y : S64.Idx, (s0W).view.read (Elt F) lst y = rowAt L ((iChunk L).view.read (Elt F) idx) y)
    (hn : S32.numel = S32x128.size (gathers_S1024000x128_S32x128).axis')
    (hin : ∀ x, ((l1).view.read (Elt F) lst x).toNat < S1024000x128.size (gathers_S1024000x128_S32x128).axis) (y : S32x128.Idx) :
    SparseCore.gatherPayload gathers_S1024000x128_S32x128 ((tAll).view.read (Elt F) tbl)
        (SparseCore.rows (F := F) ((l1).view.read (Elt F) lst) hn hin) y
      = Spec.gathered tbl (Spec.flat idx) h ((oB L).view.emb y) := by
  rw [gather_apply, emb_B]
  unfold Spec.gathered
  have e : (l1).view.read (Elt F) lst (ix1 (y 0))
      = Spec.flat idx (ix1 ⟨base L + 32 + (y 0).val, by have := base_le L; have hy : (y 0).val < 32 := (y 0).isLt; omega⟩) := by
    rw [half1_read, hl, list_flat]
    refine congrArg (Spec.flat idx) (congrArg ix1 (Fin.ext ?_))
    show base L + (32 + (y 0).val) = base L + 32 + (y 0).val
    omega
  refine congrArg tbl ?_
  funext b
  match b with
  | ⟨0, _⟩ => exact Fin.ext (congrArg BitVec.toNat e)
  | ⟨1, _⟩ => rfl

/-- So, after the whole task, each element of the tile's first window of result rows holds the gathered matrix's
    entry there, -/
theorem window_A (L : grid0.Coords) (tbl : S1024000x128.Idx → Elt F .f32) (idx : S1024.Idx → BitVec 32)
    (h : Spec.InRange (Spec.flat idx)) (lst : (s0W).view.ty.Contents (Elt F))
    (hl : ∀ y : S64.Idx, (s0W).view.read (Elt F) lst y = rowAt L ((iChunk L).view.read (Elt F) idx) y)
    (hn : S32.numel = S32x128.size (gathers_S1024000x128_S32x128).axis')
    (hin0 : ∀ x, ((l0).view.read (Elt F) lst x).toNat < S1024000x128.size (gathers_S1024000x128_S32x128).axis)
    (hin1 : ∀ x, ((l1).view.read (Elt F) lst x).toNat < S1024000x128.size (gathers_S1024000x128_S32x128).axis)
    (f1 : (s1W).view.ty.Contents (Elt F)) (fo : (oA L).view.ty.Contents (Elt F)) :
    ∀ i ∈ (oA L).view.set,
      (oA L).view.writes (Elt F) fo [⟨Rect.whole S32x128, ReadAs.same.apply ((r0).view.read (Elt F) ((s1W).view.writes (Elt F) f1
        [⟨Rect.unit (s := S64x128) ![32, 0] S32x128.size inb_S64x128_S32x128_32_0,
            SparseCore.gatherPayload gathers_S1024000x128_S32x128 ((tAll).view.read (Elt F) tbl)
              (SparseCore.rows (F := F) ((l1).view.read (Elt F) lst) hn hin1)⟩,
         ⟨Rect.unit (s := S64x128) ![0, 0] S32x128.size inb_S64x128_S32x128_0_0,
            SparseCore.gatherPayload gathers_S1024000x128_S32x128 ((tAll).view.read (Elt F) tbl)
              (SparseCore.rows (F := F) ((l0).view.read (Elt F) lst) hn hin0)⟩]))⟩] i
        = Spec.gathered tbl (Spec.flat idx) h i := by
  intro i hi
  obtain ⟨y, -, rfl⟩ := Finset.mem_map.mp hi
  rw [window_read_A]
  show (r0).view.read (Elt F) _ y = _
  rw [scratch_A]
  exact out_A L tbl idx h lst hl hn hin0 y
/-- and each element of its second window likewise. -/
theorem window_B (L : grid0.Coords) (tbl : S1024000x128.Idx → Elt F .f32) (idx : S1024.Idx → BitVec 32)
    (h : Spec.InRange (Spec.flat idx)) (lst : (s0W).view.ty.Contents (Elt F))
    (hl : ∀ y : S64.Idx, (s0W).view.read (Elt F) lst y = rowAt L ((iChunk L).view.read (Elt F) idx) y)
    (hn : S32.numel = S32x128.size (gathers_S1024000x128_S32x128).axis')
    (hin0 : ∀ x, ((l0).view.read (Elt F) lst x).toNat < S1024000x128.size (gathers_S1024000x128_S32x128).axis)
    (hin1 : ∀ x, ((l1).view.read (Elt F) lst x).toNat < S1024000x128.size (gathers_S1024000x128_S32x128).axis)
    (f1 : (s1W).view.ty.Contents (Elt F)) (fo : (oB L).view.ty.Contents (Elt F)) :
    ∀ i ∈ (oB L).view.set,
      (oB L).view.writes (Elt F) fo [⟨Rect.whole S32x128, ReadAs.same.apply ((r1).view.read (Elt F) ((s1W).view.writes (Elt F) f1
        [⟨Rect.unit (s := S64x128) ![32, 0] S32x128.size inb_S64x128_S32x128_32_0,
            SparseCore.gatherPayload gathers_S1024000x128_S32x128 ((tAll).view.read (Elt F) tbl)
              (SparseCore.rows (F := F) ((l1).view.read (Elt F) lst) hn hin1)⟩,
         ⟨Rect.unit (s := S64x128) ![0, 0] S32x128.size inb_S64x128_S32x128_0_0,
            SparseCore.gatherPayload gathers_S1024000x128_S32x128 ((tAll).view.read (Elt F) tbl)
              (SparseCore.rows (F := F) ((l0).view.read (Elt F) lst) hn hin0)⟩]))⟩] i
        = Spec.gathered tbl (Spec.flat idx) h i := by
  intro i hi
  obtain ⟨y, -, rfl⟩ := Finset.mem_map.mp hi
  rw [window_read_B]
  show (r1).view.read (Elt F) _ y = _
  rw [scratch_B]
  exact out_B L tbl idx h lst hl hn hin1 y

end Cert.Proof.BitsK

end
-- ==== Proof.BitsBody.lean ====
/-
  One tile's task of the gather kernel.

  The tile at grid position `L` is handed a read share of the whole embedding matrix, the requested nodes of its 64
  batch entries and its 64 result rows. It fetches the nodes into its list, turns each into the matrix row to read
  (`node + 1000 * batch entry`), gathers the 64 rows in two halves of 32 — each on a semaphore of its own, from a
  read share of its own — and copies each half out to its result rows as soon as it has landed. Every wait is on a
  semaphore the tile alone uses, so no wait can block; no buffer is touched while a copy that reads or writes it is
  outstanding. At the end the result rows hold, row by row, the matrix rows the batch entries ask for.
-/
import proofs.«207040_g69088843924254_cont_9to1_m_295_12_alg».proof.Proof.BitsDefs
import proofs.«207040_g69088843924254_cont_9to1_m_295_12_alg».proof.Proof.BitsRows

noncomputable section

namespace Cert.Proof.BitsK

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tW" => (Memref.whole Cert.Kernel.main_v0_scv : Memref Cert.Kernel.sig Kind.scVector Space.hbm Cert.Kernel.S1024000x128 EltTy.f32)
local notation "iW" => (Memref.whole Cert.Kernel.main_v1_scv : Memref Cert.Kernel.sig Kind.scVector Space.hbm Cert.Kernel.S1024 EltTy.i32)
local notation "oW" => (Memref.whole Cert.Kernel.main_v2_scv : Memref Cert.Kernel.sig Kind.scVector Space.hbm Cert.Kernel.S1024x128 EltTy.f32)
local notation "s0W" => (Memref.whole Cert.Kernel.cc0_scratch0 : Memref Cert.Kernel.sig Kind.scVector Space.vmem Cert.Kernel.S64 EltTy.i32)
local notation "s1W" => (Memref.whole Cert.Kernel.cc0_scratch1 : Memref Cert.Kernel.sig Kind.scVector Space.vmem Cert.Kernel.S64x128 EltTy.f32)

variable (m : (ℓ : Loc nD τ sig) → Buf (Elt F) ℓ)

/-! ## The tile's thread and its share of the arrays -/

abbrev cV (L : grid0.Coords) : Fin τ.nSC := (L 0).castLE hcore0
abbrev jV (L : grid0.Coords) : Fin τ.nSub := (L 1).castLE hsub0
theorem bound_one : grid0.bound 1 = 16 := rfl
/-- Which of the sixteen tiles. -/
abbrev jL (L : grid0.Coords) : Fin 16 := Fin.cast bound_one (L 1)

/-- The tile's chunk of the requested nodes is the sixty-four batch entries the launch hands tile `jL L`, -/
theorem chunk_set0 (L : grid0.Coords) :
    (Rect.unit (s := S1024) (k0_off1 L) S64.size (k0_off1_inb L)).set = chunkSet (jL L) := by
  ext x
  rw [Rect.mem_set_unit, mem_chunkSet]
  have h0 : (L 0).val < 1 := (L 0).isLt
  have e : k0_off1 L 0 = 64 * (jL L).val := by
    rw [k0_off1_eq]; show 64 * (L 1).val + 64 * (L 0).val = 64 * (L 1).val; omega
  constructor
  · intro hh; have h1 := hh 0; rw [e] at h1; exact h1
  · intro hh a; obtain rfl : a = 0 := Subsingleton.elim _ _; rw [e]; exact hh
theorem set_iChunk (L : grid0.Coords) : (iChunk L).view.set = chunkSet (jL L) := by
  simp only [Memref.view_slice, Memref.view_whole, View.set_slice_whole]; exact chunk_set0 L

/-- and its two windows of result rows are the sixty-four rows the launch hands it, in two disjoint halves. -/
theorem mem_A (L : grid0.Coords) (x : S1024x128.Idx) :
    x ∈ (Rect.unit (s := S1024x128) (k0_off2 L) S32x128.size (k0_off2_inb L)).set
      ↔ 64 * (jL L).val ≤ (x 0).val ∧ (x 0).val < 64 * (jL L).val + 32 := by
  rw [Rect.mem_set_unit]
  have h0 : (L 0).val < 1 := (L 0).isLt
  have e0 : k0_off2 L 0 = 64 * (jL L).val := by
    rw [k0_off2_eq]; show 64 * (L 1).val + 64 * (L 0).val = 64 * (L 1).val; omega
  have e1 : k0_off2 L 1 = 0 := by rw [k0_off2_eq]; rfl
  constructor
  · intro hh; have h1 := hh 0; rw [e0] at h1; exact h1
  · intro hh a
    match a with
    | ⟨0, _⟩ => show k0_off2 L 0 ≤ (x 0).val ∧ (x 0).val < k0_off2 L 0 + 32; rw [e0]; exact hh
    | ⟨1, _⟩ =>
      show k0_off2 L 1 ≤ (x 1).val ∧ (x 1).val < k0_off2 L 1 + 128
      rw [e1]; exact ⟨Nat.zero_le _, by have := ValueIdx.idx2_lt1 x; omega⟩
theorem mem_B (L : grid0.Coords) (x : S1024x128.Idx) :
    x ∈ (Rect.unit (s := S1024x128) (k0_off3 L) S32x128.size (k0_off3_inb L)).set
      ↔ 64 * (jL L).val + 32 ≤ (x 0).val ∧ (x 0).val < 64 * (jL L).val + 64 := by
  rw [Rect.mem_set_unit]
  have h0 : (L 0).val < 1 := (L 0).isLt
  have e0 : k0_off3 L 0 = 64 * (jL L).val + 32 := by
    rw [k0_off3_eq]; show 64 * (L 1).val + 64 * (L 0).val + 32 = 64 * (L 1).val + 32; omega
  have e1 : k0_off3 L 1 = 0 := by rw [k0_off3_eq]; rfl
  constructor
  · intro hh; have h1 := hh 0; rw [e0] at h1
    have h2 : (x 0).val < 64 * (jL L).val + 32 + 32 := h1.2
    exact ⟨h1.1, by omega⟩
  · intro hh a
    match a with
    | ⟨0, _⟩ => show k0_off3 L 0 ≤ (x 0).val ∧ (x 0).val < k0_off3 L 0 + 32; rw [e0]; exact ⟨hh.1, by have h3 := hh.2; omega⟩
    | ⟨1, _⟩ =>
      show k0_off3 L 1 ≤ (x 1).val ∧ (x 1).val < k0_off3 L 1 + 128
      rw [e1]; exact ⟨Nat.zero_le _, by have := ValueIdx.idx2_lt1 x; omega⟩
theorem rows_set0 (L : grid0.Coords) :
    (Rect.unit (s := S1024x128) (k0_off2 L) S32x128.size (k0_off2_inb L)).set
        ∪ (Rect.unit (s := S1024x128) (k0_off3 L) S32x128.size (k0_off3_inb L)).set = rowsSet (jL L) := by
  ext x; rw [Finset.mem_union, mem_A, mem_B, mem_rowsSet]; omega
theorem rows_disj0 (L : grid0.Coords) :
    Disjoint (Rect.unit (s := S1024x128) (k0_off2 L) S32x128.size (k0_off2_inb L)).set
      (Rect.unit (s := S1024x128) (k0_off3 L) S32x128.size (k0_off3_inb L)).set :=
  Finset.disjoint_left.mpr fun x hA hB => by rw [mem_A] at hA; rw [mem_B] at hB; omega
theorem set_oAB (L : grid0.Coords) : (oA L).view.set ∪ (oB L).view.set = rowsSet (jL L) := by
  simp only [Memref.view_slice, Memref.view_whole, View.set_slice_whole]; exact rows_set0 L
theorem disj_oAB (L : grid0.Coords) : Disjoint (oA L).view.set (oB L).view.set := by
  simp only [Memref.view_slice, Memref.view_whole, View.set_slice_whole]; exact rows_disj0 L

section Tile

variable (d : Dev nD) (L : grid0.Coords)

/-! ## The same assertions, as the launch spells them and as the tile's memrefs do -/

theorem pts_t (q : PosShare TreeShare) (f : Buf (Elt F) (tLoc d)) :
    ((tW).view.loc (V d (cV L) (jV L)) ↦{q} f : sProp 𝕄) = tLoc d ↦{q} f := by
  simp only [Memref.view_whole, View.set_whole]
theorem pts_i (f : Buf (Elt F) (iLoc d)) :
    ((iChunk L).view.loc (V d (cV L) (jV L)) ↦[(iChunk L).view.set]{fullShare} f : sProp 𝕄) = iLoc d ↦[chunkSet (jL L)]{fullShare} f := by
  rw [set_iChunk]
theorem pts_o (f : Buf (Elt F) (oLoc d)) :
    ((oW).view.loc (V d (cV L) (jV L)) ↦[(oA L).view.set ∪ (oB L).view.set]{fullShare} f : sProp 𝕄) = oLoc d ↦[rowsSet (jL L)]{fullShare} f := by
  rw [set_oAB]
theorem pts_oA (f : Buf (Elt F) (oLoc d)) :
    ((oW).view.loc (V d (cV L) (jV L)) ↦[(oA L).view.set]{fullShare} f : sProp 𝕄)
      = ((oA L).view.loc (V d (cV L) (jV L)) ↦[(oA L).view.set]{fullShare} f) := rfl
theorem pts_oB (f : Buf (Elt F) (oLoc d)) :
    ((oW).view.loc (V d (cV L) (jV L)) ↦[(oB L).view.set]{fullShare} f : sProp 𝕄)
      = ((oB L).view.loc (V d (cV L) (jV L)) ↦[(oB L).view.set]{fullShare} f) := rfl
theorem pts_s0 (f : Buf (Elt F) ((V d (cV L) (jV L)).loc cc0_scratch0)) :
    ((s0W).view.loc (V d (cV L) (jV L)) ↦{fullShare} f : sProp 𝕄) = (V d (cV L) (jV L)).loc cc0_scratch0 ↦{fullShare} f := by
  simp only [Memref.view_whole, View.set_whole]
theorem pts_s1 (f : Buf (Elt F) ((V d (cV L) (jV L)).loc cc0_scratch1)) :
    ((s1W).view.loc (V d (cV L) (jV L)) ↦{fullShare} f : sProp 𝕄) = (V d (cV L) (jV L)).loc cc0_scratch1 ↦{fullShare} f := by
  simp only [Memref.view_whole, View.set_whole]

/-! ## The tile's own semaphores and buffers -/

abbrev cell (k : DmaSem sig) : GSem nD τ sig := (V d (cV L) (jV L), SemLoc.dma k)
theorem mem_cell (k : DmaSem sig) (hk : (SemLoc.dma k : SemLoc sig).isScoped .scVector = true) :
    cell d L k ∈ ownCells (V d (cV L) (jV L)) := (mem_ownCells (g := cell d L k)).mpr ⟨rfl, hk⟩
theorem cell_ne {k k' : DmaSem sig} (h : k ≠ k') : cell d L k ≠ cell d L k' :=
  fun e => h (SemLoc.dma.inj (Prod.mk.inj e).2)

theorem ownSems0_V :
    (ownSems0 (V d (cV L) (jV L)) : sProp 𝕄)
      = iprop(semVal (cell d L cc0_scratch2.sem) 0 ∗ semVal (cell d L cc0_scratch3.sem) 0 ∗ semVal (cell d L cc0_scratch4.sem) 0 ∗ semVal (cell d L cc0_scoped0.sem) 0 ∗ semVal (cell d L cc0_scoped1.sem) 0
        ∗ bigSep ((((((ownCells (V d (cV L) (jV L))).erase (cell d L cc0_scratch2.sem)).erase (cell d L cc0_scratch3.sem)).erase (cell d L cc0_scratch4.sem)).erase (cell d L cc0_scoped0.sem)).erase (cell d L cc0_scoped1.sem)) fun g => semVal g 0) := by
  unfold SparseCore.Cfg.ownSems0
  rw [SparseCore.bigSep_erase' (mem_cell d L cc0_scratch2.sem (by decide)),
    SparseCore.bigSep_erase' (Finset.mem_erase.mpr ⟨cell_ne d L (show (cc0_scratch3.sem : DmaSem sig) ≠ cc0_scratch2.sem by decide), mem_cell d L cc0_scratch3.sem (by decide)⟩),
    SparseCore.bigSep_erase' (Finset.mem_erase.mpr ⟨cell_ne d L (show (cc0_scratch4.sem : DmaSem sig) ≠ cc0_scratch3.sem by decide), Finset.mem_erase.mpr ⟨cell_ne d L (show (cc0_scratch4.sem : DmaSem sig) ≠ cc0_scratch2.sem by decide), mem_cell d L cc0_scratch4.sem (by decide)⟩⟩),
    SparseCore.bigSep_erase' (Finset.mem_erase.mpr ⟨cell_ne d L (show (cc0_scoped0.sem : DmaSem sig) ≠ cc0_scratch4.sem by decide), Finset.mem_erase.mpr ⟨cell_ne d L (show (cc0_scoped0.sem : DmaSem sig) ≠ cc0_scratch3.sem by decide), Finset.mem_erase.mpr ⟨cell_ne d L (show (cc0_scoped0.sem : DmaSem sig) ≠ cc0_scratch2.sem by decide), mem_cell d L cc0_scoped0.sem (by decide)⟩⟩⟩),
    SparseCore.bigSep_erase' (Finset.mem_erase.mpr ⟨cell_ne d L (show (cc0_scoped1.sem : DmaSem sig) ≠ cc0_scoped0.sem by decide), Finset.mem_erase.mpr ⟨cell_ne d L (show (cc0_scoped1.sem : DmaSem sig) ≠ cc0_scratch4.sem by decide), Finset.mem_erase.mpr ⟨cell_ne d L (show (cc0_scoped1.sem : DmaSem sig) ≠ cc0_scratch3.sem by decide), Finset.mem_erase.mpr ⟨cell_ne d L (show (cc0_scoped1.sem : DmaSem sig) ≠ cc0_scratch2.sem by decide), mem_cell d L cc0_scoped1.sem (by decide)⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-! ## The task -/

theorem tile_body (hF : (K (F := F)).Facts) (h : OK m) (O : CellTallies nD τ sig (HIx 1)) (W : Waits sig (HIx 1)) (hO : ∀ g, O g none = 0) :
    iprop(levAts (K (F := F)).L (K (F := F)).lev ∗ emp ∗ tileGo m d (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tW (Memref.isWhole_whole _) iW (Memref.isWhole_whole _) oW (Memref.isWhole_whole _)
            s0W (Memref.isWhole_whole _) s1W (Memref.isWhole_whole _) cc0_scratch2 cc0_scratch3 cc0_scratch4 cc0_scoped0 cc0_scoped1)
          fun _ => iprop(tileTd m h d (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_gather_kernel_eq_skeleton]; unfold cc0_gather_kernel_skel
  rw [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  unfold tileGo tileTd
  iintro ⟨#Hlv, -, ⟨Ht, Hi, %fo, Ho⟩, ⟨⟨%f0, Hs0⟩, ⟨%f1, Hs1⟩, Hbufs⟩, ⟨Hg0, Hg1, Hst, Hc0, Hc1, Hsems⟩, HO⟩
  ihave Hmw := ((K (F := F)).mayWaits_none (thr := V d (cV L) (jV L)) hO) $$ Hlv
  -- the handed arrays, as the tile's memrefs address them; the matrix's share in two, one per gather
  ihave Ht := (Entails.of_eq (pts_t (F := F) d L _ _).symm) $$ Ht
  ihave Htt := ((pointsTo_share (PosShare.mem_left_op_right (tileShare (jL L)))).1) $$ Ht
  icases Htt with ⟨Ht, Ht'⟩
  ihave Hi := (Entails.of_eq (pts_i (F := F) d L _).symm) $$ Hi
  ihave Ho := (Entails.of_eq (pts_o (F := F) d L _).symm) $$ Ho
  ihave Hoo := ((pointsTo_union (ℓ := (oW).view.loc (V d (cV L) (jV L))) (disj_oAB L)).1) $$ Ho
  icases Hoo with ⟨HoA, HoB⟩
  ihave HoA := (Entails.of_eq (pts_oA (F := F) d L _)) $$ HoA
  ihave HoB := (Entails.of_eq (pts_oB (F := F) d L _)) $$ HoB
  ihave Hs0 := (Entails.of_eq (pts_s0 (F := F) d L _).symm) $$ Hs0
  ihave Hs1 := (Entails.of_eq (pts_s1 (F := F) d L _).symm) $$ Hs1
  -- the fetch of the requested nodes, and the four stores that turn them into rows of the matrix
  sl_exec
  -- what the list now holds: at every entry the matrix row of its batch entry, so a row of the matrix
  have hl : ∀ y : S64.Idx, (s0W).view.read (Elt F) ((s0W).view.writes (Elt F) (s0W).view.junk (tile_body.sl.Hs0_4 m d L f0)) y
      = rowAt L ((iChunk L).view.read (Elt F) (IDX m d)) y := fun y =>
    list_rows (F := F) L ((iChunk L).view.read (Elt F) (IDX m d)) _ _ _ _
      (readAt_raw 0 inb_S64_S16_0 f0 _) (readAt_raw 16 inb_S64_S16_16 f0 _) (readAt_raw 32 inb_S64_S16_32 f0 _)
      (readAt_raw 48 inb_S64_S16_48 f0 _) (s0W).view.junk y
  have hin0 : ∀ x, ((l0).view.read (Elt F) ((s0W).view.writes (Elt F) (s0W).view.junk (tile_body.sl.Hs0_4 m d L f0)) x).toNat
      < S1024000x128.size gathers_S1024000x128_S32x128.axis := fun x => by
    rw [half0_read]; exact list_inRange L (IDX m d) (h d) _ hl _
  have hin1 : ∀ x, ((l1).view.read (Elt F) ((s0W).view.writes (Elt F) (s0W).view.junk (tile_body.sl.Hs0_4 m d L f0)) x).toNat
      < S1024000x128.size gathers_S1024000x128_S32x128.axis := fun x => by
    rw [half1_read]; exact list_inRange L (IDX m d) (h d) _ hl _
  -- the two gathers, their waits, the two copies out and their waits
  sl_exec
  sl_step
  -- the result rows hold the gathered matrix's rows
  have hA : ∀ i ∈ (oA L).view.set, _ = GOUT m h d i :=
    window_A L (TBL m d) (IDX m d) (h d) _ hl rfl hin0 hin1 f1 fo
  have hB : ∀ i ∈ (oB L).view.set, _ = GOUT m h d i :=
    window_B L (TBL m d) (IDX m d) (h d) _ hl rfl hin0 hin1 f1 fo
  ihave HoA := (Entails.of_eq (pointsTo_congr hA)) $$ HoA
  ihave HoB := (Entails.of_eq (pointsTo_congr hB)) $$ HoB
  ihave HoA := (Entails.of_eq (pts_oA (F := F) d L _).symm) $$ HoA
  ihave HoB := (Entails.of_eq (pts_oB (F := F) d L _).symm) $$ HoB
  ihave Ho := ((pointsTo_union (ℓ := (oW).view.loc (V d (cV L) (jV L))) (disj_oAB L)).2) $$ [HoA HoB]
  · isplitl [HoA] <;> iassumption
  ihave Ho := (Entails.of_eq (pts_o (F := F) d L _)) $$ Ho
  ihave Ht := ((pointsTo_share (PosShare.mem_left_op_right (tileShare (jL L)))).2) $$ [Ht Ht']
  · isplitl [Ht] <;> iassumption
  ihave Ht := (Entails.of_eq (pts_t (F := F) d L _ _)) $$ Ht
  ihave Hi := (Entails.of_eq (pts_i (F := F) d L _)) $$ Hi
  ihave Hs0 := (Entails.of_eq (pts_s0 (F := F) d L _)) $$ Hs0
  ihave Hs1 := (Entails.of_eq (pts_s1 (F := F) d L _)) $$ Hs1
  isplitl [Ht Hi Ho]
  · isplitl [Ht]; · iexact Ht
    isplitl [Hi]; · iexact Hi
    iexact Ho
  isplitl [Hs0 Hs1 Hbufs]
  · isplitl [Hs0]; · iexists _; iexact Hs0
    isplitl [Hs1]; · iexists _; iexact Hs1
    iexact Hbufs
  isplitl [Hg0 Hg1 Hst Hc0 Hc1 Hsems]
  · isplitl [Hg0]; · iexact Hg0
    isplitl [Hg1]; · iexact Hg1
    isplitl [Hst]; · iexact Hst
    isplitl [Hc0]; · iexact Hc0
    isplitl [Hc1]; · iexact Hc1
    iexact Hsems
  iexists _; isplitr
  rotate_left
  · iexact HO
  · ipureintro; intro p hp
    simp only [Finset.mem_insert] at hp
    rcases hp with rfl | rfl | rfl | rfl | rfl | hp
    · exact .inr rfl
    · exact .inr rfl
    · exact .inr rfl
    · exact .inr rfl
    · exact .inr rfl
    · exact .inl hp

end Tile

/-! ## The launch theorem's obligation -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tW (Memref.isWhole_whole _) iW (Memref.isWhole_whole _) oW (Memref.isWhole_whole _)
          s0W (Memref.isWhole_whole _) s1W (Memref.isWhole_whole _) cc0_scratch2 cc0_scratch3 cc0_scratch4 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the call's grid runs the task at its own grid position. -/
theorem tileObl (hF : (K (F := F)).Facts) (h : OK m) : (K (F := F)).TileObl (D (F := F)) 𝒱 (P m h) v₀ 0 := by
  intro d c i O W hO _ _
  simp only [show (P m h).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF h O W hO).trans (wp_mono frame _ _ fun _ => obl_post)

end Cert.Proof.BitsK

end
-- ==== Proof.BitsLaunch.lean ====
/-
  The gather kernel's run: the launch.

  The one SparseCore call hands SparseCore 0 the matrix, the vector of requested nodes and the result buffer whole. The
  matrix goes to the sixteen tiles as sixteen read shares; the vector and the result go by elements, tile `j` getting
  batch entries `64 j … 64 j + 63` of each. Coming back, every tile holds its result rows at the one matrix of gathered
  rows, so the rows join to the whole result at that matrix. On the TensorCore, @main reshapes the two arguments, makes
  the call, and reshapes the gathered rows; the arguments are never written.
-/
import proofs.«207040_g69088843924254_cont_9to1_m_295_12_alg».proof.Proof.BitsDefs
import proofs.«207040_g69088843924254_cont_9to1_m_295_12_alg».proof.Proof.BitsBody

noncomputable section

namespace Cert.Proof.BitsK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The sixteen tiles' elements: pairwise disjoint, together everything

The tile of batch entry `b` is `b / 64`. -/

theorem chunks_disjoint : ∀ i ∈ (Finset.univ : Finset (Fin 16)), ∀ j ∈ (Finset.univ : Finset (Fin 16)), i ≠ j → Disjoint (chunkSet i) (chunkSet j) := by
  intro i _ j _ hij
  rw [Finset.disjoint_left]
  intro x hi hj
  rw [mem_chunkSet] at hi hj
  exact hij (Fin.ext (by omega))

theorem chunks_cover : (Finset.univ : Finset (Fin 16)).biUnion chunkSet = Finset.univ := by
  refine Finset.eq_univ_of_forall fun x => ?_
  have hx : (x 0).val < 1024 := (x 0).isLt
  rw [Finset.mem_biUnion]
  refine ⟨⟨(x 0).val / 64, by omega⟩, Finset.mem_univ _, ?_⟩
  rw [mem_chunkSet]
  show 64 * ((x 0).val / 64) ≤ (x 0).val ∧ (x 0).val < 64 * ((x 0).val / 64) + 64
  omega

theorem rows_disjoint : ∀ i ∈ (Finset.univ : Finset (Fin 16)), ∀ j ∈ (Finset.univ : Finset (Fin 16)), i ≠ j → Disjoint (rowsSet i) (rowsSet j) := by
  intro i _ j _ hij
  rw [Finset.disjoint_left]
  intro x hi hj
  rw [mem_rowsSet] at hi hj
  exact hij (Fin.ext (by omega))

theorem rows_cover : (Finset.univ : Finset (Fin 16)).biUnion rowsSet = Finset.univ := by
  refine Finset.eq_univ_of_forall fun x => ?_
  have hx : (x 0).val < 1024 := (x 0).isLt
  rw [Finset.mem_biUnion]
  refine ⟨⟨(x 0).val / 64, by omega⟩, Finset.mem_univ _, ?_⟩
  rw [mem_rowsSet]
  show 64 * ((x 0).val / 64) ≤ (x 0).val ∧ (x 0).val < 64 * ((x 0).val / 64) + 64
  omega

/-! ## The three operands among the tiles -/

/-- The matrix whole is its sixteen read shares. -/
theorem tPts_shares (d : Dev nD) (f : Buf (Elt F) (tLoc d)) :
    (tLoc d ↦{fullShare} f : sProp 𝕄) = bigSep Finset.univ fun j : Fin 16 => tLoc d ↦{tileShare j} f :=
  pointsTo_piecesOf Finset.univ f (by decide) fullShare

/-- The vector whole is the sixteen tiles' batch entries. -/
theorem iPts_chunks (d : Dev nD) (f : Buf (Elt F) (iLoc d)) :
    (iLoc d ↦{fullShare} f : sProp 𝕄) = bigSep Finset.univ fun j : Fin 16 => iLoc d ↦[chunkSet j]{fullShare} f := by
  rw [← pointsTo_biUnion Finset.univ (ℓ := iLoc d) chunkSet chunks_disjoint, chunks_cover]; try rfl

/-- The result whole is the sixteen tiles' rows. -/
theorem oPts_rows (d : Dev nD) (f : Buf (Elt F) (oLoc d)) :
    (oLoc d ↦{fullShare} f : sProp 𝕄) = bigSep Finset.univ fun j : Fin 16 => oLoc d ↦[rowsSet j]{fullShare} f := by
  rw [← pointsTo_biUnion Finset.univ (ℓ := oLoc d) rowsSet rows_disjoint, rows_cover]; try rfl

/-- Rows held at some contents are rows held at whatever they hold. -/
theorem row_wrap (d : Dev nD) (j : Fin 16) (fo : Buf (Elt F) (oLoc d)) :
    (oLoc d ↦[rowsSet j]{fullShare} fo : sProp 𝕄) ⊢ iprop(∃ fo, oLoc d ↦[rowsSet j]{fullShare} fo) := by
  iintro H; iexists fo; iexact H

theorem rows_wrap (d : Dev nD) (fo : Buf (Elt F) (oLoc d)) :
    (bigSep Finset.univ fun j : Fin 16 => (oLoc d ↦[rowsSet j]{fullShare} fo : sProp 𝕄))
      ⊢ bigSep Finset.univ fun j : Fin 16 => iprop(∃ fo, oLoc d ↦[rowsSet j]{fullShare} fo) :=
  bigSep_mono fun j _ => row_wrap d j fo

/-- A family over the call's sixteen tasks is the family over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable (m : (ℓ : Loc nD τ sig) → Buf (Elt F) ℓ) (ρ : Dev nD → PrngReg)

theorem tileGo_family (d : Dev nD) :
    (bigSep Finset.univ (tileGo m d) : sProp 𝕄)
      = iprop((bigSep Finset.univ fun j : Fin 16 => tLoc d ↦{tileShare j} TBL m d)
          ∗ (bigSep Finset.univ fun j : Fin 16 => iLoc d ↦[chunkSet j]{fullShare} IDX m d)
          ∗ bigSep Finset.univ fun j : Fin 16 => iprop(∃ fo, oLoc d ↦[rowsSet j]{fullShare} fo)) := by
  unfold tileGo
  rw [bigSep_sep', bigSep_sep']

theorem tileTd_family (h : OK m) (d : Dev nD) :
    (bigSep Finset.univ (tileTd m h d) : sProp 𝕄)
      = iprop((bigSep Finset.univ fun j : Fin 16 => tLoc d ↦{tileShare j} TBL m d)
          ∗ (bigSep Finset.univ fun j : Fin 16 => iLoc d ↦[chunkSet j]{fullShare} IDX m d)
          ∗ bigSep Finset.univ fun j : Fin 16 => oLoc d ↦[rowsSet j]{fullShare} GOUT m h d) := by
  unfold tileTd
  rw [bigSep_sep', bigSep_sep']

/-- Going out: the matrix by shares, the vector and the result (at whatever it holds) by elements. -/
theorem go_split (d : Dev nD) :
    iprop((tLoc d ↦{fullShare} TBL m d) ∗ (iLoc d ↦{fullShare} IDX m d) ∗ ∃ fo, oLoc d ↦{fullShare} fo)
      ⊢ (bigSep Finset.univ (tileGo m d) : sProp 𝕄) := by
  rw [tileGo_family]
  iintro ⟨Ht, Hi, %fo, Ho⟩
  isplitl [Ht]
  · iapply (Entails.of_eq (tPts_shares (F := F) d (TBL m d))); iexact Ht
  isplitl [Hi]
  · iapply (Entails.of_eq (iPts_chunks (F := F) d (IDX m d))); iexact Hi
  · ihave Ho' := (Entails.of_eq (oPts_rows (F := F) d fo)) $$ Ho
    iapply (rows_wrap (F := F) d fo); iexact Ho'

/-- Coming back: every tile's rows are held at the one matrix of gathered rows, so they join to the result whole there. -/
theorem td_join (h : OK m) (d : Dev nD) :
    (bigSep Finset.univ (tileTd m h d) : sProp 𝕄)
      ⊢ iprop((tLoc d ↦{fullShare} TBL m d) ∗ (iLoc d ↦{fullShare} IDX m d) ∗ (oLoc d ↦{fullShare} GOUT m h d)) := by
  rw [tileTd_family]
  iintro ⟨Ht, Hi, Ho⟩
  isplitl [Ht]
  · iapply (Entails.of_eq (tPts_shares (F := F) d (TBL m d)).symm); iexact Ht
  isplitl [Hi]
  · iapply (Entails.of_eq (iPts_chunks (F := F) d (IDX m d)).symm); iexact Hi
  · iapply (Entails.of_eq (oPts_rows (F := F) d (GOUT m h d)).symm); iexact Ho

theorem vecSplit (h : OK m) : (K (F := F)).VecSplit' (P m h) 0 := by
  intro d c
  show iprop((tLoc d ↦{fullShare} TBL m d) ∗ (iLoc d ↦{fullShare} IDX m d) ∗ ∃ fo, oLoc d ↦{fullShare} fo) ⊢ |={Set.univ}=> iprop(
      (bigSep Finset.univ fun i : Fin ((K (F := F)).nSub 0) => tileGo m d (Fin.cast nSub_zero i))
      ∗ ((bigSep Finset.univ fun i : Fin ((K (F := F)).nSub 0) => tileTd m h d (Fin.cast nSub_zero i))
          -∗ iprop((tLoc d ↦{fullShare} TBL m d) ∗ (iLoc d ↦{fullShare} IDX m d) ∗ (oLoc d ↦{fullShare} GOUT m h d))))
  rw [bigSep_tasks (F := F) (tileGo m d), bigSep_tasks (F := F) (tileTd m h d)]
  iintro H; imodintro
  isplitl [H]
  · iapply (go_split m d); iexact H
  iintro Htd
  iapply (td_join m h d); iexact Htd

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ (h : OK m) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m h).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

variable [FloatOps F]

/-! ## @main on the TensorCore

The six arrays of @main, all unscoped. Their contents along @main: at the launch `V0`; after the first reshape `V1`
(the matrix written), after the second `V2` (the vector written); after the call `V3` (the gathered rows in the call's
result); after the last reshape `V4` (the result written). The arguments are never written. -/

abbrev a0' : DevRef τ sig := Proc.devRef .tc (main_arg0 : Ref sig .tc)
abbrev a1' : DevRef τ sig := Proc.devRef .tc (main_arg1 : Ref sig .tc)
abbrev t' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev op1 : HloOp τ sig (Elt F) := StableHlo.reshape main_arg0 main_v0 rfl shapeCasts_S1024x1000x128_S1024000x128
abbrev op2 : HloOp τ sig (Elt F) := StableHlo.reshape main_arg1 main_v1 rfl shapeCasts_S1024x1_S1024
abbrev op3 : HloOp τ sig (Elt F) := StableHlo.reshape main_v2 main_v3 rfl shapeCasts_S1024x128_S1024x1x128

abbrev S6 : Finset (DevRef τ sig) := {a0', a1', t', i', o', r'}

theorem hop1 : (op1 (F := F)).bufs ⊆ S6 := show ({a0', t'} : Finset (DevRef τ sig)) ⊆ S6 by decide
theorem hop2 : (op2 (F := F)).bufs ⊆ S6 := show ({a1', i'} : Finset (DevRef τ sig)) ⊆ S6 by decide
theorem hop3 : (op3 (F := F)).bufs ⊆ S6 := show ({o', r'} : Finset (DevRef τ sig)) ⊆ S6 by decide

theorem held_S6 (d : Dev nD) (W : Valuation τ sig (Elt F)) :
    (held (T d) S6 W : sProp 𝕄) = iprop((a0Loc d ↦{fullShare} W a0') ∗ (a1Loc d ↦{fullShare} W a1') ∗ (tLoc d ↦{fullShare} W t')
      ∗ (iLoc d ↦{fullShare} W i') ∗ (oLoc d ↦{fullShare} W o') ∗ (rLoc d ↦{fullShare} W r')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (tLoc d ↦{fullShare} W main_v0)
      ∗ (iLoc d ↦{fullShare} W main_v1) ∗ (oLoc d ↦{fullShare} W main_v2) ∗ (rLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The launch contents. -/
def V0 (d : Dev nD) : Valuation τ sig (Elt F) := fun b => m (d, b)
/-- After the first reshape. -/
def V1 (d : Dev nD) : Valuation τ sig (Elt F) := (op1 (F := F)).result (V0 m d)
/-- After the second reshape. -/
def V2 (d : Dev nD) : Valuation τ sig (Elt F) := (op2 (F := F)).result (V1 m d)
/-- After the call: the gathered rows in its result. -/
def V3 (h : OK m) (d : Dev nD) : Valuation τ sig (Elt F) := Function.update (V2 m d) o' (GOUT m h d)
/-- After the last reshape. -/
def V4 (h : OK m) (d : Dev nD) : Valuation τ sig (Elt F) := (op3 (F := F)).result (V3 m h d)

theorem unscoped_held (d : Dev nD) : (unscopedBufs d (fun b => m ((SparseCore.T d).loc b)) : sProp 𝕄) = held (T d) S6 (V0 m d) := by
  rw [unscopedBufs_eq, held_S6]; rfl

theorem V1_a0 (d : Dev nD) : V1 m d a0' = m (a0Loc d) :=
  ((op1 (F := F)).result_of_not_mem (V0 m d) (b := a0') (show a0' ∉ ({t'} : Finset (DevRef τ sig)) by decide)).trans rfl
theorem V1_a1 (d : Dev nD) : V1 m d a1' = m (a1Loc d) :=
  ((op1 (F := F)).result_of_not_mem (V0 m d) (b := a1') (show a1' ∉ ({t'} : Finset (DevRef τ sig)) by decide)).trans rfl
theorem V1_t (d : Dev nD) : V1 m d t' = TBL m d :=
  (StableHlo.reshape_result main_arg0 main_v0 rfl shapeCasts_S1024x1000x128_S1024000x128 ⟨by decide, rfl⟩ ⟨by decide, rfl⟩ (V0 m d)).trans rfl

theorem V2_a0 (d : Dev nD) : V2 m d a0' = m (a0Loc d) :=
  ((op2 (F := F)).result_of_not_mem (V1 m d) (b := a0') (show a0' ∉ ({i'} : Finset (DevRef τ sig)) by decide)).trans (V1_a0 m d)
theorem V2_a1 (d : Dev nD) : V2 m d a1' = m (a1Loc d) :=
  ((op2 (F := F)).result_of_not_mem (V1 m d) (b := a1') (show a1' ∉ ({i'} : Finset (DevRef τ sig)) by decide)).trans (V1_a1 m d)
theorem V2_t (d : Dev nD) : V2 m d t' = TBL m d :=
  ((op2 (F := F)).result_of_not_mem (V1 m d) (b := t') (show t' ∉ ({i'} : Finset (DevRef τ sig)) by decide)).trans (V1_t m d)
theorem V2_i (d : Dev nD) : V2 m d i' = IDX m d := by
  refine (StableHlo.reshape_result main_arg1 main_v1 rfl shapeCasts_S1024x1_S1024 ⟨by decide, rfl⟩ ⟨by decide, rfl⟩ (V1 m d)).trans ?_
  show (fun i => shapeCast S1024 (V1 m d a1') shapeCasts_S1024x1_S1024 i) = IDX m d
  rw [V1_a1]; rfl

theorem V3_a0 (h : OK m) (d : Dev nD) : V3 m h d a0' = m (a0Loc d) :=
  (Function.update_of_ne (show a0' ≠ o' by decide) _ _).trans (V2_a0 m d)
theorem V3_a1 (h : OK m) (d : Dev nD) : V3 m h d a1' = m (a1Loc d) :=
  (Function.update_of_ne (show a1' ≠ o' by decide) _ _).trans (V2_a1 m d)
theorem V3_t (h : OK m) (d : Dev nD) : V3 m h d t' = TBL m d :=
  (Function.update_of_ne (show t' ≠ o' by decide) _ _).trans (V2_t m d)
theorem V3_i (h : OK m) (d : Dev nD) : V3 m h d i' = IDX m d :=
  (Function.update_of_ne (show i' ≠ o' by decide) _ _).trans (V2_i m d)
theorem V3_o (h : OK m) (d : Dev nD) : V3 m h d o' = GOUT m h d := Function.update_self _ _ _
theorem V3_r (h : OK m) (d : Dev nD) : V3 m h d r' = V2 m d r' := Function.update_of_ne (show r' ≠ o' by decide) _ _

theorem V4_a0 (h : OK m) (d : Dev nD) : V4 m h d a0' = m (a0Loc d) :=
  ((op3 (F := F)).result_of_not_mem (V3 m h d) (b := a0') (show a0' ∉ ({r'} : Finset (DevRef τ sig)) by decide)).trans (V3_a0 m h d)
theorem V4_a1 (h : OK m) (d : Dev nD) : V4 m h d a1' = m (a1Loc d) :=
  ((op3 (F := F)).result_of_not_mem (V3 m h d) (b := a1') (show a1' ∉ ({r'} : Finset (DevRef τ sig)) by decide)).trans (V3_a1 m h d)
theorem V4_r (h : OK m) (d : Dev nD) : V4 m h d r' = ROUT m h d := by
  refine (StableHlo.reshape_result main_v2 main_v3 rfl shapeCasts_S1024x128_S1024x1x128 ⟨by decide, rfl⟩ ⟨by decide, rfl⟩ (V3 m h d)).trans ?_
  show (fun i => shapeCast S1024x1x128 (V3 m h d o') shapeCasts_S1024x128_S1024x1x128 i) = ROUT m h d
  rw [V3_o]; rfl

/-- Before the call: the arguments at their launch contents, the matrix and the vector written. -/
theorem held_V2 (d : Dev nD) :
    (held (T d) S6 (V2 m d) : sProp 𝕄) = iprop((a0Loc d ↦{fullShare} m (a0Loc d)) ∗ (a1Loc d ↦{fullShare} m (a1Loc d)) ∗ (tLoc d ↦{fullShare} TBL m d)
      ∗ (iLoc d ↦{fullShare} IDX m d) ∗ (oLoc d ↦{fullShare} V2 m d o') ∗ (rLoc d ↦{fullShare} V2 m d r')) := by
  rw [held_S6, V2_a0, V2_a1, V2_t, V2_i]

/-- After the call: the same, the call's result at the gathered rows. -/
theorem held_V3 (h : OK m) (d : Dev nD) :
    (held (T d) S6 (V3 m h d) : sProp 𝕄) = iprop((a0Loc d ↦{fullShare} m (a0Loc d)) ∗ (a1Loc d ↦{fullShare} m (a1Loc d)) ∗ (tLoc d ↦{fullShare} TBL m d)
      ∗ (iLoc d ↦{fullShare} IDX m d) ∗ (oLoc d ↦{fullShare} GOUT m h d) ∗ (rLoc d ↦{fullShare} V2 m d r')) := by
  rw [held_S6, V3_a0, V3_a1, V3_t, V3_i, V3_o, V3_r]

/-- At the end: the arguments at their launch contents, the result written. -/
theorem held_V4 (h : OK m) (d : Dev nD) :
    (held (T d) S6 (V4 m h d) : sProp 𝕄) = iprop((a0Loc d ↦{fullShare} m (a0Loc d)) ∗ (a1Loc d ↦{fullShare} m (a1Loc d)) ∗ (tLoc d ↦{fullShare} V4 m h d t')
      ∗ (iLoc d ↦{fullShare} V4 m h d i') ∗ (oLoc d ↦{fullShare} V4 m h d o') ∗ (rLoc d ↦{fullShare} ROUT m h d)) := by
  rw [held_S6, V4_a0, V4_a1, V4_r]

/-- What the call takes for its one SparseCore, and what it hands back. -/
theorem st0_eq (h : OK m) (d : Dev nD) : (bigSep Finset.univ fun c : Fin ((K (F := F)).nCore 0) => (P m h).st 0 d c)
    = iprop((tLoc d ↦{fullShare} TBL m d) ∗ (iLoc d ↦{fullShare} IDX m d) ∗ ∃ fo, oLoc d ↦{fullShare} fo) :=
  bigSep_univ_of_subsingleton (0 : Fin 1)
theorem dn0_eq (h : OK m) (d : Dev nD) : (bigSep Finset.univ fun c : Fin ((K (F := F)).nCore 0) => (P m h).dn 0 d c)
    = iprop((tLoc d ↦{fullShare} TBL m d) ∗ (iLoc d ↦{fullShare} IDX m d) ∗ (oLoc d ↦{fullShare} GOUT m h d)) :=
  bigSep_univ_of_subsingleton (0 : Fin 1)

/-- What @main leaves the claim: the two arguments at their launch contents, the result buffer at the result. -/
abbrev FIN (h : OK m) (d : Dev nD) : sProp 𝕄 :=
  iprop((a0Loc d ↦{fullShare} m (a0Loc d)) ∗ (a1Loc d ↦{fullShare} m (a1Loc d)) ∗ (rLoc d ↦{fullShare} ROUT m h d))

/-- @main on device `d`'s TensorCore: the two reshapes of the arguments, the call (from the matrix, the vector and the
    result buffer, back with the gathered rows), the reshape of the gathered rows; the arguments kept. -/
theorem hmain (h : OK m) (κ : GSem nD τ sig → ℕ) (d : Dev nD) :
    iprop((K (F := F)).ctx EH (P m h) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m h d) := by
  unfold SparseCore.Cfg.tcRes
  rw [unscoped_held]
  simp only [main, wp_bind, wp_pure]
  iintro ⟨#Hctx, Hst, ⟨Hb, Hheld, -, -⟩, -⟩
  -- the matrix
  iapply (wp_hlo_within 𝒱 (SparseCore.T d) none Set.univ (op := op1) (S := S6) hop1 (V := V0 m d)) $$ [Hb Hheld]
  · isplitl [Hb]; · iexact Hb
    iexact Hheld
  iintro ⟨Hb, Hheld⟩
  rw [wp_ret]; imodintro
  -- the vector
  iapply (wp_hlo_within 𝒱 (SparseCore.T d) none Set.univ (op := op2) (S := S6) hop2 (V := V1 m d)) $$ [Hb Hheld]
  · isplitl [Hb]; · iexact Hb
    iexact Hheld
  iintro ⟨Hb, Hheld⟩
  rw [wp_ret]; imodintro
  ihave Hh := (Entails.of_eq (show (held (T d) S6 ((op2 (F := F)).result (V1 m d)) : sProp 𝕄) = _ from held_V2 (F := F) m d)) $$ Hheld
  icases Hh with ⟨Ha0, Ha1, Ht, Hi, Ho, Hr⟩
  -- the call
  iapply ((K (F := F)).wp_run (D (F := F)) 𝒱 (EH := EH) (P := P m h) κ d 0) $$ [Hst Ht Hi Ho Hb Ha0 Ha1 Hr]
  isplitr; · iexact Hctx
  isplitl [Hst]; · iexact Hst
  isplitl [Ht Hi Ho]
  · rw [st0_eq]
    isplitl [Ht]; · iexact Ht
    isplitl [Hi]; · iexact Hi
    iexists _; iexact Ho
  iintro ⟨Hst, Hdn⟩
  ihave Hdn' := (Entails.of_eq (dn0_eq m h d)) $$ Hdn
  icases Hdn' with ⟨Ht, Hi, Ho⟩
  -- the result
  iapply (wp_hlo_within 𝒱 (SparseCore.T d) none Set.univ (op := op3) (S := S6) hop3 (V := V3 m h d)) $$ [Hb Ha0 Ha1 Ht Hi Ho Hr]
  · isplitl [Hb]; · iexact Hb
    rw [held_V3]
    isplitl [Ha0]; · iexact Ha0
    isplitl [Ha1]; · iexact Ha1
    isplitl [Ht]; · iexact Ht
    isplitl [Hi]; · iexact Hi
    isplitl [Ho]; · iexact Ho
    iexact Hr
  iintro ⟨Hb, Hheld⟩
  ihave Hh := (Entails.of_eq (show (held (T d) S6 ((op3 (F := F)).result (V3 m h d)) : sProp 𝕄) = _ from held_V4 (F := F) m h d)) $$ Hheld
  icases Hh with ⟨Ha0, Ha1, -, -, -, Hr⟩
  rw [wp_ret]; imodintro; imodintro
  isplitl [Hst]; · iexact Hst
  isplitl [Ha0]; · iexact Ha0
  isplitl [Ha1]; · iexact Ha1
  iexact Hr

/-! ## How the final memory reads what @main leaves -/

def fq (h : OK m) (d : Dev nD) (s' : Phys nD τ sig (Elt F)) : Prop :=
  s'.mem.mem (rLoc d) = ROUT m h d ∧ s'.mem.mem (a0Loc d) = m (a0Loc d) ∧ s'.mem.mem (a1Loc d) = m (a1Loc d)

theorem hfin (h : OK m) (d : Dev nD) (s' : Phys nD τ sig (Elt F)) : iprop(FIN m h d ∗ SI s') ⊢ (⌜fq m h d s'⌝ : sProp 𝕄) := by
  iintro ⟨⟨Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := rLoc d) (I := Finset.univ) (q := fullShare) (f := ROUT m h d)) $$ [HSI Hr]
  · isplitl [HSI] <;> iassumption
  icases H with %h2
  ipureintro
  exact ⟨funext fun i => h2 i (Finset.mem_univ i), funext fun i => h0 i (Finset.mem_univ i), funext fun i => h1 i (Finset.mem_univ i)⟩

/-! ## The program's run -/

theorem run_main [∀ e, Nonempty (Elt F e)] (h : OK m) :
    θ_run (Cert.Kernel.defs (F := F)) (Cert.Kernel.threads (F := F)) ⟨m, fun _ => 0, ρ⟩ (QC m h) :=
  SparseCore.Cfg.θ_run_sc (K := K (F := F)) (D := D (F := F)) (𝒱 := 𝒱) (EH := EH) (P := P m h) facts v₀
    (fun q hq => match q with | 0 => nomatch hq)
    (fun q _ => match q with | 0 => tileObl m facts h)
    (fun q _ => match q with | 0 => SparseCore.Cfg.VecSplit.of_plain (vecSplit m h))
    m ρ main (fun _ => iprop(emp)) (FIN m h) (u₀ (F := F)) (sep_elim_left.trans (hu₀ m h)) (hmain m ρ h) (fq m h) (hfin m h) (QC m h) (fun _ hh => hh)

end Cert.Proof.BitsK

end
-- ==== Proof.RefOut.lean ====
/-
  What the reference computes, stage by stage, as functions of its two operands.

  The reference is `take_along_axis(embeddings, index, axis = 1)` with the index repeated along the 128 lanes.
  A negative requested node counts from the end (1000 is added); a request that is still outside `0 … 999` gives a
  NaN; otherwise entry `(b, 0, j)` of the result is entry `(b, node b, j)` of the table, read by a gather that
  keeps the batch entry and the lane and takes the node axis at the (clamped) request.
-/
import proofs.«207040_g69088843924254_cont_9to1_m_295_12_alg».proof.Proof.Gen.ReferenceIdeal

noncomputable section

namespace Cert.Proof.RefSide

open Cert.ReferenceIdeal Cert.ReferenceIdeal.Gen Idealize.ShloMosaic

variable {F : FTy → Type} [FloatOps F]

/-- The requested node of every batch entry, repeated along the 128 lanes. -/
def lanes (a1 : IVec S1024x1 32) : IVec S1024x1x128 32 :=
  broadcastInDim S1024x1x128 ![0, 1, 2] bcast_S1024x1x1_S1024x1x128_0_1_2
    (broadcastInDim S1024x1x1 ![0, 1] bcast_S1024x1_S1024x1x1_0_1 a1)

/-- A negative request counts from the end: 1000 is added to it. -/
def wrapped (a1 : IVec S1024x1 32) : IVec S1024x1x128 32 :=
  select (cmpi .slt (lanes a1) (broadcastInDim S1024x1x128 ![] bcast_S_S1024x1x128 (constantI S_ 32 0#32)))
    (addi (lanes a1) (broadcastInDim S1024x1x128 ![] bcast_S_S1024x1x128 (constantI S_ 32 1000#32)))
    (lanes a1)

/-- The same numbers as a vector of one-component start indices. -/
def starts (a1 : IVec S1024x1 32) : IVec S1024x1x128x1 32 :=
  shapeCast S1024x1x128x1 (wrapped a1) shapeCasts_S1024x1x128_S1024x1x128x1

/-- Where the request, after the wrap, names one of the 1000 nodes. -/
def mask (a1 : IVec S1024x1 32) : IVec S1024x1x128 1 :=
  Host.reduce IntOp.andi
    (andi (cmpi .sge (starts a1) (broadcastInDim S1024x1x128x1 ![] bcast_S_S1024x1x128x1 (constantI S_ 32 0#32)))
      (cmpi .sle (starts a1) (broadcastInDim S1024x1x128x1 ![0, 1, 2, 3] bcast_S1x1x1x1_S1024x1x128x1_0_1_2_3
        (broadcastInDim S1x1x1x1 ![3] bcast_S1_S1x1x1x1_3 (constantI S1 32 999#32)))))
    (constantI S_ 1 1#1) reducesTo_S1024x1x128x1_S1024x1x128_d3 h_S_

/-- The gathered entries: batch entry and lane kept, the node axis read at the start index. -/
def picked (a0 : FVec F S1024x1000x128 .f32) (a1 : IVec S1024x1 32) : FVec F S1024x1x128 .f32 :=
  Host.gather gather_S1024x1000x128_S1024x1x128x1_S1024x1x128_n_1_02_02_1_3_111 a0 (starts a1)

/-- The reference's result: the gathered entry where the request is in range, a NaN elsewhere. -/
def refOut (a0 : FVec F S1024x1000x128 .f32) (a1 : IVec S1024x1 32) : FVec F S1024x1x128 .f32 :=
  select (mask a1) (picked a0 a1) (broadcastInDim S1024x1x128 ![] bcast_S_S1024x1x128 (constant S_ .f32 0x7FC00000#32))

end Cert.Proof.RefSide

end
-- ==== Proof.RefRun.lean ====
/-
  The reference's run.

  The reference program is a straight line of 24 tensor operations (the body of `take_along_axis` stands where it
  is called). From any launch memory every execution terminates; the result buffer then holds `refOut` of the two
  arguments' launch contents, and the arguments are unchanged.
-/
import proofs.«207040_g69088843924254_cont_9to1_m_295_12_alg».proof.Proof.RefOut
import Idealize.ShloMosaic.Lib.StableHlo.Run

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ unary main_arg1 main_v0 (broadcastInDim S1024x1x1 ![0, 1] bcast_S1024x1_S1024x1x1_0_1 : (⟨S1024x1, .i32⟩ : BufTy).Contents (Elt F) → (⟨S1024x1x1, .i32⟩ : BufTy).Contents (Elt F)),
    unary main_v0 main_v1 (broadcastInDim S1024x1x128 ![0, 1, 2] bcast_S1024x1x1_S1024x1x128_0_1_2 : (⟨S1024x1x1, .i32⟩ : BufTy).Contents (Elt F) → (⟨S1024x1x128, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S1024x1x128, .i32⟩) main_call0_v0) (broadcastInDim S1024x1x128 ![] bcast_S_S1024x1x128),
    TRef.binary (TRef.of (T := ⟨S1024x1x128, .i32⟩) main_v1) (TRef.of (T := ⟨S1024x1x128, .i32⟩) main_call0_v0) (TRef.of (T := ⟨S1024x1x128, .i1⟩) main_call0_v1) (cmpi .slt),
    TRef.nullary (TRef.of (T := ⟨S_, .i32⟩) main_call0_c_0) (constantI S_ 32 1000#32),
    TRef.unary (TRef.of (T := ⟨S_, .i32⟩) main_call0_c_0) (TRef.of (T := ⟨S1024x1x128, .i32⟩) main_call0_v2) (broadcastInDim S1024x1x128 ![] bcast_S_S1024x1x128),
    TRef.binary (TRef.of (T := ⟨S1024x1x128, .i32⟩) main_v1) (TRef.of (T := ⟨S1024x1x128, .i32⟩) main_call0_v2) (TRef.of (T := ⟨S1024x1x128, .i32⟩) main_call0_v3) addi,
    TRef.ternary (TRef.of (T := ⟨S1024x1x128, .i1⟩) main_call0_v1) (TRef.of (T := ⟨S1024x1x128, .i32⟩) main_call0_v3) (TRef.of (T := ⟨S1024x1x128, .i32⟩) main_v1) (TRef.of (T := ⟨S1024x1x128, .i32⟩) main_call0_v4) select,
    TRef.reshape (TRef.of (T := ⟨S1024x1x128, .i32⟩) main_call0_v4) (TRef.of (T := ⟨S1024x1x128x1, .i32⟩) main_call0_v5) rfl shapeCasts_S1024x1x128_S1024x1x128x1,
    TRef.nullary (TRef.of (T := ⟨S1, .i32⟩) main_call0_c_1) (constantI S1 32 999#32),
    TRef.nullary (TRef.of (T := ⟨S_, .i32⟩) main_call0_c_2) (constantI S_ 32 0#32),
    TRef.unary (TRef.of (T := ⟨S_, .i32⟩) main_call0_c_2) (TRef.of (T := ⟨S1024x1x128x1, .i32⟩) main_call0_v6) (broadcastInDim S1024x1x128x1 ![] bcast_S_S1024x1x128x1),
    TRef.binary (TRef.of (T := ⟨S1024x1x128x1, .i32⟩) main_call0_v5) (TRef.of (T := ⟨S1024x1x128x1, .i32⟩) main_call0_v6) (TRef.of (T := ⟨S1024x1x128x1, .i1⟩) main_call0_v7) (cmpi .sge),
    TRef.unary (TRef.of (T := ⟨S1, .i32⟩) main_call0_c_1) (TRef.of (T := ⟨S1x1x1x1, .i32⟩) main_call0_v8) (broadcastInDim S1x1x1x1 ![3] bcast_S1_S1x1x1x1_3),
    TRef.unary (TRef.of (T := ⟨S1x1x1x1, .i32⟩) main_call0_v8) (TRef.of (T := ⟨S1024x1x128x1, .i32⟩) main_call0_v9) (broadcastInDim S1024x1x128x1 ![0, 1, 2, 3] bcast_S1x1x1x1_S1024x1x128x1_0_1_2_3),
    TRef.binary (TRef.of (T := ⟨S1024x1x128x1, .i32⟩) main_call0_v5) (TRef.of (T := ⟨S1024x1x128x1, .i32⟩) main_call0_v9) (TRef.of (T := ⟨S1024x1x128x1, .i1⟩) main_call0_v10) (cmpi .sle),
    TRef.binary (TRef.of (T := ⟨S1024x1x128x1, .i1⟩) main_call0_v7) (TRef.of (T := ⟨S1024x1x128x1, .i1⟩) main_call0_v10) (TRef.of (T := ⟨S1024x1x128x1, .i1⟩) main_call0_v11) andi,
    TRef.nullary (TRef.of (T := ⟨S_, .i1⟩) main_call0_c_3) (constantI S_ 1 1#1),
    TRef.binary (TRef.of (T := ⟨S1024x1x128x1, .i1⟩) main_call0_v11) (TRef.of (T := ⟨S_, .i1⟩) main_call0_c_3) (TRef.of (T := ⟨S1024x1x128, .i1⟩) main_call0_v12) (fun x v => Host.reduce IntOp.andi x v reducesTo_S1024x1x128x1_S1024x1x128_d3 h_S_),
    TRef.binary (TRef.of (T := ⟨S1024x1000x128, .f32⟩) main_arg0) (TRef.of (T := ⟨S1024x1x128x1, .i32⟩) main_call0_v5) (TRef.of (T := ⟨S1024x1x128, .f32⟩) main_call0_v13) (fun x i => Host.gather gather_S1024x1000x128_S1024x1x128x1_S1024x1x128_n_1_02_02_1_3_111 x i),
    TRef.nullary (TRef.of (T := ⟨S_, .f32⟩) main_call0_cst) (constant S_ .f32 0x7FC00000#32),
    TRef.unary (TRef.of (T := ⟨S_, .f32⟩) main_call0_cst) (TRef.of (T := ⟨S1024x1x128, .f32⟩) main_call0_v14) (broadcastInDim S1024x1x128 ![] bcast_S_S1024x1x128),
    TRef.ternary (TRef.of (T := ⟨S1024x1x128, .i1⟩) main_call0_v12) (TRef.of (T := ⟨S1024x1x128, .f32⟩) main_call0_v13) (TRef.of (T := ⟨S1024x1x128, .f32⟩) main_call0_v14) (TRef.of (T := ⟨S1024x1x128, .f32⟩) main_v2) select ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- What the result buffer holds after the 24 operations, from any contents `V`: each operation's result is its
    function of its operands' contents, and a buffer's contents read at the buffer's own type are themselves. -/
theorem after_result (V : Valuation τ sig (Elt F)) :
    after (ops (F := F)) V (Proc.devRef .tc main_v2)
      = refOut (F := F) (V (Proc.devRef .tc main_arg0)) (V (Proc.devRef .tc main_arg1)) := by
  after_results
  simp only [TRef.toBuf, TRef.ofBuf, cast_cast, cast_eq]
  rfl

/-- No operation writes the first argument. -/
theorem after_arg0 (V : Valuation τ sig (Elt F)) :
    after (ops (F := F)) V (Proc.devRef .tc main_arg0) = V (Proc.devRef .tc main_arg0) := by
  after_results <;> rfl

/-- No operation writes the second argument. -/
theorem after_arg1 (V : Valuation τ sig (Elt F)) :
    after (ops (F := F)) V (Proc.devRef .tc main_arg1) = V (Proc.devRef .tc main_arg1) := by
  after_results <;> rfl

/-- On every device, for any float values, from any memory with zero counters: every weakly fair execution of the
    reference terminates with the result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = refOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (after_result _),
      (h c main_arg0).trans (after_arg0 _),
      (h c main_arg1).trans (after_arg1 _)⟩)
    (run_seq scopedRefs_eq scopedSems_eq defs main (fun _ => ops) main_eq (fun _ => ops_sub) m ρ)

end Cert.Proof.RefSide

end
-- ==== Proof.FlatRange.lean ====
/-
  The row of the embedding matrix that each batch entry reads.

  Batch entry `b` requests node `v`, a signed 32-bit word between 0 and 999. The kernel reads row
  `v + 1000 * b` of the matrix of 1024000 rows, computing that number in 32-bit words. Since
  `999 + 1000 * 1023 < 2^31` nothing wraps: the word is the natural number `v + 1000 * b`, and it names a row
  of the matrix.
-/
import proofs.«207040_g69088843924254_cont_9to1_m_295_12_alg».proof.Proof.Spec
import Idealize.ShloMosaic.Lib.Pipeline.Value
import Idealize.ShloMosaic.Lib.ValueIdx

namespace Cert.Proof.FlatRange

open Idealize.ShloMosaic Idealize.ShloMosaic.ValueIdx Cert.KernelIdeal Cert.KernelIdeal.Spec

/-- A column of 1024 words read as a vector of 1024 words: entry `b` is the column's entry `(b, 0)`. -/
theorem column_apply (a1 : IVec S1024x1 32) (hc : S1024x1.ShapeCasts S1024) (b : Fin 1024) :
    shapeCast S1024 a1 hc (ix1 b) = a1 (ix2 b 0) := by
  refine shapeCast_apply a1 hc (ix1 b) (ix2 b 0) ?_
  rw [Shape.rowMajor_val_two, Shape.rowMajor_val_one]
  show b.val * 1 + 0 = b.val
  omega

/-- A signed 32-bit word between 0 and 999 is, read unsigned, at most 999. -/
theorem toNat_le_of_range (v : BitVec 32) (h0 : 0 ≤ v.toInt) (h1 : v.toInt ≤ 999) : v.toNat ≤ 999 := by
  have hlt := v.isLt
  rw [BitVec.toInt_eq_toNat_cond] at h0 h1
  by_cases hc : 2 * v.toNat < 2 ^ 32
  · rw [if_pos hc] at h0 h1; omega
  · rw [if_neg hc] at h0 h1; omega

/-- The row batch entry `b` reads is the natural number `v + 1000 * b`: the 32-bit sum and product do not wrap. -/
theorem flat_toNat (a1 : IVec S1024x1 32) (hc : S1024x1.ShapeCasts S1024)
    (hr : ∀ x : S1024x1.Idx, 0 ≤ (a1 x).toInt ∧ (a1 x).toInt ≤ 999) (b : Fin 1024) :
    (flat (shapeCast S1024 a1 hc) (ix1 b)).toNat = (a1 (ix2 b 0)).toNat + 1000 * b.val := by
  show (shapeCast S1024 a1 hc (ix1 b) + BitVec.ofNat 32 b.val * 1000#32).toNat = _
  rw [column_apply]
  have hv := toNat_le_of_range _ (hr (ix2 b 0)).1 (hr (ix2 b 0)).2
  have hb := b.isLt
  have h1000 : (1000#32 : BitVec 32).toNat = 1000 := rfl
  rw [BitVec.toNat_add, BitVec.toNat_mul, BitVec.toNat_ofNat, h1000]
  omega

/-- Every batch entry's row is one of the matrix's 1024000 rows. -/
theorem flat_inRange (a1 : IVec S1024x1 32) (hc : S1024x1.ShapeCasts S1024)
    (hr : ∀ x : S1024x1.Idx, 0 ≤ (a1 x).toInt ∧ (a1 x).toInt ≤ 999) :
    InRange (flat (shapeCast S1024 a1 hc)) := by
  intro x
  obtain ⟨b, rfl⟩ : ∃ b : Fin 1024, x = ix1 b := ⟨x 0, eq_ix1 x⟩
  rw [flat_toNat a1 hc hr b]
  have hv := toNat_le_of_range _ (hr (ix2 b 0)).1 (hr (ix2 b 0)).2
  have hb := b.isLt
  omega

end Cert.Proof.FlatRange
-- ==== Proof.PreRange.lean ====
/-
  What the precondition says of the requested nodes.

  The precondition is the conjunction of two "for all" statements, each computed as the program states it (an
  elementwise test reduced by "and"): every float of the table is finite, and every requested node `v`
  satisfies `0 ≤ v ≤ 999` as a signed word. Here the second is read back: if the precondition's word is 1,
  every requested node, as a signed number, lies between 0 and 999.
-/
import proofs.«207040_g69088843924254_cont_9to1_m_295_12_alg».proof.Proof.Gen.Pre_input_domain
import Idealize.ShloMosaic.Lib.ReduceAll
import Idealize.ShloMosaic.Lib.ValueIdx

namespace Cert.Proof.PreRange

open Idealize.ShloMosaic Cert.Pre_input_domain

variable {F : FTy → Type} [FloatOps F]

/-- A shape of rank 0 has one index. -/
instance : Subsingleton S_.Idx := ⟨fun a b => funext fun d => d.elim0⟩

/-- Under the precondition every requested node is, as a signed 32-bit number, between 0 and 999. -/
theorem node_range (a0 : FVec F S1024x1000x128 .f32) (a1 : IVec S1024x1 32)
    (h : Cert.Pre_input_domain.fn (F := F) a0 a1 = fun _ => 1#1) (x : S1024x1.Idx) :
    0 ≤ (a1 x).toInt ∧ (a1 x).toInt ≤ 999 := by
  have e := congrFun h ValueIdx.ix0
  dsimp only [Cert.Pre_input_domain.fn] at e
  -- the conjunction of the two "for all"s: keep the one about the nodes
  have e2 := (IntOp.andi_eq_one.1 e).2
  -- the "for all" at the entry `x`
  have e3 := Host.reduce_andi_all _ _ _ _ _ e2 x
  -- the two comparisons, read signed
  obtain ⟨hge, hle⟩ := IntOp.andi_eq_one.1 e3
  have hge' := IntOp.cmpi_sge.1 hge
  have hle' := IntOp.cmpi_sle.1 hle
  simp only [broadcastInDim, constantI] at hge' hle'
  have z0 : (0#32 : BitVec 32).toInt = 0 := by decide
  have z999 : (999#32 : BitVec 32).toInt = 999 := by decide
  rw [z0] at hge'
  rw [z999] at hle'
  exact ⟨hge', hle'⟩

end Cert.Proof.PreRange
-- ==== Proof.Bridge.lean ====
/-
  The reference's result is the kernel's.

  Under the precondition every requested node `v` of batch entry `b` is a signed word between 0 and 999. Then, in
  the reference, the wrap of negative requests does nothing, the in-range test is true everywhere, and the gather
  — which keeps the batch entry and the lane and reads the node axis at the request clamped into `0 … 999` — reads
  entry `(b, v, j)` of the table. The kernel reads row `v + 1000 * b` of the table laid out as a matrix of
  1024000 rows, at lane `j`: the same entry, since entry `(b, v, j)` has row-major position
  `(1000 * b + v) * 128 + j`.
-/
import proofs.«207040_g69088843924254_cont_9to1_m_295_12_alg».proof.Proof.RefOut
import proofs.«207040_g69088843924254_cont_9to1_m_295_12_alg».proof.Proof.FlatRange
import proofs.«207040_g69088843924254_cont_9to1_m_295_12_alg».proof.Proof.PreRange
import Idealize.ShloMosaic.Lib.Pipeline.Value
import Idealize.ShloMosaic.Lib.ValueIdx
import Idealize.ShloMosaic.Lib.Affine

namespace Cert.Proof.Bridge

open Idealize.ShloMosaic Idealize.ShloMosaic.ValueIdx Cert.ReferenceIdeal Cert.ReferenceIdeal.Gen Cert.Proof.RefSide

variable {F : FTy → Type} [FloatOps F]

/-- The gather's dimension numbers: the node axis is collapsed and read at the start index; the batch entry and the
    lane are batching axes of the table and of the start indices alike. -/
abbrev gd : GatherDims S1024x1000x128 S1024x1x128x1 S1024x1x128 :=
  gather_S1024x1000x128_S1024x1x128x1_S1024x1x128_n_1_02_02_1_3_111

/-! ## The requests, stage by stage -/

/-- The request of batch entry `b`, repeated along the lanes. -/
theorem lanes_apply (a1 : IVec S1024x1 32) (b : Fin 1024) (z : Fin 1) (l : Fin 128) :
    lanes a1 (ix3 b z l) = a1 (ix2 b 0) := by
  unfold lanes broadcastInDim
  refine congrArg a1 (funext fun a => ?_)
  match a with
  | ⟨0, _⟩ => rfl
  | ⟨1, _⟩ => rfl

/-- A non-negative request is not wrapped. -/
theorem wrapped_apply (a1 : IVec S1024x1 32) (b : Fin 1024) (z : Fin 1) (l : Fin 128)
    (h0 : 0 ≤ (a1 (ix2 b 0)).toInt) : wrapped a1 (ix3 b z l) = a1 (ix2 b 0) := by
  show Scalar.select (IntOp.cmpi .slt (lanes a1 (ix3 b z l)) 0#32)
    (IntOp.addi (lanes a1 (ix3 b z l)) 1000#32) (lanes a1 (ix3 b z l)) = _
  rw [lanes_apply]
  unfold Scalar.select
  rw [if_neg]
  intro hc
  have hlt := IntOp.cmpi_slt.1 hc
  have z0 : (0#32 : BitVec 32).toInt = 0 := by decide
  omega

/-- The same number as a one-component start index. -/
theorem starts_apply (a1 : IVec S1024x1 32) (b : Fin 1024) (z : Fin 1) (l : Fin 128) (w : Fin 1)
    (h0 : 0 ≤ (a1 (ix2 b 0)).toInt) : starts a1 (ix4 b z l w) = a1 (ix2 b 0) := by
  have e : (S1024x1x128.rowMajor (ix3 b z l)).val = (S1024x1x128x1.rowMajor (ix4 b z l w)).val := by
    rw [Shape.rowMajor_val_three, Shape.rowMajor_val_four]
    show (b.val * 1 + z.val) * 128 + l.val = ((b.val * 1 + z.val) * 128 + l.val) * 1 + w.val
    have := w.isLt
    omega
  unfold starts
  rw [shapeCast_apply (wrapped a1) _ (ix4 b z l w) (ix3 b z l) e, wrapped_apply a1 b z l h0]

/-! ## The in-range test -/

/-- A conjunction of ones, started at one, is one. -/
theorem foldl_andi_one {ι : Type} (g : ι → BitVec 1) (hg : ∀ n, g n = 1#1) (l : List ι) :
    l.foldl (fun r n => IntOp.andi r (g n)) 1#1 = 1#1 := by
  induction l with
  | nil => rfl
  | cons a l ih =>
    have h11 : IntOp.andi 1#1 1#1 = 1#1 := by decide
    rw [List.foldl_cons, hg a, h11]
    exact ih

/-- Every request being between 0 and 999, the in-range test is true at every entry. -/
theorem mask_apply (a1 : IVec S1024x1 32) (hr : ∀ x : S1024x1.Idx, 0 ≤ (a1 x).toInt ∧ (a1 x).toInt ≤ 999)
    (j : S1024x1x128.Idx) : mask a1 j = 1#1 := by
  unfold mask Host.reduce
  refine foldl_andi_one _ (fun n => ?_) _
  generalize S1024x1x128x1.rowMajor.symm n = i
  obtain ⟨b, z, l, w, rfl⟩ : ∃ (b : Fin 1024) (z : Fin 1) (l : Fin 128) (w : Fin 1), i = ix4 b z l w :=
    ⟨i 0, i 1, i 2, i 3, eq_ix4 i⟩
  show IntOp.andi (IntOp.cmpi .sge (starts a1 (ix4 b z l w)) 0#32)
    (IntOp.cmpi .sle (starts a1 (ix4 b z l w)) 999#32) = 1#1
  rw [starts_apply a1 b z l w (hr _).1]
  have z0 : (0#32 : BitVec 32).toInt = 0 := by decide
  have z999 : (999#32 : BitVec 32).toInt = 999 := by decide
  exact IntOp.andi_eq_one.2 ⟨IntOp.cmpi_sge.2 (by rw [z0]; exact (hr _).1), IntOp.cmpi_sle.2 (by rw [z999]; exact (hr _).2)⟩

/-! ## The gather -/

/-- A request between 0 and 999, read unsigned, names one of the 1000 nodes. -/
theorem node_lt (v : BitVec 32) (h0 : 0 ≤ v.toInt) (h1 : v.toInt ≤ 999) : v.toNat < 1000 :=
  Nat.lt_succ_of_le (FlatRange.toNat_le_of_range v h0 h1)

/-- Such a request, read signed and clamped into `0 … 999` as the gather does, is itself. -/
theorem clamp_eq (v : BitVec 32) (h0 : 0 ≤ v.toInt) (h1 : v.toInt ≤ 999) : min v.toInt.toNat (1000 - 1) = v.toNat := by
  have hle := FlatRange.toNat_le_of_range v h0 h1
  have e : v.toInt = (v.toNat : Int) := BitVec.toInt_eq_toNat_of_lt (by omega)
  rw [e, Int.toNat_natCast]
  omega

/-- The gather at `(b, 0, l)`: the table's entry at batch entry `b`, the requested node, lane `l`. -/
theorem picked_apply (a0 : FVec F S1024x1000x128 .f32) (a1 : IVec S1024x1 32) (b : Fin 1024) (l : Fin 128)
    (h0 : 0 ≤ (a1 (ix2 b 0)).toInt) (h1 : (a1 (ix2 b 0)).toInt ≤ 999) :
    picked a0 a1 (ix3 b 0 l) = a0 (ix3 b ⟨(a1 (ix2 b 0)).toNat, node_lt _ h0 h1⟩ l) := by
  show Host.gather gd a0 (starts a1) (ix3 b 0 l) = _
  unfold Host.gather
  refine congrArg a0 (funext fun a => Fin.ext ?_)
  match a with
  | ⟨0, _⟩ =>
    -- the batch axis: the result's own batch coordinate
    show gd.start (ix3 b 0 l) (starts a1) 0 + gd.batchCoord (ix3 b 0 l) 0 + gd.offCoord (ix3 b 0 l) 0 = b.val
    have hs : gd.start (ix3 b 0 l) (starts a1) 0 = 0 := GatherDims.start_batching _ _ _ _ (by decide)
    have hb : gd.batchCoord (ix3 b 0 l) 0 = b.val := rfl
    have ho : gd.offCoord (ix3 b 0 l) 0 = 0 :=
      GatherDims.offCoord_eq_zero _ _ _ (fun h => ((GatherDims.mem_sKept _ _).mp h).2 (by decide))
    rw [hs, hb, ho]
    omega
  | ⟨1, _⟩ =>
    -- the node axis: the start index, read signed and clamped
    show gd.start (ix3 b 0 l) (starts a1) 1 + gd.batchCoord (ix3 b 0 l) 1 + gd.offCoord (ix3 b 0 l) 1 = (a1 (ix2 b 0)).toNat
    have hb : gd.batchCoord (ix3 b 0 l) 1 = 0 := GatherDims.batchCoord_eq_zero _ _ _ (by decide)
    have ho : gd.offCoord (ix3 b 0 l) 1 = 0 :=
      GatherDims.offCoord_eq_zero _ _ _ (fun h => ((GatherDims.mem_sKept _ _).mp h).1 (by decide))
    have hm : (1 : Fin 3) ∈ gd.startIndexMap := List.mem_singleton.mpr rfl
    have hsi : gd.siIdx (ix3 b 0 l) ⟨List.idxOf (1 : Fin 3) gd.startIndexMap, List.idxOf_lt_length_iff.2 hm⟩
        = ix4 b 0 l 0 := by
      funext c; refine Fin.ext ?_
      match c with
      | ⟨0, _⟩ => rfl
      | ⟨1, _⟩ => rfl
      | ⟨2, _⟩ => rfl
      | ⟨3, _⟩ => rfl
    have hs : gd.start (ix3 b 0 l) (starts a1) 1 = (a1 (ix2 b 0)).toNat := by
      unfold GatherDims.start
      rw [dif_pos hm, hsi, starts_apply a1 b 0 l 0 h0]
      exact clamp_eq _ h0 h1
    rw [hs, hb, ho]
    omega
  | ⟨2, _⟩ =>
    -- the lane axis: the result's own lane
    show gd.start (ix3 b 0 l) (starts a1) 2 + gd.batchCoord (ix3 b 0 l) 2 + gd.offCoord (ix3 b 0 l) 2 = l.val
    have hs : gd.start (ix3 b 0 l) (starts a1) 2 = 0 := GatherDims.start_batching _ _ _ _ (by decide)
    have hb : gd.batchCoord (ix3 b 0 l) 2 = l.val := rfl
    have ho : gd.offCoord (ix3 b 0 l) 2 = 0 :=
      GatherDims.offCoord_eq_zero _ _ _ (fun h => ((GatherDims.mem_sKept _ _).mp h).2 (by decide))
    rw [hs, hb, ho]
    omega

/-- The reference's result at `(b, 0, l)`. -/
theorem refOut_apply (a0 : FVec F S1024x1000x128 .f32) (a1 : IVec S1024x1 32)
    (hr : ∀ x : S1024x1.Idx, 0 ≤ (a1 x).toInt ∧ (a1 x).toInt ≤ 999) (b : Fin 1024) (l : Fin 128) :
    refOut a0 a1 (ix3 b 0 l) = a0 (ix3 b ⟨(a1 (ix2 b 0)).toNat, node_lt _ (hr _).1 (hr _).2⟩ l) := by
  unfold refOut
  rw [select_apply, mask_apply a1 hr, picked_apply a0 a1 b l (hr _).1 (hr _).2]
  exact select_one _ _

/-! ## The kernel's side, and the two together -/

section Kernel

open Cert.KernelIdeal (Spec.flat Spec.InRange Spec.gathered)

/-- The kernel's result at `(b, 0, l)`: the matrix's row `v + 1000 * b` at lane `l` is the table's entry
    `(b, v, l)`. -/
theorem kernelOut_apply (a0 : FVec F S1024x1000x128 .f32) (a1 : IVec S1024x1 32)
    (hm : S1024x1000x128.ShapeCasts Cert.KernelIdeal.S1024000x128) (hc : S1024x1.ShapeCasts Cert.KernelIdeal.S1024)
    (ho : Cert.KernelIdeal.S1024x128.ShapeCasts S1024x1x128)
    (hr : ∀ x : S1024x1.Idx, 0 ≤ (a1 x).toInt ∧ (a1 x).toInt ≤ 999)
    (h : Spec.InRange (Spec.flat (shapeCast Cert.KernelIdeal.S1024 a1 hc))) (b : Fin 1024) (l : Fin 128) :
    shapeCast S1024x1x128
        (Spec.gathered (F := F) (shapeCast Cert.KernelIdeal.S1024000x128 a0 hm)
          (Spec.flat (shapeCast Cert.KernelIdeal.S1024 a1 hc)) h) ho (ix3 b 0 l)
      = a0 (ix3 b ⟨(a1 (ix2 b 0)).toNat, node_lt _ (hr _).1 (hr _).2⟩ l) := by
  have e1 : (Cert.KernelIdeal.S1024x128.rowMajor (ix2 b l)).val = (S1024x1x128.rowMajor (ix3 b 0 l)).val := by
    rw [Shape.rowMajor_val_two, Shape.rowMajor_val_three]
    show b.val * 128 + l.val = (b.val * 1 + 0) * 128 + l.val
    omega
  rw [shapeCast_apply _ ho (ix3 b 0 l) (ix2 b l) e1]
  show shapeCast Cert.KernelIdeal.S1024000x128 a0 hm
      (ix2 ⟨(Spec.flat (shapeCast Cert.KernelIdeal.S1024 a1 hc) (ix1 b)).toNat, h _⟩ l) = _
  refine shapeCast_apply a0 hm _ _ ?_
  rw [Shape.rowMajor_val_three, Shape.rowMajor_val_two]
  show (b.val * 1000 + (a1 (ix2 b 0)).toNat) * 128 + l.val
    = (Spec.flat (shapeCast Cert.KernelIdeal.S1024 a1 hc) (ix1 b)).toNat * 128 + l.val
  rw [FlatRange.flat_toNat a1 hc hr b]
  omega

/-- Under the precondition's range of the requests, the reference's result is the kernel's. -/
theorem refOut_eq_kernelOut (a0 : FVec F S1024x1000x128 .f32) (a1 : IVec S1024x1 32)
    (hm : S1024x1000x128.ShapeCasts Cert.KernelIdeal.S1024000x128) (hc : S1024x1.ShapeCasts Cert.KernelIdeal.S1024)
    (ho : Cert.KernelIdeal.S1024x128.ShapeCasts S1024x1x128)
    (hr : ∀ x : S1024x1.Idx, 0 ≤ (a1 x).toInt ∧ (a1 x).toInt ≤ 999)
    (h : Spec.InRange (Spec.flat (shapeCast Cert.KernelIdeal.S1024 a1 hc))) :
    refOut a0 a1
      = shapeCast S1024x1x128
          (Spec.gathered (F := F) (shapeCast Cert.KernelIdeal.S1024000x128 a0 hm)
            (Spec.flat (shapeCast Cert.KernelIdeal.S1024 a1 hc)) h) ho := by
  funext j
  obtain ⟨b, z, l, rfl⟩ : ∃ (b : Fin 1024) (z : Fin 1) (l : Fin 128), j = ix3 b z l := ⟨j 0, j 1, j 2, eq_ix3 j⟩
  obtain rfl : z = 0 := Subsingleton.elim _ _
  rw [refOut_apply a0 a1 hr b l, kernelOut_apply a0 a1 hm hc ho hr h b l]

end Kernel

/-! ## From the precondition -/

section FromPre

open Cert.KernelIdeal (Spec.flat Spec.InRange Spec.gathered)

/-- Under the precondition every batch entry's row is a row of the matrix. -/
theorem inRange_of_pre (a0 : FVec F S1024x1000x128 .f32) (a1 : IVec S1024x1 32)
    (hc : S1024x1.ShapeCasts Cert.KernelIdeal.S1024)
    (hpre : Cert.Pre_input_domain.fn (F := F) a0 a1 = fun _ => 1#1) :
    Spec.InRange (Spec.flat (shapeCast Cert.KernelIdeal.S1024 a1 hc)) :=
  FlatRange.flat_inRange a1 hc (PreRange.node_range a0 a1 hpre)

/-- Under the precondition the reference's result is the kernel's. -/
theorem refOut_eq_kernelOut_of_pre (a0 : FVec F S1024x1000x128 .f32) (a1 : IVec S1024x1 32)
    (hm : S1024x1000x128.ShapeCasts Cert.KernelIdeal.S1024000x128) (hc : S1024x1.ShapeCasts Cert.KernelIdeal.S1024)
    (ho : Cert.KernelIdeal.S1024x128.ShapeCasts S1024x1x128)
    (hpre : Cert.Pre_input_domain.fn (F := F) a0 a1 = fun _ => 1#1)
    (h : Spec.InRange (Spec.flat (shapeCast Cert.KernelIdeal.S1024 a1 hc))) :
    refOut a0 a1
      = shapeCast S1024x1x128
          (Spec.gathered (F := F) (shapeCast Cert.KernelIdeal.S1024000x128 a0 hm)
            (Spec.flat (shapeCast Cert.KernelIdeal.S1024 a1 hc)) h) ho :=
  refOut_eq_kernelOut a0 a1 hm hc ho (PreRange.node_range a0 a1 hpre) h

end FromPre

end Cert.Proof.Bridge
-- ==== Proof.lean ====
/-
  The gather kernel against its reference: for each of 1024 batch entries, the embedding row of the node the entry
  asks for.

  The kernel flattens the table [1024, 1000, 128] to a matrix of 1024000 rows, and on sixteen tiles of a SparseCore
  gathers, for batch entry `b`, the matrix's row `node b + 1000 * b`; the reference takes row `node b` of the
  table's slice `b` (take_along_axis, with its wrap of negative indices and its in-bounds mask). Under the
  precondition `0 ≤ node ≤ 999` no index wraps, the mask is all ones, the kernel's row number exists, and the two
  rows are one. No arithmetic on the floats is involved: the claim is an equation of indices, and holds at the
  word-level instance as at the ideal one.

  The three frames: the kernel's run (the launch over the tile's task, with each buffer's final contents named) at the
  two instances, with the values dropped; the reference's run. The ideal pass rewrote nothing, so `preserves` is
  trivial. The algebraic claim: the kernel's result buffer ends at the gathered rows, the reference's at its own
  term, and the two are equal index by index.
-/
import proofs.«207040_g69088843924254_cont_9to1_m_295_12_alg».proof.Defs
import proofs.«207040_g69088843924254_cont_9to1_m_295_12_alg».proof.Proof.Gen.Kernel
import proofs.«207040_g69088843924254_cont_9to1_m_295_12_alg».proof.Proof.Gen.Kernel.Skeleton
import proofs.«207040_g69088843924254_cont_9to1_m_295_12_alg».proof.Proof.Gen.KernelIdeal
import proofs.«207040_g69088843924254_cont_9to1_m_295_12_alg».proof.Proof.Gen.KernelIdeal.Skeleton
import proofs.«207040_g69088843924254_cont_9to1_m_295_12_alg».proof.Proof.Gen.ReferenceIdeal
import proofs.«207040_g69088843924254_cont_9to1_m_295_12_alg».proof.Proof.Gen.Pre_input_domain
import proofs.«207040_g69088843924254_cont_9to1_m_295_12_alg».proof.Proof.IdealLaunch
import proofs.«207040_g69088843924254_cont_9to1_m_295_12_alg».proof.Proof.BitsLaunch
import proofs.«207040_g69088843924254_cont_9to1_m_295_12_alg».proof.Proof.RefRun
import proofs.«207040_g69088843924254_cont_9to1_m_295_12_alg».proof.Proof.Bridge
import Idealize.ShloMosaic.Adequacy
import Idealize.ShloMosaic.Init

noncomputable section

namespace Cert.Proof

open Idealize.ShloMosaic Idealize.SL.Sem

/-- A bound on every batch entry's matrix row is the same statement over either printed program's shapes. -/
theorem inRange_words (idx : Cert.Kernel.S1024.Idx → BitVec 32)
    (h : Cert.KernelIdeal.Spec.InRange (Cert.KernelIdeal.Spec.flat idx)) : Cert.Kernel.Spec.InRange (Cert.Kernel.Spec.flat idx) :=
  fun x => h x

/-- Under the precondition every batch entry's row of the matrix exists: the word-level program's launch memory, -/
theorem ok_words (m : (ℓ : Loc Cert.Kernel.nD Cert.Kernel.τ Cert.Kernel.sig) → Buf (Elt Bits) ℓ) (hpre : Cert.Pre_Kernel m) :
    BitsK.OK (F := Bits) m := fun d =>
  inRange_words _ (Bridge.inRange_of_pre (F := Bits) (m (BitsK.a0Loc d)) (m (BitsK.a1Loc d))
    Cert.Kernel.Facts₀.shapeCasts_S1024x1_S1024 (hpre d))

/-- and the idealized program's. -/
theorem ok_ideal (m : (ℓ : Loc Cert.KernelIdeal.nD Cert.KernelIdeal.τ Cert.KernelIdeal.sig) → Buf (Elt Ideal) ℓ)
    (hpre : Cert.Pre_KernelIdeal m) : IdealK.OK (F := Ideal) m := fun d =>
  Bridge.inRange_of_pre (F := Ideal) (m (IdealK.a0Loc d)) (m (IdealK.a1Loc d))
    Cert.KernelIdeal.Facts₀.shapeCasts_S1024x1_S1024 (hpre d)

theorem frame_K : Cert.frame_Kernel := fun m g hpre =>
  (θ_run Cert.Kernel.defs _ _).mono (fun _ hq c => (hq c).2) (BitsK.run_main (F := Bits) m g (ok_words m hpre))

theorem frame_KI : Cert.frame_KernelIdeal := fun m g hpre =>
  (θ_run Cert.KernelIdeal.defs _ _).mono (fun _ hq c => (hq c).2) (IdealK.run_main (F := Ideal) m g (ok_ideal m hpre))

theorem frame_RI : Cert.frame_ReferenceIdeal := fun m g _ =>
  (θ_run Cert.ReferenceIdeal.defs _ _).mono (fun _ hr c => (hr c).2) (RefSide.run (F := Ideal) m g)

/-- The kernel's result buffer ends at the gathered rows (the launch's run), the reference's at its own term (its
    run) of arguments that agree; under the precondition the two are one array. -/
theorem algebraic : Cert.algebraic_KernelIdeal_ReferenceIdeal := by
  intro m g m' g' hpre hagree
  refine ⟨fun c => IdealK.ROUT m (ok_ideal m hpre) c, IdealK.run_main (F := Ideal) m g (ok_ideal m hpre), ?_⟩
  refine (θ_run Cert.ReferenceIdeal.defs _ _).mono (fun _ hr c => ⟨(hr c).1.trans ?_, (hr c).2⟩) (RefSide.run (F := Ideal) m' g')
  rw [(hagree c).1, (hagree c).2]
  exact Bridge.refOut_eq_kernelOut_of_pre (F := Ideal) _ _ Cert.KernelIdeal.Facts₀.shapeCasts_S1024x1000x128_S1024000x128
    Cert.KernelIdeal.Facts₀.shapeCasts_S1024x1_S1024 Cert.KernelIdeal.Facts₀.shapeCasts_S1024x128_S1024x1x128 (hpre c) (ok_ideal m hpre c)

theorem claim : Cert.Claim := ⟨Cert.Kernel.Gen.facts, Cert.KernelIdeal.Gen.facts, Cert.ReferenceIdeal.Gen.facts, Cert.Pre_input_domain.Gen.facts,
  frame_K, frame_KI, frame_RI, trivial, algebraic⟩

end Cert.Proof

end
